-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v668)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v668) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v672) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S24x256x256 : Shape := ⟨3, ![24, 256, 256]⟩
abbrev S24x256 : Shape := ⟨2, ![24, 256]⟩
abbrev S72x28 : Shape := ⟨2, ![72, 28]⟩
abbrev S3 : Shape := ⟨1, ![3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S24x256x256 : S_.BroadcastsInDim S24x256x256 (![] : Fin 0 → Fin S24x256x256.rank)
  reducesTo_S24x256x256_S_d0_1_2 : S24x256x256.ReducesTo [0, 1, 2] S_
  bcast_S_S24x256 : S_.BroadcastsInDim S24x256 (![] : Fin 0 → Fin S24x256.rank)
  reducesTo_S24x256_S_d0_1 : S24x256.ReducesTo [0, 1] S_
  bcast_S_S72x28 : S_.BroadcastsInDim S72x28 (![] : Fin 0 → Fin S72x28.rank)
  reducesTo_S72x28_S_d0_1 : S72x28.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S72x28 .f32) (main_arg8 : FVec F S3 .f32) (main_arg9 : FVec F S3 .f32) (main_v33 : IVec S_ 1) : IVec S_ 1 :=
  let main_v34 : FVec F S72x28 .f32 := Host.absf main_arg7
  let main_cst_12 : FVec F S_ .f32 := constant S_ .f32 0x7F800000#32
  let main_v35 : FVec F S72x28 .f32 := broadcastInDim S72x28 ![] bcast_S_S72x28 main_cst_12
  let main_v36 : IVec S72x28 1 := cmpf .olt main_v34 main_v35
  let main_c_13 : IVec S_ 1 := constantI S_ 1 1#1
  let main_v37 : IVec S_ 1 := (fun x v => Host.reduce IntOp.andi x v reducesTo_S72x28_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S24x256 .f32) (main_arg5 : FVec F S24x256 .f32) (main_arg6 : FVec F S24x256 .f32) (main_arg7 : FVec F S72x28 .f32) (main_arg8 : FVec F S3 .f32) (main_arg9 : FVec F S3 .f32) (main_v13 : IVec S_ 1) (main_v16 : IVec S24x256x256 1) : IVec S_ 1 :=
  let main_c_5 : IVec S_ 1 := constantI S_ 1 1#1
  let main_v17 : IVec S_ 1 := (fun x v => Host.reduce IntOp.andi x v reducesTo_S24x256x256_S_d0_1_2 h_S_) main_v16 main_c_5
  let main_v18 : IVec S_ 1 := andi main_v13 main_v17
  let main_v19 : FVec F S24x256 .f32 := Host.absf main_arg4
  let main_cst_6 : FVec F S_ .f32 := constant S_ .f32 0x7F800000#32
  let main_v20 : FVec F S24x256 .f32 := broadcastInDim S24x256 ![] bcast_S_S24x256 main_cst_6
  let main_v21 : IVec S24x256 1 := cmpf .olt main_v19 main_v20
  let main_c_7 : IVec S_ 1 := constantI S_ 1 1#1
  let main_v22 : IVec S_ 1 := (fun x v => Host.reduce IntOp.andi x v reducesTo_S24x256_S_d0_1 h_S_) main_v21 main_c_7
  let main_v23 : IVec S_ 1 := andi main_v18 main_v22
  let main_v24 : FVec F S24x256 .f32 := Host.absf main_arg5
  let main_cst_8 : FVec F S_ .f32 := constant S_ .f32 0x7F800000#32
  let main_v25 : FVec F S24x256 .f32 := broadcastInDim S24x256 ![] bcast_S_S24x256 main_cst_8
  let main_v26 : IVec S24x256 1 := cmpf .olt main_v24 main_v25
  let main_c_9 : IVec S_ 1 := constantI S_ 1 1#1
  let main_v27 : IVec S_ 1 := (fun x v => Host.reduce IntOp.andi x v reducesTo_S24x256_S_d0_1 h_S_) main_v26 main_c_9
  let main_v28 : IVec S_ 1 := andi main_v23 main_v27
  let main_v29 : FVec F S24x256 .f32 := Host.absf main_arg6
  let main_cst_10 : FVec F S_ .f32 := constant S_ .f32 0x7F800000#32
  let main_v30 : FVec F S24x256 .f32 := broadcastInDim S24x256 ![] bcast_S_S24x256 main_cst_10
  let main_v31 : IVec S24x256 1 := cmpf .olt main_v29 main_v30
  let main_c_11 : IVec S_ 1 := constantI S_ 1 1#1
  let main_v32 : IVec S_ 1 := (fun x v => Host.reduce IntOp.andi x v reducesTo_S24x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S1000000x3 .f32) (main_arg1 : FVec F S24x256x256 .f32) (main_arg2 : FVec F S24x256x256 .f32) (main_arg3 : FVec F S24x256x256 .f32) (main_arg4 : FVec F S24x256 .f32) (main_arg5 : FVec F S24x256 .f32) (main_arg6 : FVec F S24x256 .f32) (main_arg7 : FVec F S72x28 .f32) (main_arg8 : FVec F S3 .f32) (main_arg9 : FVec F S3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S24x256x256 .f32 := Host.absf main_arg1
  let main_cst_0 : FVec F S_ .f32 := constant S_ .f32 0x7F800000#32
  let main_v5 : FVec F S24x256x256 .f32 := broadcastInDim S24x256x256 ![] bcast_S_S24x256x256 main_cst_0
  let main_v6 : IVec S24x256x256 1 := cmpf .olt main_v4 main_v5
  let main_c_1 : IVec S_ 1 := constantI S_ 1 1#1
  let main_v7 : IVec S_ 1 := (fun x v => Host.reduce IntOp.andi x v reducesTo_S24x256x256_S_d0_1_2 h_S_) main_v6 main_c_1
  let main_v8 : IVec S_ 1 := andi main_v3 main_v7
  let main_v9 : FVec F S24x256x256 .f32 := Host.absf main_arg2
  let main_cst_2 : FVec F S_ .f32 := constant S_ .f32 0x7F800000#32
  let main_v10 : FVec F S24x256x256 .f32 := broadcastInDim S24x256x256 ![] bcast_S_S24x256x256 main_cst_2
  let main_v11 : IVec S24x256x256 1 := cmpf .olt main_v9 main_v10
  let main_c_3 : IVec S_ 1 := constantI S_ 1 1#1
  let main_v12 : IVec S_ 1 := (fun x v => Host.reduce IntOp.andi x v reducesTo_S24x256x256_S_d0_1_2 h_S_) main_v11 main_c_3
  let main_v13 : IVec S_ 1 := andi main_v8 main_v12
  let main_v14 : FVec F S24x256x256 .f32 := Host.absf main_arg3
  let main_cst_4 : FVec F S_ .f32 := constant S_ .f32 0x7F800000#32
  let main_v15 : FVec F S24x256x256 .f32 := broadcastInDim S24x256x256 ![] bcast_S_S24x256x256 main_cst_4
  let main_v16 : IVec S24x256x256 1 := cmpf .olt main_v14 main_v15
  fn_part1 (F := F) main_arg4 main_arg5 main_arg6 main_arg7 main_arg8 main_arg9 main_v13 main_v16
-- ==== Kernel.lean ====
abbrev S1000000x3 : Shape := ⟨2, ![1000000, 3]⟩
abbrev S24x256x256 : Shape := ⟨3, ![24, 256, 256]⟩
abbrev S24x256 : Shape := ⟨2, ![24, 256]⟩
abbrev S72x28 : Shape := ⟨2, ![72, 28]⟩
abbrev S3 : Shape := ⟨1, ![3]⟩
abbrev S1x3 : Shape := ⟨2, ![1, 3]⟩
abbrev S_ : Shape := ⟨0, ![]⟩
abbrev S1000000x1 : Shape := ⟨2, ![1000000, 1]⟩
abbrev S1000000 : Shape := ⟨1, ![1000000]⟩
abbrev S1000000x2 : Shape := ⟨2, ![1000000, 2]⟩
abbrev S24x1000000 : Shape := ⟨2, ![24, 1000000]⟩
abbrev S1x1000000 : Shape := ⟨2, ![1, 1000000]⟩
abbrev S1000000x24 : Shape := ⟨2, ![1000000, 24]⟩
abbrev S1000000x28 : Shape := ⟨2, ![1000000, 28]⟩
abbrev S4000x24 : Shape := ⟨2, ![4000, 24]⟩
abbrev S4000x28 : Shape := ⟨2, ![4000, 28]⟩
abbrev S24x28 : Shape := ⟨2, ![24, 28]⟩

abbrev nBuf : Space → Nat
  | .hbm => 1134
  | .vmem => 15
  | .smem => 0
  | _ => 0

abbrev hbmTy0_0 (i : Nat) : BufTy := match i % 128 with
  | 0 => ⟨S1000000x3, .f32⟩
  | 1 => ⟨S24x256x256, .f32⟩
  | 2 => ⟨S24x256x256, .f32⟩
  | 3 => ⟨S24x256x256, .f32⟩
  | 4 => ⟨S24x256, .f32⟩
  | 5 => ⟨S24x256, .f32⟩
  | 6 => ⟨S24x256, .f32⟩
  | 7 => ⟨S72x28, .f32⟩
  | 8 => ⟨S3, .f32⟩
  | 9 => ⟨S3, .f32⟩
  | 10 => ⟨S1x3, .f32⟩
  | 11 => ⟨S1000000x3, .f32⟩
  | 12 => ⟨S1000000x3, .f32⟩
  | 13 => ⟨S3, .f32⟩
  | 14 => ⟨S1x3, .f32⟩
  | 15 => ⟨S1000000x3, .f32⟩
  | 16 => ⟨S1000000x3, .f32⟩
  | 17 => ⟨S_, .f32⟩
  | 18 => ⟨S1000000x3, .f32⟩
  | 19 => ⟨S1000000x3, .f32⟩
  | 20 => ⟨S_, .f32⟩
  | 21 => ⟨S1000000x3, .f32⟩
  | 22 => ⟨S1000000x3, .f32⟩
  | 23 => ⟨S1000000x1, .f32⟩
  | 24 => ⟨S1000000, .f32⟩
  | 25 => ⟨S1000000x1, .f32⟩
  | 26 => ⟨S1000000, .f32⟩
  | 27 => ⟨S1000000x1, .f32⟩
  | 28 => ⟨S1000000, .f32⟩
  | 29 => ⟨S_, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000, .f32⟩
  | 48 => ⟨S1000000, .f32⟩
  | 49 => ⟨S1000000, .f32⟩
  | 50 => ⟨S1000000, .f32⟩
  | 51 => ⟨S1000000, .i32⟩
  | 52 => ⟨S1000000, .i32⟩
  | 53 => ⟨S_, .i32⟩
  | 54 => ⟨S1000000, .i32⟩
  | 55 => ⟨S1000000, .i32⟩
  | 56 => ⟨S_, .i32⟩
  | 57 => ⟨S1000000, .i32⟩
  | 58 => ⟨S1000000, .i32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S1x1000000, .f32⟩
  | 122 => ⟨S24x1000000, .f32⟩
  | 123 => ⟨S24x1000000, .f32⟩
  | 124 => ⟨S_, .i32⟩
  | 125 => ⟨S1000000, .i32⟩
  | 126 => ⟨S1000000, .i1⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S1000000, .i1⟩
  | 3 => ⟨S_, .i32⟩
  | 4 => ⟨S1000000, .i32⟩
  | 5 => ⟨S1000000, .i1⟩
  | 6 => ⟨S1000000, .i1⟩
  | 7 => ⟨S_, .i32⟩
  | 8 => ⟨S1000000, .i32⟩
  | 9 => ⟨S1000000, .i1⟩
  | 10 => ⟨S1000000, .i1⟩
  | 11 => ⟨S_, .i32⟩
  | 12 => ⟨S_, .i32⟩
  | 13 => ⟨S_, .i32⟩
  | 14 => ⟨S1000000, .i32⟩
  | 15 => ⟨S1000000, .i32⟩
  | 16 => ⟨S_, .i32⟩
  | 17 => ⟨S1000000, .i32⟩
  | 18 => ⟨S1000000, .i32⟩
  | 19 => ⟨S_, .i32⟩
  | 20 => ⟨S_, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x1, .i32⟩
  | 43 => ⟨S1000000x2, .i32⟩
  | 44 => ⟨S24x1000000, .f32⟩
  | 45 => ⟨S1x1000000, .i1⟩
  | 46 => ⟨S_, .f32⟩
  | 47 => ⟨S_, .f32⟩
  | 48 => ⟨S24x1000000, .i1⟩
  | 49 => ⟨S24x1000000, .f32⟩
  | 50 => ⟨S24x1000000, .f32⟩
  | 51 => ⟨S_, .f32⟩
  | 52 => ⟨S1000000, .f32⟩
  | 53 => ⟨S1000000, .f32⟩
  | 54 => ⟨S1000000, .f32⟩
  | 55 => ⟨S1x1000000, .f32⟩
  | 56 => ⟨S24x1000000, .f32⟩
  | 57 => ⟨S24x1000000, .f32⟩
  | 58 => ⟨S24x1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S1000000, .f32⟩
  | 118 => ⟨S1x1000000, .f32⟩
  | 119 => ⟨S24x1000000, .f32⟩
  | 120 => ⟨S24x1000000, .f32⟩
  | 121 => ⟨S24x1000000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_2 (i : Nat) : BufTy := match i % 128 with
  | 0 => ⟨S1000000, .i1⟩
  | 1 => ⟨S_, .i32⟩
  | 2 => ⟨S1000000, .i32⟩
  | 3 => ⟨S1000000, .i1⟩
  | 4 => ⟨S1000000, .i1⟩
  | 5 => ⟨S_, .i32⟩
  | 6 => ⟨S1000000, .i32⟩
  | 7 => ⟨S1000000, .i1⟩
  | 8 => ⟨S1000000, .i1⟩
  | 9 => ⟨S_, .i32⟩
  | 10 => ⟨S_, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i32⟩
  | 17 => ⟨S_, .i32⟩
  | 18 => ⟨S_, .i32⟩
  | 19 => ⟨S_, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x1, .i32⟩
  | 41 => ⟨S1000000x2, .i32⟩
  | 42 => ⟨S24x1000000, .f32⟩
  | 43 => ⟨S1x1000000, .i1⟩
  | 44 => ⟨S_, .f32⟩
  | 45 => ⟨S_, .f32⟩
  | 46 => ⟨S24x1000000, .i1⟩
  | 47 => ⟨S24x1000000, .f32⟩
  | 48 => ⟨S24x1000000, .f32⟩
  | 49 => ⟨S1000000, .f32⟩
  | 50 => ⟨S1x1000000, .f32⟩
  | 51 => ⟨S24x1000000, .f32⟩
  | 52 => ⟨S24x1000000, .f32⟩
  | 53 => ⟨S24x1000000, .f32⟩
  | 54 => ⟨S1000000x24, .f32⟩
  | 55 => ⟨S_, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_3 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S1x1000000, .f32⟩
  | 20 => ⟨S24x1000000, .f32⟩
  | 21 => ⟨S24x1000000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i1⟩
  | 28 => ⟨S1000000, .i1⟩
  | 29 => ⟨S_, .i32⟩
  | 30 => ⟨S1000000, .i32⟩
  | 31 => ⟨S1000000, .i1⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x1, .i32⟩
  | 69 => ⟨S1000000x2, .i32⟩
  | 70 => ⟨S24x1000000, .f32⟩
  | 71 => ⟨S1x1000000, .i1⟩
  | 72 => ⟨S_, .f32⟩
  | 73 => ⟨S_, .f32⟩
  | 74 => ⟨S24x1000000, .i1⟩
  | 75 => ⟨S24x1000000, .f32⟩
  | 76 => ⟨S24x1000000, .f32⟩
  | 77 => ⟨S_, .f32⟩
  | 78 => ⟨S1000000, .f32⟩
  | 79 => ⟨S1000000, .f32⟩
  | 80 => ⟨S1000000, .f32⟩
  | 81 => ⟨S1x1000000, .f32⟩
  | 82 => ⟨S24x1000000, .f32⟩
  | 83 => ⟨S24x1000000, .f32⟩
  | 84 => ⟨S24x1000000, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_4 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S1000000, .f32⟩
  | 16 => ⟨S1x1000000, .f32⟩
  | 17 => ⟨S24x1000000, .f32⟩
  | 18 => ⟨S24x1000000, .f32⟩
  | 19 => ⟨S24x1000000, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i1⟩
  | 26 => ⟨S1000000, .i1⟩
  | 27 => ⟨S_, .i32⟩
  | 28 => ⟨S1000000, .i32⟩
  | 29 => ⟨S1000000, .i1⟩
  | 30 => ⟨S1000000, .i1⟩
  | 31 => ⟨S_, .i32⟩
  | 32 => ⟨S1000000, .i32⟩
  | 33 => ⟨S1000000, .i1⟩
  | 34 => ⟨S1000000, .i1⟩
  | 35 => ⟨S_, .i32⟩
  | 36 => ⟨S_, .i32⟩
  | 37 => ⟨S_, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S_, .i32⟩
  | 45 => ⟨S_, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x1, .i32⟩
  | 67 => ⟨S1000000x2, .i32⟩
  | 68 => ⟨S24x1000000, .f32⟩
  | 69 => ⟨S1x1000000, .i1⟩
  | 70 => ⟨S_, .f32⟩
  | 71 => ⟨S_, .f32⟩
  | 72 => ⟨S24x1000000, .i1⟩
  | 73 => ⟨S24x1000000, .f32⟩
  | 74 => ⟨S24x1000000, .f32⟩
  | 75 => ⟨S1000000, .f32⟩
  | 76 => ⟨S1x1000000, .f32⟩
  | 77 => ⟨S24x1000000, .f32⟩
  | 78 => ⟨S24x1000000, .f32⟩
  | 79 => ⟨S24x1000000, .f32⟩
  | 80 => ⟨S1000000x24, .f32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S1000000, .f32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_5 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1x1000000, .f32⟩
  | 46 => ⟨S24x1000000, .f32⟩
  | 47 => ⟨S24x1000000, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i1⟩
  | 54 => ⟨S1000000, .i1⟩
  | 55 => ⟨S_, .i32⟩
  | 56 => ⟨S1000000, .i32⟩
  | 57 => ⟨S1000000, .i1⟩
  | 58 => ⟨S1000000, .i1⟩
  | 59 => ⟨S_, .i32⟩
  | 60 => ⟨S1000000, .i32⟩
  | 61 => ⟨S1000000, .i1⟩
  | 62 => ⟨S1000000, .i1⟩
  | 63 => ⟨S_, .i32⟩
  | 64 => ⟨S_, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S_, .i32⟩
  | 72 => ⟨S_, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x1, .i32⟩
  | 95 => ⟨S1000000x2, .i32⟩
  | 96 => ⟨S24x1000000, .f32⟩
  | 97 => ⟨S1x1000000, .i1⟩
  | 98 => ⟨S_, .f32⟩
  | 99 => ⟨S_, .f32⟩
  | 100 => ⟨S24x1000000, .i1⟩
  | 101 => ⟨S24x1000000, .f32⟩
  | 102 => ⟨S24x1000000, .f32⟩
  | 103 => ⟨S_, .f32⟩
  | 104 => ⟨S1000000, .f32⟩
  | 105 => ⟨S1000000, .f32⟩
  | 106 => ⟨S1000000, .f32⟩
  | 107 => ⟨S1x1000000, .f32⟩
  | 108 => ⟨S24x1000000, .f32⟩
  | 109 => ⟨S24x1000000, .f32⟩
  | 110 => ⟨S24x1000000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_6 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S1000000, .f32⟩
  | 42 => ⟨S1x1000000, .f32⟩
  | 43 => ⟨S24x1000000, .f32⟩
  | 44 => ⟨S24x1000000, .f32⟩
  | 45 => ⟨S24x1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i1⟩
  | 52 => ⟨S1000000, .i1⟩
  | 53 => ⟨S_, .i32⟩
  | 54 => ⟨S1000000, .i32⟩
  | 55 => ⟨S1000000, .i1⟩
  | 56 => ⟨S1000000, .i1⟩
  | 57 => ⟨S_, .i32⟩
  | 58 => ⟨S1000000, .i32⟩
  | 59 => ⟨S1000000, .i1⟩
  | 60 => ⟨S1000000, .i1⟩
  | 61 => ⟨S_, .i32⟩
  | 62 => ⟨S_, .i32⟩
  | 63 => ⟨S_, .i32⟩
  | 64 => ⟨S1000000, .i32⟩
  | 65 => ⟨S1000000, .i32⟩
  | 66 => ⟨S_, .i32⟩
  | 67 => ⟨S1000000, .i32⟩
  | 68 => ⟨S1000000, .i32⟩
  | 69 => ⟨S_, .i32⟩
  | 70 => ⟨S_, .i32⟩
  | 71 => ⟨S_, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x1, .i32⟩
  | 93 => ⟨S1000000x2, .i32⟩
  | 94 => ⟨S24x1000000, .f32⟩
  | 95 => ⟨S1x1000000, .i1⟩
  | 96 => ⟨S_, .f32⟩
  | 97 => ⟨S_, .f32⟩
  | 98 => ⟨S24x1000000, .i1⟩
  | 99 => ⟨S24x1000000, .f32⟩
  | 100 => ⟨S24x1000000, .f32⟩
  | 101 => ⟨S1000000, .f32⟩
  | 102 => ⟨S1x1000000, .f32⟩
  | 103 => ⟨S24x1000000, .f32⟩
  | 104 => ⟨S24x1000000, .f32⟩
  | 105 => ⟨S24x1000000, .f32⟩
  | 106 => ⟨S1000000x24, .f32⟩
  | 107 => ⟨S_, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S1000000, .f32⟩
  | 118 => ⟨S1000000, .i32⟩
  | 119 => ⟨S_, .i32⟩
  | 120 => ⟨S1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_7 (i : Nat) : BufTy := match i % 128 with
  | 0 => ⟨S1000000, .i1⟩
  | 1 => ⟨S_, .i32⟩
  | 2 => ⟨S_, .i32⟩
  | 3 => ⟨S_, .i32⟩
  | 4 => ⟨S1000000, .i32⟩
  | 5 => ⟨S1000000, .i32⟩
  | 6 => ⟨S_, .i32⟩
  | 7 => ⟨S1000000, .i32⟩
  | 8 => ⟨S1000000, .i32⟩
  | 9 => ⟨S1x1000000, .i1⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S24x1000000, .f32⟩
  | 19 => ⟨S_, .f32⟩
  | 20 => ⟨S_, .f32⟩
  | 21 => ⟨S24x1000000, .i1⟩
  | 22 => ⟨S24x1000000, .f32⟩
  | 23 => ⟨S24x1000000, .f32⟩
  | 24 => ⟨S_, .f32⟩
  | 25 => ⟨S1000000, .f32⟩
  | 26 => ⟨S1000000, .f32⟩
  | 27 => ⟨S1x1000000, .f32⟩
  | 28 => ⟨S24x1000000, .f32⟩
  | 29 => ⟨S24x1000000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1x1000000, .i1⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S24x1000000, .f32⟩
  | 55 => ⟨S_, .f32⟩
  | 56 => ⟨S_, .f32⟩
  | 57 => ⟨S24x1000000, .i1⟩
  | 58 => ⟨S24x1000000, .f32⟩
  | 59 => ⟨S24x1000000, .f32⟩
  | 60 => ⟨S1x1000000, .f32⟩
  | 61 => ⟨S24x1000000, .f32⟩
  | 62 => ⟨S24x1000000, .f32⟩
  | 63 => ⟨S24x1000000, .f32⟩
  | 64 => ⟨S1000000x24, .f32⟩
  | 65 => ⟨S_, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S1000000, .f32⟩
  | 76 => ⟨S1000000, .i32⟩
  | 77 => ⟨S_, .i32⟩
  | 78 => ⟨S1000000, .i32⟩
  | 79 => ⟨S1000000, .i32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i1⟩
  | 86 => ⟨S1000000, .i1⟩
  | 87 => ⟨S_, .i32⟩
  | 88 => ⟨S_, .i32⟩
  | 89 => ⟨S_, .i32⟩
  | 90 => ⟨S1000000, .i32⟩
  | 91 => ⟨S1000000, .i32⟩
  | 92 => ⟨S_, .i32⟩
  | 93 => ⟨S1000000, .i32⟩
  | 94 => ⟨S1000000, .i32⟩
  | 95 => ⟨S1x1000000, .i1⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S24x1000000, .f32⟩
  | 105 => ⟨S_, .f32⟩
  | 106 => ⟨S_, .f32⟩
  | 107 => ⟨S24x1000000, .i1⟩
  | 108 => ⟨S24x1000000, .f32⟩
  | 109 => ⟨S24x1000000, .f32⟩
  | 110 => ⟨S_, .f32⟩
  | 111 => ⟨S1000000, .f32⟩
  | 112 => ⟨S1000000, .f32⟩
  | 113 => ⟨S1x1000000, .f32⟩
  | 114 => ⟨S24x1000000, .f32⟩
  | 115 => ⟨S24x1000000, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i1⟩
  | 122 => ⟨S1000000, .i1⟩
  | 123 => ⟨S_, .i32⟩
  | 124 => ⟨S_, .i32⟩
  | 125 => ⟨S_, .i32⟩
  | 126 => ⟨S1000000, .i32⟩
  | 127 => ⟨S1000000, .i32⟩
  | _ => ⟨S1000000x3, .f32⟩

abbrev hbmTy0_8 (i : Nat) : BufTy := match i % 128 with
  | 0 => ⟨S_, .i32⟩
  | 1 => ⟨S1000000, .i32⟩
  | 2 => ⟨S1000000, .i32⟩
  | 3 => ⟨S1x1000000, .i1⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S24x1000000, .f32⟩
  | 13 => ⟨S_, .f32⟩
  | 14 => ⟨S_, .f32⟩
  | 15 => ⟨S24x1000000, .i1⟩
  | 16 => ⟨S24x1000000, .f32⟩
  | 17 => ⟨S24x1000000, .f32⟩
  | 18 => ⟨S1x1000000, .f32⟩
  | 19 => ⟨S24x1000000, .f32⟩
  | 20 => ⟨S24x1000000, .f32⟩
  | 21 => ⟨S24x1000000, .f32⟩
  | 22 => ⟨S1000000x24, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S1000000, .f32⟩
  | 34 => ⟨S1000000, .i32⟩
  | 35 => ⟨S_, .i32⟩
  | 36 => ⟨S1000000, .i32⟩
  | 37 => ⟨S1000000, .i32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i1⟩
  | 44 => ⟨S1000000, .i1⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S1x1000000, .i1⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S24x1000000, .f32⟩
  | 63 => ⟨S_, .f32⟩
  | 64 => ⟨S_, .f32⟩
  | 65 => ⟨S24x1000000, .i1⟩
  | 66 => ⟨S24x1000000, .f32⟩
  | 67 => ⟨S24x1000000, .f32⟩
  | 68 => ⟨S_, .f32⟩
  | 69 => ⟨S1000000, .f32⟩
  | 70 => ⟨S1000000, .f32⟩
  | 71 => ⟨S1x1000000, .f32⟩
  | 72 => ⟨S24x1000000, .f32⟩
  | 73 => ⟨S24x1000000, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i1⟩
  | 80 => ⟨S1000000, .i1⟩
  | 81 => ⟨S_, .i32⟩
  | 82 => ⟨S_, .i32⟩
  | 83 => ⟨S_, .i32⟩
  | 84 => ⟨S1000000, .i32⟩
  | 85 => ⟨S1000000, .i32⟩
  | 86 => ⟨S_, .i32⟩
  | 87 => ⟨S1000000, .i32⟩
  | 88 => ⟨S1000000, .i32⟩
  | 89 => ⟨S1x1000000, .i1⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S24x1000000, .f32⟩
  | 99 => ⟨S_, .f32⟩
  | 100 => ⟨S_, .f32⟩
  | 101 => ⟨S24x1000000, .i1⟩
  | 102 => ⟨S24x1000000, .f32⟩
  | 103 => ⟨S24x1000000, .f32⟩
  | 104 => ⟨S1x1000000, .f32⟩
  | 105 => ⟨S24x1000000, .f32⟩
  | 106 => ⟨S24x1000000, .f32⟩
  | 107 => ⟨S24x1000000, .f32⟩
  | 108 => ⟨S1000000x24, .f32⟩
  | 109 => ⟨S1000000x28, .f32⟩
  | _ => ⟨S1000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x3, .f32⟩

abbrev bufTy : (tb : Table) → Fin (tcTables nBuf tb) → BufTy
  | .hbm, ⟨i, _⟩ => hbmTy i
  | .local _ .vmem, ⟨0, _⟩ => ⟨S4000x24, .f32⟩
  | .local _ .vmem, ⟨1, _⟩ => ⟨S4000x24, .f32⟩
  | .local _ .vmem, ⟨2, _⟩ => ⟨S4000x24, .f32⟩
  | .local _ .vmem, ⟨3, _⟩ => ⟨S4000x24, .f32⟩
  | .local _ .vmem, ⟨4, _⟩ => ⟨S4000x24, .f32⟩
  | .local _ .vmem, ⟨5, _⟩ => ⟨S4000x24, .f32⟩
  | .local _ .vmem, ⟨6, _⟩ => ⟨S4000x24, .f32⟩
  | .local _ .vmem, ⟨7, _⟩ => ⟨S4000x24, .f32⟩
  | .local _ .vmem, ⟨8, _⟩ => ⟨S4000x24, .f32⟩
  | .local _ .vmem, ⟨9, _⟩ => ⟨S4000x24, .f32⟩
  | .local _ .vmem, ⟨10, _⟩ => ⟨S4000x24, .f32⟩
  | .local _ .vmem, ⟨11, _⟩ => ⟨S4000x24, .f32⟩
  | .local _ .vmem, ⟨12, _⟩ => ⟨S72x28, .f32⟩
  | .local _ .vmem, ⟨13, _⟩ => ⟨S4000x28, .f32⟩
  | .local _ .vmem, ⟨14, _⟩ => ⟨S4000x28, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_c_13 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v50 : Ref sig .tc := ⟨.hbm, 81, rfl⟩
abbrev main_c_14 : Ref sig .tc := ⟨.hbm, 82, rfl⟩
abbrev main_c_15 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v51 : Ref sig .tc := ⟨.hbm, 89, rfl⟩
abbrev main_c_16 : Ref sig .tc := ⟨.hbm, 90, rfl⟩
abbrev main_v52 : Ref sig .tc := ⟨.hbm, 91, rfl⟩
abbrev main_v53 : Ref sig .tc := ⟨.hbm, 92, rfl⟩
abbrev main_c_17 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_18 : Ref sig .tc := ⟨.hbm, 97, rfl⟩
abbrev main_v57 : Ref sig .tc := ⟨.hbm, 98, rfl⟩
abbrev main_v58 : Ref sig .tc := ⟨.hbm, 99, rfl⟩
abbrev main_c_19 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_20 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v67 : Ref sig .tc := ⟨.hbm, 113, rfl⟩
abbrev main_cst_21 : Ref sig .tc := ⟨.hbm, 114, rfl⟩
abbrev main_v68 : Ref sig .tc := ⟨.hbm, 115, rfl⟩
abbrev main_v69 : Ref sig .tc := ⟨.hbm, 116, rfl⟩
abbrev main_cst_22 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_23 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_25 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_26 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_27 : Ref sig .tc := ⟨.hbm, 139, rfl⟩
abbrev main_c_28 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v87 : Ref sig .tc := ⟨.hbm, 146, rfl⟩
abbrev main_c_29 : Ref sig .tc := ⟨.hbm, 147, rfl⟩
abbrev main_c_30 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v88 : Ref sig .tc := ⟨.hbm, 154, rfl⟩
abbrev main_c_31 : Ref sig .tc := ⟨.hbm, 155, rfl⟩
abbrev main_v89 : Ref sig .tc := ⟨.hbm, 156, rfl⟩
abbrev main_v90 : Ref sig .tc := ⟨.hbm, 157, rfl⟩
abbrev main_c_32 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c_33 : Ref sig .tc := ⟨.hbm, 162, rfl⟩
abbrev main_v94 : Ref sig .tc := ⟨.hbm, 163, rfl⟩
abbrev main_v95 : Ref sig .tc := ⟨.hbm, 164, rfl⟩
abbrev main_c_34 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_35 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v104 : Ref sig .tc := ⟨.hbm, 178, rfl⟩
abbrev main_cst_36 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_37 : Ref sig .tc := ⟨.hbm, 187, rfl⟩
abbrev main_v112 : Ref sig .tc := ⟨.hbm, 188, rfl⟩
abbrev main_v113 : Ref sig .tc := ⟨.hbm, 189, rfl⟩
abbrev main_c_38 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_c_39 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_c_40 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_41 : Ref sig .tc := ⟨.hbm, 202, rfl⟩
abbrev main_c_42 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_c_43 : Ref sig .tc := ⟨.hbm, 210, rfl⟩
abbrev main_c_44 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_v124 : Ref sig .tc := ⟨.hbm, 217, rfl⟩
abbrev main_c_45 : Ref sig .tc := ⟨.hbm, 218, rfl⟩
abbrev main_v125 : Ref sig .tc := ⟨.hbm, 219, rfl⟩
abbrev main_v126 : Ref sig .tc := ⟨.hbm, 220, rfl⟩
abbrev main_c_46 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_c_47 : Ref sig .tc := ⟨.hbm, 225, rfl⟩
abbrev main_v130 : Ref sig .tc := ⟨.hbm, 226, rfl⟩
abbrev main_v131 : Ref sig .tc := ⟨.hbm, 227, rfl⟩
abbrev main_c_48 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_cst_49 : Ref sig .tc := ⟨.hbm, 237, rfl⟩
abbrev main_call8_v0 : Ref sig .tc := ⟨.hbm, 238, rfl⟩
abbrev main_call8_v1 : Ref sig .tc := ⟨.hbm, 239, rfl⟩
abbrev main_call8_v2 : Ref sig .tc := ⟨.hbm, 240, rfl⟩
abbrev main_v140 : Ref sig .tc := ⟨.hbm, 241, rfl⟩
abbrev main_cst_50 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_c_51 : Ref sig .tc := ⟨.hbm, 250, rfl⟩
abbrev main_v148 : Ref sig .tc := ⟨.hbm, 251, rfl⟩
abbrev main_v149 : Ref sig .tc := ⟨.hbm, 252, rfl⟩
abbrev main_c_52 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_c_53 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_c_54 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_c_55 : Ref sig .tc := ⟨.hbm, 265, rfl⟩
abbrev main_c_56 : Ref sig .tc := ⟨.hbm, 266, rfl⟩
abbrev main_call9_v0 : Ref sig .tc := ⟨.hbm, 267, rfl⟩
abbrev main_call9_v1 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_v159 : Ref sig .tc := ⟨.hbm, 272, rfl⟩
abbrev main_c_57 : Ref sig .tc := ⟨.hbm, 273, rfl⟩
abbrev main_c_58 : Ref sig .tc := ⟨.hbm, 274, rfl⟩
abbrev main_call10_v0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_v160 : Ref sig .tc := ⟨.hbm, 280, rfl⟩
abbrev main_c_59 : Ref sig .tc := ⟨.hbm, 281, rfl⟩
abbrev main_v161 : Ref sig .tc := ⟨.hbm, 282, rfl⟩
abbrev main_v162 : Ref sig .tc := ⟨.hbm, 283, rfl⟩
abbrev main_c_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_c_61 : Ref sig .tc := ⟨.hbm, 288, rfl⟩
abbrev main_v166 : Ref sig .tc := ⟨.hbm, 289, rfl⟩
abbrev main_v167 : Ref sig .tc := ⟨.hbm, 290, rfl⟩
abbrev main_c_62 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_cst_63 : Ref sig .tc := ⟨.hbm, 300, rfl⟩
abbrev main_call11_v0 : Ref sig .tc := ⟨.hbm, 301, rfl⟩
abbrev main_call11_v1 : Ref sig .tc := ⟨.hbm, 302, rfl⟩
abbrev main_call11_v2 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_cst_64 : Ref sig .tc := ⟨.hbm, 311, rfl⟩
abbrev main_v183 : Ref sig .tc := ⟨.hbm, 312, rfl⟩
abbrev main_v184 : Ref sig .tc := ⟨.hbm, 313, rfl⟩
abbrev main_cst_65 : Ref sig .tc := ⟨.hbm, 314, rfl⟩
abbrev main_v185 : Ref sig .tc := ⟨.hbm, 315, rfl⟩
abbrev main_v186 : Ref sig .tc := ⟨.hbm, 316, rfl⟩
abbrev main_cst_66 : Ref sig .tc := ⟨.hbm, 317, rfl⟩
abbrev main_v187 : Ref sig .tc := ⟨.hbm, 318, rfl⟩
abbrev main_v188 : Ref sig .tc := ⟨.hbm, 319, rfl⟩
abbrev main_cst_67 : Ref sig .tc := ⟨.hbm, 320, rfl⟩
abbrev main_v189 : Ref sig .tc := ⟨.hbm, 321, rfl⟩
abbrev main_v190 : Ref sig .tc := ⟨.hbm, 322, rfl⟩
abbrev main_cst_68 : Ref sig .tc := ⟨.hbm, 323, rfl⟩
abbrev main_v191 : Ref sig .tc := ⟨.hbm, 324, rfl⟩
abbrev main_v192 : Ref sig .tc := ⟨.hbm, 325, rfl⟩
abbrev main_cst_69 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_c_70 : Ref sig .tc := ⟨.hbm, 335, rfl⟩
abbrev main_v201 : Ref sig .tc := ⟨.hbm, 336, rfl⟩
abbrev main_v202 : Ref sig .tc := ⟨.hbm, 337, rfl⟩
abbrev main_c_71 : Ref sig .tc := ⟨.hbm, 338, rfl⟩
abbrev main_v203 : Ref sig .tc := ⟨.hbm, 339, rfl⟩
abbrev main_v204 : Ref sig .tc := ⟨.hbm, 340, rfl⟩
abbrev main_c_72 : Ref sig .tc := ⟨.hbm, 341, rfl⟩
abbrev main_v205 : Ref sig .tc := ⟨.hbm, 342, rfl⟩
abbrev main_v206 : Ref sig .tc := ⟨.hbm, 343, rfl⟩
abbrev main_c_73 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_c_74 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_c_75 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_c_76 : Ref sig .tc := ⟨.hbm, 356, rfl⟩
abbrev main_c_77 : Ref sig .tc := ⟨.hbm, 357, rfl⟩
abbrev main_call12_v0 : Ref sig .tc := ⟨.hbm, 358, rfl⟩
abbrev main_call12_v1 : Ref sig .tc := ⟨.hbm, 359, rfl⟩
abbrev main_call12_v2 : Ref sig .tc := ⟨.hbm, 360, rfl⟩
abbrev main_call12_v3 : Ref sig .tc := ⟨.hbm, 361, rfl⟩
abbrev main_call12_v4 : Ref sig .tc := ⟨.hbm, 362, rfl⟩
abbrev main_v216 : Ref sig .tc := ⟨.hbm, 363, rfl⟩
abbrev main_c_78 : Ref sig .tc := ⟨.hbm, 364, rfl⟩
abbrev main_c_79 : Ref sig .tc := ⟨.hbm, 365, rfl⟩
abbrev main_call13_v0 : Ref sig .tc := ⟨.hbm, 366, rfl⟩
abbrev main_call13_v1 : Ref sig .tc := ⟨.hbm, 367, rfl⟩
abbrev main_call13_v2 : Ref sig .tc := ⟨.hbm, 368, rfl⟩
abbrev main_call13_v3 : Ref sig .tc := ⟨.hbm, 369, rfl⟩
abbrev main_call13_v4 : Ref sig .tc := ⟨.hbm, 370, rfl⟩
abbrev main_v217 : Ref sig .tc := ⟨.hbm, 371, rfl⟩
abbrev main_c_80 : Ref sig .tc := ⟨.hbm, 372, rfl⟩
abbrev main_v218 : Ref sig .tc := ⟨.hbm, 373, rfl⟩
abbrev main_v219 : Ref sig .tc := ⟨.hbm, 374, rfl⟩
abbrev main_c_81 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_c_82 : Ref sig .tc := ⟨.hbm, 379, rfl⟩
abbrev main_v223 : Ref sig .tc := ⟨.hbm, 380, rfl⟩
abbrev main_v224 : Ref sig .tc := ⟨.hbm, 381, rfl⟩
abbrev main_c_83 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_cst_84 : Ref sig .tc := ⟨.hbm, 391, rfl⟩
abbrev main_call14_v0 : Ref sig .tc := ⟨.hbm, 392, rfl⟩
abbrev main_call14_v1 : Ref sig .tc := ⟨.hbm, 393, rfl⟩
abbrev main_call14_v2 : Ref sig .tc := ⟨.hbm, 394, rfl⟩
abbrev main_v233 : Ref sig .tc := ⟨.hbm, 395, rfl⟩
abbrev main_cst_85 : Ref sig .tc := ⟨.hbm, 396, rfl⟩
abbrev main_v234 : Ref sig .tc := ⟨.hbm, 397, rfl⟩
abbrev main_v235 : Ref sig .tc := ⟨.hbm, 398, rfl⟩
abbrev main_cst_86 : Ref sig .tc := ⟨.hbm, 399, rfl⟩
abbrev main_v236 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_c_87 : Ref sig .tc := ⟨.hbm, 406, rfl⟩
abbrev main_v242 : Ref sig .tc := ⟨.hbm, 407, rfl⟩
abbrev main_v243 : Ref sig .tc := ⟨.hbm, 408, rfl⟩
abbrev main_c_88 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_c_89 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_c_90 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_c_91 : Ref sig .tc := ⟨.hbm, 421, rfl⟩
abbrev main_c_92 : Ref sig .tc := ⟨.hbm, 422, rfl⟩
abbrev main_call15_v0 : Ref sig .tc := ⟨.hbm, 423, rfl⟩
abbrev main_call15_v1 : Ref sig .tc := ⟨.hbm, 424, rfl⟩
abbrev main_call15_v2 : Ref sig .tc := ⟨.hbm, 425, rfl⟩
abbrev main_call15_v3 : Ref sig .tc := ⟨.hbm, 426, rfl⟩
abbrev main_call15_v4 : Ref sig .tc := ⟨.hbm, 427, rfl⟩
abbrev main_v253 : Ref sig .tc := ⟨.hbm, 428, rfl⟩
abbrev main_c_93 : Ref sig .tc := ⟨.hbm, 429, rfl⟩
abbrev main_c_94 : Ref sig .tc := ⟨.hbm, 430, rfl⟩
abbrev main_call16_v0 : Ref sig .tc := ⟨.hbm, 431, rfl⟩
abbrev main_call16_v1 : Ref sig .tc := ⟨.hbm, 432, rfl⟩
abbrev main_call16_v2 : Ref sig .tc := ⟨.hbm, 433, rfl⟩
abbrev main_call16_v3 : Ref sig .tc := ⟨.hbm, 434, rfl⟩
abbrev main_call16_v4 : Ref sig .tc := ⟨.hbm, 435, rfl⟩
abbrev main_v254 : Ref sig .tc := ⟨.hbm, 436, rfl⟩
abbrev main_c_95 : Ref sig .tc := ⟨.hbm, 437, rfl⟩
abbrev main_v255 : Ref sig .tc := ⟨.hbm, 438, rfl⟩
abbrev main_v256 : Ref sig .tc := ⟨.hbm, 439, rfl⟩
abbrev main_c_96 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_c_97 : Ref sig .tc := ⟨.hbm, 444, rfl⟩
abbrev main_v260 : Ref sig .tc := ⟨.hbm, 445, rfl⟩
abbrev main_v261 : Ref sig .tc := ⟨.hbm, 446, rfl⟩
abbrev main_c_98 : Ref sig .tc := ⟨.hbm, 447, rfl⟩
abbrev main_v262 : Ref sig .tc := ⟨.hbm, 448, rfl⟩
abbrev main_v263 : Ref sig .tc := ⟨.hbm, 449, rfl⟩
abbrev main_v264 : Ref sig .tc := ⟨.hbm, 450, rfl⟩
abbrev main_v265 : Ref sig .tc := ⟨.hbm, 451, rfl⟩
abbrev main_v266 : Ref sig .tc := ⟨.hbm, 452, rfl⟩
abbrev main_v267 : Ref sig .tc := ⟨.hbm, 453, rfl⟩
abbrev main_v268 : Ref sig .tc := ⟨.hbm, 454, rfl⟩
abbrev main_v269 : Ref sig .tc := ⟨.hbm, 455, rfl⟩
abbrev main_cst_99 : Ref sig .tc := ⟨.hbm, 456, rfl⟩
abbrev main_call17_v0 : Ref sig .tc := ⟨.hbm, 457, rfl⟩
abbrev main_call17_v1 : Ref sig .tc := ⟨.hbm, 458, rfl⟩
abbrev main_call17_v2 : Ref sig .tc := ⟨.hbm, 459, rfl⟩
abbrev main_v270 : Ref sig .tc := ⟨.hbm, 460, rfl⟩
abbrev main_cst_100 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_c_101 : Ref sig .tc := ⟨.hbm, 469, rfl⟩
abbrev main_v278 : Ref sig .tc := ⟨.hbm, 470, rfl⟩
abbrev main_v279 : Ref sig .tc := ⟨.hbm, 471, rfl⟩
abbrev main_c_102 : Ref sig .tc := ⟨.hbm, 472, rfl⟩
abbrev main_v280 : Ref sig .tc := ⟨.hbm, 473, rfl⟩
abbrev main_v281 : Ref sig .tc := ⟨.hbm, 474, rfl⟩
abbrev main_v282 : Ref sig .tc := ⟨.hbm, 475, rfl⟩
abbrev main_c_103 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_c_104 : Ref sig .tc := ⟨.hbm, 480, rfl⟩
abbrev main_v286 : Ref sig .tc := ⟨.hbm, 481, rfl⟩
abbrev main_v287 : Ref sig .tc := ⟨.hbm, 482, rfl⟩
abbrev main_v288 : Ref sig .tc := ⟨.hbm, 483, rfl⟩
abbrev main_c_105 : Ref sig .tc := ⟨.hbm, 484, rfl⟩
abbrev main_c_106 : Ref sig .tc := ⟨.hbm, 485, rfl⟩
abbrev main_call18_v0 : Ref sig .tc := ⟨.hbm, 486, rfl⟩
abbrev main_call18_v1 : Ref sig .tc := ⟨.hbm, 487, rfl⟩
abbrev main_call18_v2 : Ref sig .tc := ⟨.hbm, 488, rfl⟩
abbrev main_call18_v3 : Ref sig .tc := ⟨.hbm, 489, rfl⟩
abbrev main_call18_v4 : Ref sig .tc := ⟨.hbm, 490, rfl⟩
abbrev main_v289 : Ref sig .tc := ⟨.hbm, 491, rfl⟩
abbrev main_c_107 : Ref sig .tc := ⟨.hbm, 492, rfl⟩
abbrev main_c_108 : Ref sig .tc := ⟨.hbm, 493, rfl⟩
abbrev main_call19_v0 : Ref sig .tc := ⟨.hbm, 494, rfl⟩
abbrev main_call19_v1 : Ref sig .tc := ⟨.hbm, 495, rfl⟩
abbrev main_call19_v2 : Ref sig .tc := ⟨.hbm, 496, rfl⟩
abbrev main_call19_v3 : Ref sig .tc := ⟨.hbm, 497, rfl⟩
abbrev main_call19_v4 : Ref sig .tc := ⟨.hbm, 498, rfl⟩
abbrev main_v290 : Ref sig .tc := ⟨.hbm, 499, rfl⟩
abbrev main_c_109 : Ref sig .tc := ⟨.hbm, 500, rfl⟩
abbrev main_v291 : Ref sig .tc := ⟨.hbm, 501, rfl⟩
abbrev main_v292 : Ref sig .tc := ⟨.hbm, 502, rfl⟩
abbrev main_c_110 : Ref sig .tc := ⟨.hbm, 503, rfl⟩
abbrev main_v293 : Ref sig .tc := ⟨.hbm, 504, rfl⟩
abbrev main_v294 : Ref sig .tc := ⟨.hbm, 505, rfl⟩
abbrev main_v295 : Ref sig .tc := ⟨.hbm, 506, rfl⟩
abbrev main_c_111 : Ref sig .tc := ⟨.hbm, 507, rfl⟩
abbrev main_v296 : Ref sig .tc := ⟨.hbm, 508, rfl⟩
abbrev main_v297 : Ref sig .tc := ⟨.hbm, 509, rfl⟩
abbrev main_c_112 : Ref sig .tc := ⟨.hbm, 510, rfl⟩
abbrev main_v298 : Ref sig .tc := ⟨.hbm, 511, rfl⟩
abbrev main_v299 : Ref sig .tc := ⟨.hbm, 512, rfl⟩
abbrev main_v300 : Ref sig .tc := ⟨.hbm, 513, rfl⟩
abbrev main_v301 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_cst_113 : Ref sig .tc := ⟨.hbm, 519, rfl⟩
abbrev main_call20_v0 : Ref sig .tc := ⟨.hbm, 520, rfl⟩
abbrev main_call20_v1 : Ref sig .tc := ⟨.hbm, 521, rfl⟩
abbrev main_call20_v2 : Ref sig .tc := ⟨.hbm, 522, rfl⟩
abbrev main_v306 : Ref sig .tc := ⟨.hbm, 523, rfl⟩
abbrev main_cst_114 : Ref sig .tc := ⟨.hbm, 524, rfl⟩
abbrev main_v307 : Ref sig .tc := ⟨.hbm, 525, rfl⟩
abbrev main_v308 : Ref sig .tc := ⟨.hbm, 526, rfl⟩
abbrev main_v309 : Ref sig .tc := ⟨.hbm, 527, rfl⟩
abbrev main_v310 : Ref sig .tc := ⟨.hbm, 528, rfl⟩
abbrev main_v311 : Ref sig .tc := ⟨.hbm, 529, rfl⟩
abbrev main_v312 : Ref sig .tc := ⟨.hbm, 530, rfl⟩
abbrev main_v313 : Ref sig .tc := ⟨.hbm, 531, rfl⟩
abbrev main_c_115 : Ref sig .tc := ⟨.hbm, 532, rfl⟩
abbrev main_v314 : Ref sig .tc := ⟨.hbm, 533, rfl⟩
abbrev main_v315 : Ref sig .tc := ⟨.hbm, 534, rfl⟩
abbrev main_c_116 : Ref sig .tc := ⟨.hbm, 535, rfl⟩
abbrev main_v316 : Ref sig .tc := ⟨.hbm, 536, rfl⟩
abbrev main_v317 : Ref sig .tc := ⟨.hbm, 537, rfl⟩
abbrev main_v318 : Ref sig .tc := ⟨.hbm, 538, rfl⟩
abbrev main_c_117 : Ref sig .tc := ⟨.hbm, 539, rfl⟩
abbrev main_v319 : Ref sig .tc := ⟨.hbm, 540, rfl⟩
abbrev main_v320 : Ref sig .tc := ⟨.hbm, 541, rfl⟩
abbrev main_v321 : Ref sig .tc := ⟨.hbm, 542, rfl⟩
abbrev main_c_118 : Ref sig .tc := ⟨.hbm, 543, rfl⟩
abbrev main_v322 : Ref sig .tc := ⟨.hbm, 544, rfl⟩
abbrev main_v323 : Ref sig .tc := ⟨.hbm, 545, rfl⟩
abbrev main_v324 : Ref sig .tc := ⟨.hbm, 546, rfl⟩
abbrev main_c_119 : Ref sig .tc := ⟨.hbm, 547, rfl⟩
abbrev main_c_120 : Ref sig .tc := ⟨.hbm, 548, rfl⟩
abbrev main_call21_v0 : Ref sig .tc := ⟨.hbm, 549, rfl⟩
abbrev main_call21_v1 : Ref sig .tc := ⟨.hbm, 550, rfl⟩
abbrev main_call21_v2 : Ref sig .tc := ⟨.hbm, 551, rfl⟩
abbrev main_call21_v3 : Ref sig .tc := ⟨.hbm, 552, rfl⟩
abbrev main_call21_v4 : Ref sig .tc := ⟨.hbm, 553, rfl⟩
abbrev main_v325 : Ref sig .tc := ⟨.hbm, 554, rfl⟩
abbrev main_c_121 : Ref sig .tc := ⟨.hbm, 555, rfl⟩
abbrev main_c_122 : Ref sig .tc := ⟨.hbm, 556, rfl⟩
abbrev main_call22_v0 : Ref sig .tc := ⟨.hbm, 557, rfl⟩
abbrev main_call22_v1 : Ref sig .tc := ⟨.hbm, 558, rfl⟩
abbrev main_call22_v2 : Ref sig .tc := ⟨.hbm, 559, rfl⟩
abbrev main_call22_v3 : Ref sig .tc := ⟨.hbm, 560, rfl⟩
abbrev main_call22_v4 : Ref sig .tc := ⟨.hbm, 561, rfl⟩
abbrev main_v326 : Ref sig .tc := ⟨.hbm, 562, rfl⟩
abbrev main_c_123 : Ref sig .tc := ⟨.hbm, 563, rfl⟩
abbrev main_v327 : Ref sig .tc := ⟨.hbm, 564, rfl⟩
abbrev main_v328 : Ref sig .tc := ⟨.hbm, 565, rfl⟩
abbrev main_c_124 : Ref sig .tc := ⟨.hbm, 566, rfl⟩
abbrev main_v329 : Ref sig .tc := ⟨.hbm, 567, rfl⟩
abbrev main_v330 : Ref sig .tc := ⟨.hbm, 568, rfl⟩
abbrev main_v331 : Ref sig .tc := ⟨.hbm, 569, rfl⟩
abbrev main_c_125 : Ref sig .tc := ⟨.hbm, 570, rfl⟩
abbrev main_v332 : Ref sig .tc := ⟨.hbm, 571, rfl⟩
abbrev main_v333 : Ref sig .tc := ⟨.hbm, 572, rfl⟩
abbrev main_c_126 : Ref sig .tc := ⟨.hbm, 573, rfl⟩
abbrev main_v334 : Ref sig .tc := ⟨.hbm, 574, rfl⟩
abbrev main_v335 : Ref sig .tc := ⟨.hbm, 575, rfl⟩
abbrev main_v336 : Ref sig .tc := ⟨.hbm, 576, rfl⟩
abbrev main_v337 : Ref sig .tc := ⟨.hbm, 577, rfl⟩
abbrev main_v338 : Ref sig .tc := ⟨.hbm, 578, rfl⟩
abbrev main_v339 : Ref sig .tc := ⟨.hbm, 579, rfl⟩
abbrev main_v340 : Ref sig .tc := ⟨.hbm, 580, rfl⟩
abbrev main_v341 : Ref sig .tc := ⟨.hbm, 581, rfl⟩
abbrev main_cst_127 : Ref sig .tc := ⟨.hbm, 582, rfl⟩
abbrev main_call23_v0 : Ref sig .tc := ⟨.hbm, 583, rfl⟩
abbrev main_call23_v1 : Ref sig .tc := ⟨.hbm, 584, rfl⟩
abbrev main_call23_v2 : Ref sig .tc := ⟨.hbm, 585, rfl⟩
abbrev main_v342 : Ref sig .tc := ⟨.hbm, 586, rfl⟩
abbrev main_v343 : Ref sig .tc := ⟨.hbm, 587, rfl⟩
abbrev main_v344 : Ref sig .tc := ⟨.hbm, 588, rfl⟩
abbrev main_v345 : Ref sig .tc := ⟨.hbm, 589, rfl⟩
abbrev main_v346 : Ref sig .tc := ⟨.hbm, 590, rfl⟩
abbrev main_v347 : Ref sig .tc := ⟨.hbm, 591, rfl⟩
abbrev main_v348 : Ref sig .tc := ⟨.hbm, 592, rfl⟩
abbrev main_cst_128 : Ref sig .tc := ⟨.hbm, 593, rfl⟩
abbrev main_v349 : Ref sig .tc := ⟨.hbm, 594, rfl⟩
abbrev main_v350 : Ref sig .tc := ⟨.hbm, 595, rfl⟩
abbrev main_cst_129 : Ref sig .tc := ⟨.hbm, 596, rfl⟩
abbrev main_v351 : Ref sig .tc := ⟨.hbm, 597, rfl⟩
abbrev main_v352 : Ref sig .tc := ⟨.hbm, 598, rfl⟩
abbrev main_cst_130 : Ref sig .tc := ⟨.hbm, 599, rfl⟩
abbrev main_v353 : Ref sig .tc := ⟨.hbm, 600, rfl⟩
abbrev main_v354 : Ref sig .tc := ⟨.hbm, 601, rfl⟩
abbrev main_cst_131 : Ref sig .tc := ⟨.hbm, 602, rfl⟩
abbrev main_v355 : Ref sig .tc := ⟨.hbm, 603, rfl⟩
abbrev main_v356 : Ref sig .tc := ⟨.hbm, 604, rfl⟩
abbrev main_cst_132 : Ref sig .tc := ⟨.hbm, 605, rfl⟩
abbrev main_v357 : Ref sig .tc := ⟨.hbm, 606, rfl⟩
abbrev main_v358 : Ref sig .tc := ⟨.hbm, 607, rfl⟩
abbrev main_cst_133 : Ref sig .tc := ⟨.hbm, 608, rfl⟩
abbrev main_v359 : Ref sig .tc := ⟨.hbm, 609, rfl⟩
abbrev main_v360 : Ref sig .tc := ⟨.hbm, 610, rfl⟩
abbrev main_v361 : Ref sig .tc := ⟨.hbm, 611, rfl⟩
abbrev main_v362 : Ref sig .tc := ⟨.hbm, 612, rfl⟩
abbrev main_v363 : Ref sig .tc := ⟨.hbm, 613, rfl⟩
abbrev main_v364 : Ref sig .tc := ⟨.hbm, 614, rfl⟩
abbrev main_v365 : Ref sig .tc := ⟨.hbm, 615, rfl⟩
abbrev main_v366 : Ref sig .tc := ⟨.hbm, 616, rfl⟩
abbrev main_c_134 : Ref sig .tc := ⟨.hbm, 617, rfl⟩
abbrev main_v367 : Ref sig .tc := ⟨.hbm, 618, rfl⟩
abbrev main_v368 : Ref sig .tc := ⟨.hbm, 619, rfl⟩
abbrev main_c_135 : Ref sig .tc := ⟨.hbm, 620, rfl⟩
abbrev main_v369 : Ref sig .tc := ⟨.hbm, 621, rfl⟩
abbrev main_v370 : Ref sig .tc := ⟨.hbm, 622, rfl⟩
abbrev main_c_136 : Ref sig .tc := ⟨.hbm, 623, rfl⟩
abbrev main_v371 : Ref sig .tc := ⟨.hbm, 624, rfl⟩
abbrev main_v372 : Ref sig .tc := ⟨.hbm, 625, rfl⟩
abbrev main_c_137 : Ref sig .tc := ⟨.hbm, 626, rfl⟩
abbrev main_v373 : Ref sig .tc := ⟨.hbm, 627, rfl⟩
abbrev main_v374 : Ref sig .tc := ⟨.hbm, 628, rfl⟩
abbrev main_v375 : Ref sig .tc := ⟨.hbm, 629, rfl⟩
abbrev main_c_138 : Ref sig .tc := ⟨.hbm, 630, rfl⟩
abbrev main_v376 : Ref sig .tc := ⟨.hbm, 631, rfl⟩
abbrev main_v377 : Ref sig .tc := ⟨.hbm, 632, rfl⟩
abbrev main_v378 : Ref sig .tc := ⟨.hbm, 633, rfl⟩
abbrev main_c_139 : Ref sig .tc := ⟨.hbm, 634, rfl⟩
abbrev main_v379 : Ref sig .tc := ⟨.hbm, 635, rfl⟩
abbrev main_v380 : Ref sig .tc := ⟨.hbm, 636, rfl⟩
abbrev main_v381 : Ref sig .tc := ⟨.hbm, 637, rfl⟩
abbrev main_c_140 : Ref sig .tc := ⟨.hbm, 638, rfl⟩
abbrev main_c_141 : Ref sig .tc := ⟨.hbm, 639, rfl⟩
abbrev main_call24_v0 : Ref sig .tc := ⟨.hbm, 640, rfl⟩
abbrev main_call24_v1 : Ref sig .tc := ⟨.hbm, 641, rfl⟩
abbrev main_call24_v2 : Ref sig .tc := ⟨.hbm, 642, rfl⟩
abbrev main_call24_v3 : Ref sig .tc := ⟨.hbm, 643, rfl⟩
abbrev main_call24_v4 : Ref sig .tc := ⟨.hbm, 644, rfl⟩
abbrev main_v382 : Ref sig .tc := ⟨.hbm, 645, rfl⟩
abbrev main_c_142 : Ref sig .tc := ⟨.hbm, 646, rfl⟩
abbrev main_c_143 : Ref sig .tc := ⟨.hbm, 647, rfl⟩
abbrev main_call25_v0 : Ref sig .tc := ⟨.hbm, 648, rfl⟩
abbrev main_call25_v1 : Ref sig .tc := ⟨.hbm, 649, rfl⟩
abbrev main_call25_v2 : Ref sig .tc := ⟨.hbm, 650, rfl⟩
abbrev main_call25_v3 : Ref sig .tc := ⟨.hbm, 651, rfl⟩
abbrev main_call25_v4 : Ref sig .tc := ⟨.hbm, 652, rfl⟩
abbrev main_v383 : Ref sig .tc := ⟨.hbm, 653, rfl⟩
abbrev main_c_144 : Ref sig .tc := ⟨.hbm, 654, rfl⟩
abbrev main_v384 : Ref sig .tc := ⟨.hbm, 655, rfl⟩
abbrev main_v385 : Ref sig .tc := ⟨.hbm, 656, rfl⟩
abbrev main_c_145 : Ref sig .tc := ⟨.hbm, 657, rfl⟩
abbrev main_v386 : Ref sig .tc := ⟨.hbm, 658, rfl⟩
abbrev main_v387 : Ref sig .tc := ⟨.hbm, 659, rfl⟩
abbrev main_v388 : Ref sig .tc := ⟨.hbm, 660, rfl⟩
abbrev main_c_146 : Ref sig .tc := ⟨.hbm, 661, rfl⟩
abbrev main_v389 : Ref sig .tc := ⟨.hbm, 662, rfl⟩
abbrev main_v390 : Ref sig .tc := ⟨.hbm, 663, rfl⟩
abbrev main_c_147 : Ref sig .tc := ⟨.hbm, 664, rfl⟩
abbrev main_v391 : Ref sig .tc := ⟨.hbm, 665, rfl⟩
abbrev main_v392 : Ref sig .tc := ⟨.hbm, 666, rfl⟩
abbrev main_v393 : Ref sig .tc := ⟨.hbm, 667, rfl⟩
abbrev main_v394 : Ref sig .tc := ⟨.hbm, 668, rfl⟩
abbrev main_v395 : Ref sig .tc := ⟨.hbm, 669, rfl⟩
abbrev main_v396 : Ref sig .tc := ⟨.hbm, 670, rfl⟩
abbrev main_v397 : Ref sig .tc := ⟨.hbm, 671, rfl⟩
abbrev main_v398 : Ref sig .tc := ⟨.hbm, 672, rfl⟩
abbrev main_cst_148 : Ref sig .tc := ⟨.hbm, 673, rfl⟩
abbrev main_call26_v0 : Ref sig .tc := ⟨.hbm, 674, rfl⟩
abbrev main_call26_v1 : Ref sig .tc := ⟨.hbm, 675, rfl⟩
abbrev main_call26_v2 : Ref sig .tc := ⟨.hbm, 676, rfl⟩
abbrev main_v399 : Ref sig .tc := ⟨.hbm, 677, rfl⟩
abbrev main_cst_149 : Ref sig .tc := ⟨.hbm, 678, rfl⟩
abbrev main_v400 : Ref sig .tc := ⟨.hbm, 679, rfl⟩
abbrev main_v401 : Ref sig .tc := ⟨.hbm, 680, rfl⟩
abbrev main_cst_150 : Ref sig .tc := ⟨.hbm, 681, rfl⟩
abbrev main_v402 : Ref sig .tc := ⟨.hbm, 682, rfl⟩
abbrev main_v403 : Ref sig .tc := ⟨.hbm, 683, rfl⟩
abbrev main_v404 : Ref sig .tc := ⟨.hbm, 684, rfl⟩
abbrev main_v405 : Ref sig .tc := ⟨.hbm, 685, rfl⟩
abbrev main_v406 : Ref sig .tc := ⟨.hbm, 686, rfl⟩
abbrev main_v407 : Ref sig .tc := ⟨.hbm, 687, rfl⟩
abbrev main_c_151 : Ref sig .tc := ⟨.hbm, 688, rfl⟩
abbrev main_v408 : Ref sig .tc := ⟨.hbm, 689, rfl⟩
abbrev main_v409 : Ref sig .tc := ⟨.hbm, 690, rfl⟩
abbrev main_c_152 : Ref sig .tc := ⟨.hbm, 691, rfl⟩
abbrev main_v410 : Ref sig .tc := ⟨.hbm, 692, rfl⟩
abbrev main_v411 : Ref sig .tc := ⟨.hbm, 693, rfl⟩
abbrev main_v412 : Ref sig .tc := ⟨.hbm, 694, rfl⟩
abbrev main_c_153 : Ref sig .tc := ⟨.hbm, 695, rfl⟩
abbrev main_v413 : Ref sig .tc := ⟨.hbm, 696, rfl⟩
abbrev main_v414 : Ref sig .tc := ⟨.hbm, 697, rfl⟩
abbrev main_v415 : Ref sig .tc := ⟨.hbm, 698, rfl⟩
abbrev main_c_154 : Ref sig .tc := ⟨.hbm, 699, rfl⟩
abbrev main_v416 : Ref sig .tc := ⟨.hbm, 700, rfl⟩
abbrev main_v417 : Ref sig .tc := ⟨.hbm, 701, rfl⟩
abbrev main_v418 : Ref sig .tc := ⟨.hbm, 702, rfl⟩
abbrev main_c_155 : Ref sig .tc := ⟨.hbm, 703, rfl⟩
abbrev main_c_156 : Ref sig .tc := ⟨.hbm, 704, rfl⟩
abbrev main_call27_v0 : Ref sig .tc := ⟨.hbm, 705, rfl⟩
abbrev main_call27_v1 : Ref sig .tc := ⟨.hbm, 706, rfl⟩
abbrev main_call27_v2 : Ref sig .tc := ⟨.hbm, 707, rfl⟩
abbrev main_call27_v3 : Ref sig .tc := ⟨.hbm, 708, rfl⟩
abbrev main_call27_v4 : Ref sig .tc := ⟨.hbm, 709, rfl⟩
abbrev main_v419 : Ref sig .tc := ⟨.hbm, 710, rfl⟩
abbrev main_c_157 : Ref sig .tc := ⟨.hbm, 711, rfl⟩
abbrev main_c_158 : Ref sig .tc := ⟨.hbm, 712, rfl⟩
abbrev main_call28_v0 : Ref sig .tc := ⟨.hbm, 713, rfl⟩
abbrev main_call28_v1 : Ref sig .tc := ⟨.hbm, 714, rfl⟩
abbrev main_call28_v2 : Ref sig .tc := ⟨.hbm, 715, rfl⟩
abbrev main_call28_v3 : Ref sig .tc := ⟨.hbm, 716, rfl⟩
abbrev main_call28_v4 : Ref sig .tc := ⟨.hbm, 717, rfl⟩
abbrev main_v420 : Ref sig .tc := ⟨.hbm, 718, rfl⟩
abbrev main_c_159 : Ref sig .tc := ⟨.hbm, 719, rfl⟩
abbrev main_v421 : Ref sig .tc := ⟨.hbm, 720, rfl⟩
abbrev main_v422 : Ref sig .tc := ⟨.hbm, 721, rfl⟩
abbrev main_c_160 : Ref sig .tc := ⟨.hbm, 722, rfl⟩
abbrev main_v423 : Ref sig .tc := ⟨.hbm, 723, rfl⟩
abbrev main_v424 : Ref sig .tc := ⟨.hbm, 724, rfl⟩
abbrev main_v425 : Ref sig .tc := ⟨.hbm, 725, rfl⟩
abbrev main_c_161 : Ref sig .tc := ⟨.hbm, 726, rfl⟩
abbrev main_v426 : Ref sig .tc := ⟨.hbm, 727, rfl⟩
abbrev main_v427 : Ref sig .tc := ⟨.hbm, 728, rfl⟩
abbrev main_c_162 : Ref sig .tc := ⟨.hbm, 729, rfl⟩
abbrev main_v428 : Ref sig .tc := ⟨.hbm, 730, rfl⟩
abbrev main_v429 : Ref sig .tc := ⟨.hbm, 731, rfl⟩
abbrev main_v430 : Ref sig .tc := ⟨.hbm, 732, rfl⟩
abbrev main_v431 : Ref sig .tc := ⟨.hbm, 733, rfl⟩
abbrev main_v432 : Ref sig .tc := ⟨.hbm, 734, rfl⟩
abbrev main_v433 : Ref sig .tc := ⟨.hbm, 735, rfl⟩
abbrev main_v434 : Ref sig .tc := ⟨.hbm, 736, rfl⟩
abbrev main_v435 : Ref sig .tc := ⟨.hbm, 737, rfl⟩
abbrev main_cst_163 : Ref sig .tc := ⟨.hbm, 738, rfl⟩
abbrev main_call29_v0 : Ref sig .tc := ⟨.hbm, 739, rfl⟩
abbrev main_call29_v1 : Ref sig .tc := ⟨.hbm, 740, rfl⟩
abbrev main_call29_v2 : Ref sig .tc := ⟨.hbm, 741, rfl⟩
abbrev main_v436 : Ref sig .tc := ⟨.hbm, 742, rfl⟩
abbrev main_cst_164 : Ref sig .tc := ⟨.hbm, 743, rfl⟩
abbrev main_v437 : Ref sig .tc := ⟨.hbm, 744, rfl⟩
abbrev main_v438 : Ref sig .tc := ⟨.hbm, 745, rfl⟩
abbrev main_v439 : Ref sig .tc := ⟨.hbm, 746, rfl⟩
abbrev main_v440 : Ref sig .tc := ⟨.hbm, 747, rfl⟩
abbrev main_v441 : Ref sig .tc := ⟨.hbm, 748, rfl⟩
abbrev main_v442 : Ref sig .tc := ⟨.hbm, 749, rfl⟩
abbrev main_v443 : Ref sig .tc := ⟨.hbm, 750, rfl⟩
abbrev main_c_165 : Ref sig .tc := ⟨.hbm, 751, rfl⟩
abbrev main_v444 : Ref sig .tc := ⟨.hbm, 752, rfl⟩
abbrev main_v445 : Ref sig .tc := ⟨.hbm, 753, rfl⟩
abbrev main_c_166 : Ref sig .tc := ⟨.hbm, 754, rfl⟩
abbrev main_v446 : Ref sig .tc := ⟨.hbm, 755, rfl⟩
abbrev main_v447 : Ref sig .tc := ⟨.hbm, 756, rfl⟩
abbrev main_v448 : Ref sig .tc := ⟨.hbm, 757, rfl⟩
abbrev main_c_167 : Ref sig .tc := ⟨.hbm, 758, rfl⟩
abbrev main_v449 : Ref sig .tc := ⟨.hbm, 759, rfl⟩
abbrev main_v450 : Ref sig .tc := ⟨.hbm, 760, rfl⟩
abbrev main_v451 : Ref sig .tc := ⟨.hbm, 761, rfl⟩
abbrev main_c_168 : Ref sig .tc := ⟨.hbm, 762, rfl⟩
abbrev main_v452 : Ref sig .tc := ⟨.hbm, 763, rfl⟩
abbrev main_v453 : Ref sig .tc := ⟨.hbm, 764, rfl⟩
abbrev main_v454 : Ref sig .tc := ⟨.hbm, 765, rfl⟩
abbrev main_c_169 : Ref sig .tc := ⟨.hbm, 766, rfl⟩
abbrev main_c_170 : Ref sig .tc := ⟨.hbm, 767, rfl⟩
abbrev main_call30_v0 : Ref sig .tc := ⟨.hbm, 768, rfl⟩
abbrev main_call30_v1 : Ref sig .tc := ⟨.hbm, 769, rfl⟩
abbrev main_call30_v2 : Ref sig .tc := ⟨.hbm, 770, rfl⟩
abbrev main_call30_v3 : Ref sig .tc := ⟨.hbm, 771, rfl⟩
abbrev main_call30_v4 : Ref sig .tc := ⟨.hbm, 772, rfl⟩
abbrev main_v455 : Ref sig .tc := ⟨.hbm, 773, rfl⟩
abbrev main_c_171 : Ref sig .tc := ⟨.hbm, 774, rfl⟩
abbrev main_c_172 : Ref sig .tc := ⟨.hbm, 775, rfl⟩
abbrev main_call31_v0 : Ref sig .tc := ⟨.hbm, 776, rfl⟩
abbrev main_call31_v1 : Ref sig .tc := ⟨.hbm, 777, rfl⟩
abbrev main_call31_v2 : Ref sig .tc := ⟨.hbm, 778, rfl⟩
abbrev main_call31_v3 : Ref sig .tc := ⟨.hbm, 779, rfl⟩
abbrev main_call31_v4 : Ref sig .tc := ⟨.hbm, 780, rfl⟩
abbrev main_v456 : Ref sig .tc := ⟨.hbm, 781, rfl⟩
abbrev main_c_173 : Ref sig .tc := ⟨.hbm, 782, rfl⟩
abbrev main_v457 : Ref sig .tc := ⟨.hbm, 783, rfl⟩
abbrev main_v458 : Ref sig .tc := ⟨.hbm, 784, rfl⟩
abbrev main_c_174 : Ref sig .tc := ⟨.hbm, 785, rfl⟩
abbrev main_v459 : Ref sig .tc := ⟨.hbm, 786, rfl⟩
abbrev main_v460 : Ref sig .tc := ⟨.hbm, 787, rfl⟩
abbrev main_v461 : Ref sig .tc := ⟨.hbm, 788, rfl⟩
abbrev main_c_175 : Ref sig .tc := ⟨.hbm, 789, rfl⟩
abbrev main_v462 : Ref sig .tc := ⟨.hbm, 790, rfl⟩
abbrev main_v463 : Ref sig .tc := ⟨.hbm, 791, rfl⟩
abbrev main_c_176 : Ref sig .tc := ⟨.hbm, 792, rfl⟩
abbrev main_v464 : Ref sig .tc := ⟨.hbm, 793, rfl⟩
abbrev main_v465 : Ref sig .tc := ⟨.hbm, 794, rfl⟩
abbrev main_v466 : Ref sig .tc := ⟨.hbm, 795, rfl⟩
abbrev main_v467 : Ref sig .tc := ⟨.hbm, 796, rfl⟩
abbrev main_v468 : Ref sig .tc := ⟨.hbm, 797, rfl⟩
abbrev main_v469 : Ref sig .tc := ⟨.hbm, 798, rfl⟩
abbrev main_v470 : Ref sig .tc := ⟨.hbm, 799, rfl⟩
abbrev main_v471 : Ref sig .tc := ⟨.hbm, 800, rfl⟩
abbrev main_cst_177 : Ref sig .tc := ⟨.hbm, 801, rfl⟩
abbrev main_call32_v0 : Ref sig .tc := ⟨.hbm, 802, rfl⟩
abbrev main_call32_v1 : Ref sig .tc := ⟨.hbm, 803, rfl⟩
abbrev main_call32_v2 : Ref sig .tc := ⟨.hbm, 804, rfl⟩
abbrev main_v472 : Ref sig .tc := ⟨.hbm, 805, rfl⟩
abbrev main_cst_178 : Ref sig .tc := ⟨.hbm, 806, rfl⟩
abbrev main_v473 : Ref sig .tc := ⟨.hbm, 807, rfl⟩
abbrev main_v474 : Ref sig .tc := ⟨.hbm, 808, rfl⟩
abbrev main_v475 : Ref sig .tc := ⟨.hbm, 809, rfl⟩
abbrev main_v476 : Ref sig .tc := ⟨.hbm, 810, rfl⟩
abbrev main_v477 : Ref sig .tc := ⟨.hbm, 811, rfl⟩
abbrev main_v478 : Ref sig .tc := ⟨.hbm, 812, rfl⟩
abbrev main_v479 : Ref sig .tc := ⟨.hbm, 813, rfl⟩
abbrev main_c_179 : Ref sig .tc := ⟨.hbm, 814, rfl⟩
abbrev main_v480 : Ref sig .tc := ⟨.hbm, 815, rfl⟩
abbrev main_v481 : Ref sig .tc := ⟨.hbm, 816, rfl⟩
abbrev main_c_180 : Ref sig .tc := ⟨.hbm, 817, rfl⟩
abbrev main_v482 : Ref sig .tc := ⟨.hbm, 818, rfl⟩
abbrev main_v483 : Ref sig .tc := ⟨.hbm, 819, rfl⟩
abbrev main_v484 : Ref sig .tc := ⟨.hbm, 820, rfl⟩
abbrev main_c_181 : Ref sig .tc := ⟨.hbm, 821, rfl⟩
abbrev main_v485 : Ref sig .tc := ⟨.hbm, 822, rfl⟩
abbrev main_v486 : Ref sig .tc := ⟨.hbm, 823, rfl⟩
abbrev main_v487 : Ref sig .tc := ⟨.hbm, 824, rfl⟩
abbrev main_c_182 : Ref sig .tc := ⟨.hbm, 825, rfl⟩
abbrev main_v488 : Ref sig .tc := ⟨.hbm, 826, rfl⟩
abbrev main_v489 : Ref sig .tc := ⟨.hbm, 827, rfl⟩
abbrev main_v490 : Ref sig .tc := ⟨.hbm, 828, rfl⟩
abbrev main_c_183 : Ref sig .tc := ⟨.hbm, 829, rfl⟩
abbrev main_c_184 : Ref sig .tc := ⟨.hbm, 830, rfl⟩
abbrev main_call33_v0 : Ref sig .tc := ⟨.hbm, 831, rfl⟩
abbrev main_call33_v1 : Ref sig .tc := ⟨.hbm, 832, rfl⟩
abbrev main_call33_v2 : Ref sig .tc := ⟨.hbm, 833, rfl⟩
abbrev main_call33_v3 : Ref sig .tc := ⟨.hbm, 834, rfl⟩
abbrev main_call33_v4 : Ref sig .tc := ⟨.hbm, 835, rfl⟩
abbrev main_v491 : Ref sig .tc := ⟨.hbm, 836, rfl⟩
abbrev main_c_185 : Ref sig .tc := ⟨.hbm, 837, rfl⟩
abbrev main_c_186 : Ref sig .tc := ⟨.hbm, 838, rfl⟩
abbrev main_call34_v0 : Ref sig .tc := ⟨.hbm, 839, rfl⟩
abbrev main_call34_v1 : Ref sig .tc := ⟨.hbm, 840, rfl⟩
abbrev main_call34_v2 : Ref sig .tc := ⟨.hbm, 841, rfl⟩
abbrev main_call34_v3 : Ref sig .tc := ⟨.hbm, 842, rfl⟩
abbrev main_call34_v4 : Ref sig .tc := ⟨.hbm, 843, rfl⟩
abbrev main_v492 : Ref sig .tc := ⟨.hbm, 844, rfl⟩
abbrev main_c_187 : Ref sig .tc := ⟨.hbm, 845, rfl⟩
abbrev main_v493 : Ref sig .tc := ⟨.hbm, 846, rfl⟩
abbrev main_v494 : Ref sig .tc := ⟨.hbm, 847, rfl⟩
abbrev main_c_188 : Ref sig .tc := ⟨.hbm, 848, rfl⟩
abbrev main_v495 : Ref sig .tc := ⟨.hbm, 849, rfl⟩
abbrev main_v496 : Ref sig .tc := ⟨.hbm, 850, rfl⟩
abbrev main_v497 : Ref sig .tc := ⟨.hbm, 851, rfl⟩
abbrev main_c_189 : Ref sig .tc := ⟨.hbm, 852, rfl⟩
abbrev main_v498 : Ref sig .tc := ⟨.hbm, 853, rfl⟩
abbrev main_v499 : Ref sig .tc := ⟨.hbm, 854, rfl⟩
abbrev main_c_190 : Ref sig .tc := ⟨.hbm, 855, rfl⟩
abbrev main_v500 : Ref sig .tc := ⟨.hbm, 856, rfl⟩
abbrev main_v501 : Ref sig .tc := ⟨.hbm, 857, rfl⟩
abbrev main_v502 : Ref sig .tc := ⟨.hbm, 858, rfl⟩
abbrev main_v503 : Ref sig .tc := ⟨.hbm, 859, rfl⟩
abbrev main_v504 : Ref sig .tc := ⟨.hbm, 860, rfl⟩
abbrev main_v505 : Ref sig .tc := ⟨.hbm, 861, rfl⟩
abbrev main_v506 : Ref sig .tc := ⟨.hbm, 862, rfl⟩
abbrev main_v507 : Ref sig .tc := ⟨.hbm, 863, rfl⟩
abbrev main_cst_191 : Ref sig .tc := ⟨.hbm, 864, rfl⟩
abbrev main_call35_v0 : Ref sig .tc := ⟨.hbm, 865, rfl⟩
abbrev main_call35_v1 : Ref sig .tc := ⟨.hbm, 866, rfl⟩
abbrev main_call35_v2 : Ref sig .tc := ⟨.hbm, 867, rfl⟩
abbrev main_v508 : Ref sig .tc := ⟨.hbm, 868, rfl⟩
abbrev main_v509 : Ref sig .tc := ⟨.hbm, 869, rfl⟩
abbrev main_v510 : Ref sig .tc := ⟨.hbm, 870, rfl⟩
abbrev main_v511 : Ref sig .tc := ⟨.hbm, 871, rfl⟩
abbrev main_v512 : Ref sig .tc := ⟨.hbm, 872, rfl⟩
abbrev main_v513 : Ref sig .tc := ⟨.hbm, 873, rfl⟩
abbrev main_v514 : Ref sig .tc := ⟨.hbm, 874, rfl⟩
abbrev main_cst_192 : Ref sig .tc := ⟨.hbm, 875, rfl⟩
abbrev main_v515 : Ref sig .tc := ⟨.hbm, 876, rfl⟩
abbrev main_v516 : Ref sig .tc := ⟨.hbm, 877, rfl⟩
abbrev main_cst_193 : Ref sig .tc := ⟨.hbm, 878, rfl⟩
abbrev main_v517 : Ref sig .tc := ⟨.hbm, 879, rfl⟩
abbrev main_v518 : Ref sig .tc := ⟨.hbm, 880, rfl⟩
abbrev main_cst_194 : Ref sig .tc := ⟨.hbm, 881, rfl⟩
abbrev main_v519 : Ref sig .tc := ⟨.hbm, 882, rfl⟩
abbrev main_v520 : Ref sig .tc := ⟨.hbm, 883, rfl⟩
abbrev main_v521 : Ref sig .tc := ⟨.hbm, 884, rfl⟩
abbrev main_v522 : Ref sig .tc := ⟨.hbm, 885, rfl⟩
abbrev main_v523 : Ref sig .tc := ⟨.hbm, 886, rfl⟩
abbrev main_c_195 : Ref sig .tc := ⟨.hbm, 887, rfl⟩
abbrev main_v524 : Ref sig .tc := ⟨.hbm, 888, rfl⟩
abbrev main_v525 : Ref sig .tc := ⟨.hbm, 889, rfl⟩
abbrev main_c_196 : Ref sig .tc := ⟨.hbm, 890, rfl⟩
abbrev main_v526 : Ref sig .tc := ⟨.hbm, 891, rfl⟩
abbrev main_v527 : Ref sig .tc := ⟨.hbm, 892, rfl⟩
abbrev main_c_197 : Ref sig .tc := ⟨.hbm, 893, rfl⟩
abbrev main_v528 : Ref sig .tc := ⟨.hbm, 894, rfl⟩
abbrev main_v529 : Ref sig .tc := ⟨.hbm, 895, rfl⟩
abbrev main_v530 : Ref sig .tc := ⟨.hbm, 896, rfl⟩
abbrev main_c_198 : Ref sig .tc := ⟨.hbm, 897, rfl⟩
abbrev main_c_199 : Ref sig .tc := ⟨.hbm, 898, rfl⟩
abbrev main_call36_v0 : Ref sig .tc := ⟨.hbm, 899, rfl⟩
abbrev main_call36_v1 : Ref sig .tc := ⟨.hbm, 900, rfl⟩
abbrev main_call36_v2 : Ref sig .tc := ⟨.hbm, 901, rfl⟩
abbrev main_call36_v3 : Ref sig .tc := ⟨.hbm, 902, rfl⟩
abbrev main_call36_v4 : Ref sig .tc := ⟨.hbm, 903, rfl⟩
abbrev main_v531 : Ref sig .tc := ⟨.hbm, 904, rfl⟩
abbrev main_v532 : Ref sig .tc := ⟨.hbm, 905, rfl⟩
abbrev main_c_200 : Ref sig .tc := ⟨.hbm, 906, rfl⟩
abbrev main_v533 : Ref sig .tc := ⟨.hbm, 907, rfl⟩
abbrev main_v534 : Ref sig .tc := ⟨.hbm, 908, rfl⟩
abbrev main_c_201 : Ref sig .tc := ⟨.hbm, 909, rfl⟩
abbrev main_v535 : Ref sig .tc := ⟨.hbm, 910, rfl⟩
abbrev main_v536 : Ref sig .tc := ⟨.hbm, 911, rfl⟩
abbrev main_v537 : Ref sig .tc := ⟨.hbm, 912, rfl⟩
abbrev main_v538 : Ref sig .tc := ⟨.hbm, 913, rfl⟩
abbrev main_v539 : Ref sig .tc := ⟨.hbm, 914, rfl⟩
abbrev main_cst_202 : Ref sig .tc := ⟨.hbm, 915, rfl⟩
abbrev main_call37_v0 : Ref sig .tc := ⟨.hbm, 916, rfl⟩
abbrev main_call37_v1 : Ref sig .tc := ⟨.hbm, 917, rfl⟩
abbrev main_call37_v2 : Ref sig .tc := ⟨.hbm, 918, rfl⟩
abbrev main_v540 : Ref sig .tc := ⟨.hbm, 919, rfl⟩
abbrev main_cst_203 : Ref sig .tc := ⟨.hbm, 920, rfl⟩
abbrev main_v541 : Ref sig .tc := ⟨.hbm, 921, rfl⟩
abbrev main_v542 : Ref sig .tc := ⟨.hbm, 922, rfl⟩
abbrev main_v543 : Ref sig .tc := ⟨.hbm, 923, rfl⟩
abbrev main_v544 : Ref sig .tc := ⟨.hbm, 924, rfl⟩
abbrev main_v545 : Ref sig .tc := ⟨.hbm, 925, rfl⟩
abbrev main_c_204 : Ref sig .tc := ⟨.hbm, 926, rfl⟩
abbrev main_v546 : Ref sig .tc := ⟨.hbm, 927, rfl⟩
abbrev main_v547 : Ref sig .tc := ⟨.hbm, 928, rfl⟩
abbrev main_c_205 : Ref sig .tc := ⟨.hbm, 929, rfl⟩
abbrev main_v548 : Ref sig .tc := ⟨.hbm, 930, rfl⟩
abbrev main_v549 : Ref sig .tc := ⟨.hbm, 931, rfl⟩
abbrev main_v550 : Ref sig .tc := ⟨.hbm, 932, rfl⟩
abbrev main_c_206 : Ref sig .tc := ⟨.hbm, 933, rfl⟩
abbrev main_c_207 : Ref sig .tc := ⟨.hbm, 934, rfl⟩
abbrev main_call38_v0 : Ref sig .tc := ⟨.hbm, 935, rfl⟩
abbrev main_call38_v1 : Ref sig .tc := ⟨.hbm, 936, rfl⟩
abbrev main_call38_v2 : Ref sig .tc := ⟨.hbm, 937, rfl⟩
abbrev main_call38_v3 : Ref sig .tc := ⟨.hbm, 938, rfl⟩
abbrev main_call38_v4 : Ref sig .tc := ⟨.hbm, 939, rfl⟩
abbrev main_v551 : Ref sig .tc := ⟨.hbm, 940, rfl⟩
abbrev main_v552 : Ref sig .tc := ⟨.hbm, 941, rfl⟩
abbrev main_c_208 : Ref sig .tc := ⟨.hbm, 942, rfl⟩
abbrev main_v553 : Ref sig .tc := ⟨.hbm, 943, rfl⟩
abbrev main_v554 : Ref sig .tc := ⟨.hbm, 944, rfl⟩
abbrev main_c_209 : Ref sig .tc := ⟨.hbm, 945, rfl⟩
abbrev main_v555 : Ref sig .tc := ⟨.hbm, 946, rfl⟩
abbrev main_v556 : Ref sig .tc := ⟨.hbm, 947, rfl⟩
abbrev main_v557 : Ref sig .tc := ⟨.hbm, 948, rfl⟩
abbrev main_v558 : Ref sig .tc := ⟨.hbm, 949, rfl⟩
abbrev main_v559 : Ref sig .tc := ⟨.hbm, 950, rfl⟩
abbrev main_cst_210 : Ref sig .tc := ⟨.hbm, 951, rfl⟩
abbrev main_call39_v0 : Ref sig .tc := ⟨.hbm, 952, rfl⟩
abbrev main_call39_v1 : Ref sig .tc := ⟨.hbm, 953, rfl⟩
abbrev main_call39_v2 : Ref sig .tc := ⟨.hbm, 954, rfl⟩
abbrev main_v560 : Ref sig .tc := ⟨.hbm, 955, rfl⟩
abbrev main_v561 : Ref sig .tc := ⟨.hbm, 956, rfl⟩
abbrev main_v562 : Ref sig .tc := ⟨.hbm, 957, rfl⟩
abbrev main_v563 : Ref sig .tc := ⟨.hbm, 958, rfl⟩
abbrev main_v564 : Ref sig .tc := ⟨.hbm, 959, rfl⟩
abbrev main_v565 : Ref sig .tc := ⟨.hbm, 960, rfl⟩
abbrev main_cst_211 : Ref sig .tc := ⟨.hbm, 961, rfl⟩
abbrev main_v566 : Ref sig .tc := ⟨.hbm, 962, rfl⟩
abbrev main_v567 : Ref sig .tc := ⟨.hbm, 963, rfl⟩
abbrev main_cst_212 : Ref sig .tc := ⟨.hbm, 964, rfl⟩
abbrev main_v568 : Ref sig .tc := ⟨.hbm, 965, rfl⟩
abbrev main_v569 : Ref sig .tc := ⟨.hbm, 966, rfl⟩
abbrev main_cst_213 : Ref sig .tc := ⟨.hbm, 967, rfl⟩
abbrev main_v570 : Ref sig .tc := ⟨.hbm, 968, rfl⟩
abbrev main_v571 : Ref sig .tc := ⟨.hbm, 969, rfl⟩
abbrev main_v572 : Ref sig .tc := ⟨.hbm, 970, rfl⟩
abbrev main_v573 : Ref sig .tc := ⟨.hbm, 971, rfl⟩
abbrev main_v574 : Ref sig .tc := ⟨.hbm, 972, rfl⟩
abbrev main_c_214 : Ref sig .tc := ⟨.hbm, 973, rfl⟩
abbrev main_v575 : Ref sig .tc := ⟨.hbm, 974, rfl⟩
abbrev main_v576 : Ref sig .tc := ⟨.hbm, 975, rfl⟩
abbrev main_c_215 : Ref sig .tc := ⟨.hbm, 976, rfl⟩
abbrev main_v577 : Ref sig .tc := ⟨.hbm, 977, rfl⟩
abbrev main_v578 : Ref sig .tc := ⟨.hbm, 978, rfl⟩
abbrev main_c_216 : Ref sig .tc := ⟨.hbm, 979, rfl⟩
abbrev main_v579 : Ref sig .tc := ⟨.hbm, 980, rfl⟩
abbrev main_v580 : Ref sig .tc := ⟨.hbm, 981, rfl⟩
abbrev main_v581 : Ref sig .tc := ⟨.hbm, 982, rfl⟩
abbrev main_c_217 : Ref sig .tc := ⟨.hbm, 983, rfl⟩
abbrev main_c_218 : Ref sig .tc := ⟨.hbm, 984, rfl⟩
abbrev main_call40_v0 : Ref sig .tc := ⟨.hbm, 985, rfl⟩
abbrev main_call40_v1 : Ref sig .tc := ⟨.hbm, 986, rfl⟩
abbrev main_call40_v2 : Ref sig .tc := ⟨.hbm, 987, rfl⟩
abbrev main_call40_v3 : Ref sig .tc := ⟨.hbm, 988, rfl⟩
abbrev main_call40_v4 : Ref sig .tc := ⟨.hbm, 989, rfl⟩
abbrev main_v582 : Ref sig .tc := ⟨.hbm, 990, rfl⟩
abbrev main_v583 : Ref sig .tc := ⟨.hbm, 991, rfl⟩
abbrev main_c_219 : Ref sig .tc := ⟨.hbm, 992, rfl⟩
abbrev main_v584 : Ref sig .tc := ⟨.hbm, 993, rfl⟩
abbrev main_v585 : Ref sig .tc := ⟨.hbm, 994, rfl⟩
abbrev main_c_220 : Ref sig .tc := ⟨.hbm, 995, rfl⟩
abbrev main_v586 : Ref sig .tc := ⟨.hbm, 996, rfl⟩
abbrev main_v587 : Ref sig .tc := ⟨.hbm, 997, rfl⟩
abbrev main_v588 : Ref sig .tc := ⟨.hbm, 998, rfl⟩
abbrev main_v589 : Ref sig .tc := ⟨.hbm, 999, rfl⟩
abbrev main_v590 : Ref sig .tc := ⟨.hbm, 1000, rfl⟩
abbrev main_cst_221 : Ref sig .tc := ⟨.hbm, 1001, rfl⟩
abbrev main_call41_v0 : Ref sig .tc := ⟨.hbm, 1002, rfl⟩
abbrev main_call41_v1 : Ref sig .tc := ⟨.hbm, 1003, rfl⟩
abbrev main_call41_v2 : Ref sig .tc := ⟨.hbm, 1004, rfl⟩
abbrev main_v591 : Ref sig .tc := ⟨.hbm, 1005, rfl⟩
abbrev main_cst_222 : Ref sig .tc := ⟨.hbm, 1006, rfl⟩
abbrev main_v592 : Ref sig .tc := ⟨.hbm, 1007, rfl⟩
abbrev main_v593 : Ref sig .tc := ⟨.hbm, 1008, rfl⟩
abbrev main_v594 : Ref sig .tc := ⟨.hbm, 1009, rfl⟩
abbrev main_v595 : Ref sig .tc := ⟨.hbm, 1010, rfl⟩
abbrev main_v596 : Ref sig .tc := ⟨.hbm, 1011, rfl⟩
abbrev main_c_223 : Ref sig .tc := ⟨.hbm, 1012, rfl⟩
abbrev main_v597 : Ref sig .tc := ⟨.hbm, 1013, rfl⟩
abbrev main_v598 : Ref sig .tc := ⟨.hbm, 1014, rfl⟩
abbrev main_c_224 : Ref sig .tc := ⟨.hbm, 1015, rfl⟩
abbrev main_v599 : Ref sig .tc := ⟨.hbm, 1016, rfl⟩
abbrev main_v600 : Ref sig .tc := ⟨.hbm, 1017, rfl⟩
abbrev main_v601 : Ref sig .tc := ⟨.hbm, 1018, rfl⟩
abbrev main_c_225 : Ref sig .tc := ⟨.hbm, 1019, rfl⟩
abbrev main_c_226 : Ref sig .tc := ⟨.hbm, 1020, rfl⟩
abbrev main_call42_v0 : Ref sig .tc := ⟨.hbm, 1021, rfl⟩
abbrev main_call42_v1 : Ref sig .tc := ⟨.hbm, 1022, rfl⟩
abbrev main_call42_v2 : Ref sig .tc := ⟨.hbm, 1023, rfl⟩
abbrev main_call42_v3 : Ref sig .tc := ⟨.hbm, 1024, rfl⟩
abbrev main_call42_v4 : Ref sig .tc := ⟨.hbm, 1025, rfl⟩
abbrev main_v602 : Ref sig .tc := ⟨.hbm, 1026, rfl⟩
abbrev main_v603 : Ref sig .tc := ⟨.hbm, 1027, rfl⟩
abbrev main_c_227 : Ref sig .tc := ⟨.hbm, 1028, rfl⟩
abbrev main_v604 : Ref sig .tc := ⟨.hbm, 1029, rfl⟩
abbrev main_v605 : Ref sig .tc := ⟨.hbm, 1030, rfl⟩
abbrev main_c_228 : Ref sig .tc := ⟨.hbm, 1031, rfl⟩
abbrev main_v606 : Ref sig .tc := ⟨.hbm, 1032, rfl⟩
abbrev main_v607 : Ref sig .tc := ⟨.hbm, 1033, rfl⟩
abbrev main_v608 : Ref sig .tc := ⟨.hbm, 1034, rfl⟩
abbrev main_v609 : Ref sig .tc := ⟨.hbm, 1035, rfl⟩
abbrev main_v610 : Ref sig .tc := ⟨.hbm, 1036, rfl⟩
abbrev main_cst_229 : Ref sig .tc := ⟨.hbm, 1037, rfl⟩
abbrev main_call43_v0 : Ref sig .tc := ⟨.hbm, 1038, rfl⟩
abbrev main_call43_v1 : Ref sig .tc := ⟨.hbm, 1039, rfl⟩
abbrev main_call43_v2 : Ref sig .tc := ⟨.hbm, 1040, rfl⟩
abbrev main_v611 : Ref sig .tc := ⟨.hbm, 1041, rfl⟩
abbrev main_v612 : Ref sig .tc := ⟨.hbm, 1042, rfl⟩
abbrev main_v613 : Ref sig .tc := ⟨.hbm, 1043, rfl⟩
abbrev main_v614 : Ref sig .tc := ⟨.hbm, 1044, rfl⟩
abbrev main_v615 : Ref sig .tc := ⟨.hbm, 1045, rfl⟩
abbrev main_v616 : Ref sig .tc := ⟨.hbm, 1046, rfl⟩
abbrev main_cst_230 : Ref sig .tc := ⟨.hbm, 1047, rfl⟩
abbrev main_v617 : Ref sig .tc := ⟨.hbm, 1048, rfl⟩
abbrev main_v618 : Ref sig .tc := ⟨.hbm, 1049, rfl⟩
abbrev main_cst_231 : Ref sig .tc := ⟨.hbm, 1050, rfl⟩
abbrev main_v619 : Ref sig .tc := ⟨.hbm, 1051, rfl⟩
abbrev main_v620 : Ref sig .tc := ⟨.hbm, 1052, rfl⟩
abbrev main_cst_232 : Ref sig .tc := ⟨.hbm, 1053, rfl⟩
abbrev main_v621 : Ref sig .tc := ⟨.hbm, 1054, rfl⟩
abbrev main_v622 : Ref sig .tc := ⟨.hbm, 1055, rfl⟩
abbrev main_v623 : Ref sig .tc := ⟨.hbm, 1056, rfl⟩
abbrev main_v624 : Ref sig .tc := ⟨.hbm, 1057, rfl⟩
abbrev main_v625 : Ref sig .tc := ⟨.hbm, 1058, rfl⟩
abbrev main_c_233 : Ref sig .tc := ⟨.hbm, 1059, rfl⟩
abbrev main_v626 : Ref sig .tc := ⟨.hbm, 1060, rfl⟩
abbrev main_v627 : Ref sig .tc := ⟨.hbm, 1061, rfl⟩
abbrev main_c_234 : Ref sig .tc := ⟨.hbm, 1062, rfl⟩
abbrev main_v628 : Ref sig .tc := ⟨.hbm, 1063, rfl⟩
abbrev main_v629 : Ref sig .tc := ⟨.hbm, 1064, rfl⟩
abbrev main_c_235 : Ref sig .tc := ⟨.hbm, 1065, rfl⟩
abbrev main_v630 : Ref sig .tc := ⟨.hbm, 1066, rfl⟩
abbrev main_v631 : Ref sig .tc := ⟨.hbm, 1067, rfl⟩
abbrev main_v632 : Ref sig .tc := ⟨.hbm, 1068, rfl⟩
abbrev main_c_236 : Ref sig .tc := ⟨.hbm, 1069, rfl⟩
abbrev main_c_237 : Ref sig .tc := ⟨.hbm, 1070, rfl⟩
abbrev main_call44_v0 : Ref sig .tc := ⟨.hbm, 1071, rfl⟩
abbrev main_call44_v1 : Ref sig .tc := ⟨.hbm, 1072, rfl⟩
abbrev main_call44_v2 : Ref sig .tc := ⟨.hbm, 1073, rfl⟩
abbrev main_call44_v3 : Ref sig .tc := ⟨.hbm, 1074, rfl⟩
abbrev main_call44_v4 : Ref sig .tc := ⟨.hbm, 1075, rfl⟩
abbrev main_v633 : Ref sig .tc := ⟨.hbm, 1076, rfl⟩
abbrev main_v634 : Ref sig .tc := ⟨.hbm, 1077, rfl⟩
abbrev main_c_238 : Ref sig .tc := ⟨.hbm, 1078, rfl⟩
abbrev main_v635 : Ref sig .tc := ⟨.hbm, 1079, rfl⟩
abbrev main_v636 : Ref sig .tc := ⟨.hbm, 1080, rfl⟩
abbrev main_c_239 : Ref sig .tc := ⟨.hbm, 1081, rfl⟩
abbrev main_v637 : Ref sig .tc := ⟨.hbm, 1082, rfl⟩
abbrev main_v638 : Ref sig .tc := ⟨.hbm, 1083, rfl⟩
abbrev main_v639 : Ref sig .tc := ⟨.hbm, 1084, rfl⟩
abbrev main_v640 : Ref sig .tc := ⟨.hbm, 1085, rfl⟩
abbrev main_v641 : Ref sig .tc := ⟨.hbm, 1086, rfl⟩
abbrev main_cst_240 : Ref sig .tc := ⟨.hbm, 1087, rfl⟩
abbrev main_call45_v0 : Ref sig .tc := ⟨.hbm, 1088, rfl⟩
abbrev main_call45_v1 : Ref sig .tc := ⟨.hbm, 1089, rfl⟩
abbrev main_call45_v2 : Ref sig .tc := ⟨.hbm, 1090, rfl⟩
abbrev main_v642 : Ref sig .tc := ⟨.hbm, 1091, rfl⟩
abbrev main_cst_241 : Ref sig .tc := ⟨.hbm, 1092, rfl⟩
abbrev main_v643 : Ref sig .tc := ⟨.hbm, 1093, rfl⟩
abbrev main_v644 : Ref sig .tc := ⟨.hbm, 1094, rfl⟩
abbrev main_v645 : Ref sig .tc := ⟨.hbm, 1095, rfl⟩
abbrev main_v646 : Ref sig .tc := ⟨.hbm, 1096, rfl⟩
abbrev main_v647 : Ref sig .tc := ⟨.hbm, 1097, rfl⟩
abbrev main_c_242 : Ref sig .tc := ⟨.hbm, 1098, rfl⟩
abbrev main_v648 : Ref sig .tc := ⟨.hbm, 1099, rfl⟩
abbrev main_v649 : Ref sig .tc := ⟨.hbm, 1100, rfl⟩
abbrev main_c_243 : Ref sig .tc := ⟨.hbm, 1101, rfl⟩
abbrev main_v650 : Ref sig .tc := ⟨.hbm, 1102, rfl⟩
abbrev main_v651 : Ref sig .tc := ⟨.hbm, 1103, rfl⟩
abbrev main_v652 : Ref sig .tc := ⟨.hbm, 1104, rfl⟩
abbrev main_c_244 : Ref sig .tc := ⟨.hbm, 1105, rfl⟩
abbrev main_c_245 : Ref sig .tc := ⟨.hbm, 1106, rfl⟩
abbrev main_call46_v0 : Ref sig .tc := ⟨.hbm, 1107, rfl⟩
abbrev main_call46_v1 : Ref sig .tc := ⟨.hbm, 1108, rfl⟩
abbrev main_call46_v2 : Ref sig .tc := ⟨.hbm, 1109, rfl⟩
abbrev main_call46_v3 : Ref sig .tc := ⟨.hbm, 1110, rfl⟩
abbrev main_call46_v4 : Ref sig .tc := ⟨.hbm, 1111, rfl⟩
abbrev main_v653 : Ref sig .tc := ⟨.hbm, 1112, rfl⟩
abbrev main_v654 : Ref sig .tc := ⟨.hbm, 1113, rfl⟩
abbrev main_c_246 : Ref sig .tc := ⟨.hbm, 1114, rfl⟩
abbrev main_v655 : Ref sig .tc := ⟨.hbm, 1115, rfl⟩
abbrev main_v656 : Ref sig .tc := ⟨.hbm, 1116, rfl⟩
abbrev main_c_247 : Ref sig .tc := ⟨.hbm, 1117, rfl⟩
abbrev main_v657 : Ref sig .tc := ⟨.hbm, 1118, rfl⟩
abbrev main_v658 : Ref sig .tc := ⟨.hbm, 1119, rfl⟩
abbrev main_v659 : Ref sig .tc := ⟨.hbm, 1120, rfl⟩
abbrev main_v660 : Ref sig .tc := ⟨.hbm, 1121, rfl⟩
abbrev main_v661 : Ref sig .tc := ⟨.hbm, 1122, rfl⟩
abbrev main_cst_248 : Ref sig .tc := ⟨.hbm, 1123, rfl⟩
abbrev main_call47_v0 : Ref sig .tc := ⟨.hbm, 1124, rfl⟩
abbrev main_call47_v1 : Ref sig .tc := ⟨.hbm, 1125, rfl⟩
abbrev main_call47_v2 : Ref sig .tc := ⟨.hbm, 1126, rfl⟩
abbrev main_v662 : Ref sig .tc := ⟨.hbm, 1127, rfl⟩
abbrev main_v663 : Ref sig .tc := ⟨.hbm, 1128, rfl⟩
abbrev main_v664 : Ref sig .tc := ⟨.hbm, 1129, rfl⟩
abbrev main_v665 : Ref sig .tc := ⟨.hbm, 1130, rfl⟩
abbrev main_v666 : Ref sig .tc := ⟨.hbm, 1131, rfl⟩
abbrev main_v667 : Ref sig .tc := ⟨.hbm, 1132, rfl⟩
abbrev main_v668 : Ref sig .tc := ⟨.hbm, 1133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S72x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000_S1x1000000_1 : S1000000.BroadcastsInDim S1x1000000 (![1] : Fin 1 → Fin S1x1000000.rank)
  bcast_S1x1000000_S24x1000000_0_1 : S1x1000000.BroadcastsInDim S24x1000000 (![0, 1] : Fin 2 → Fin S24x1000000.rank)
  bcast_S_S24x1000000 : S_.BroadcastsInDim S24x1000000 (![] : Fin 0 → Fin S24x1000000.rank)
  transposes_S24x1000000_S1000000x24_1_0 : S24x1000000.Transposes [1, 0] S1000000x24
  inb_S4000x24_S4000x24_0_0 : ∀ a, (![0, 0] : Fin 2 → Nat) a + S4000x24.size a ≤ S4000x24.size a
  h_S4000x24 : 0 < S4000x24.numel
  shapeCasts_S4000x24_S4000x24 : S4000x24.ShapeCasts S4000x24
  bitsLt_bf16_f32 : FTy.bits .bf16 < FTy.bits .f32
  inb_S72x28_S24x28_0_0 : ∀ a, (![0, 0] : Fin 2 → Nat) a + S24x28.size a ≤ S72x28.size a
  h_S24x28 : 0 < S24x28.numel
  inb_S72x28_S24x28_24_0 : ∀ a, (![24, 0] : Fin 2 → Nat) a + S24x28.size a ≤ S72x28.size a
  inb_S72x28_S24x28_48_0 : ∀ a, (![48, 0] : Fin 2 → Nat) a + S24x28.size a ≤ S72x28.size a
  inb_S4000x28_S4000x28_0_0 : ∀ a, (![0, 0] : Fin 2 → Nat) a + S4000x28.size a ≤ S4000x28.size a
  h_S4000x28 : 0 < S4000x28.numel
  gather_S24x256x256_S1000000x2_S24x1000000_0_12_n_n_12_1_2411_wf : GatherDims.WF S24x256x256 S1000000x2 S24x1000000 [0] [1, 2] [] [1, 2] [] 1 ![24, 1, 1]
  gather_S24x256_S1000000x1_S24x1000000_0_1_n_n_1_1_241_wf : GatherDims.WF S24x256 S1000000x1 S24x1000000 [0] [1] [] [1] [] 1 ![24, 1]
  dot_S4000x24_S24x28_S4000x28_1_0_0_1_n_n_wf : DotDims.WF S4000x24 S24x28 S4000x28 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x24.size a ≤ S1000000x24.size a
  hwx0_0 : ∀ i : grid0.Coords, EltTy.bits .f32 = 32 ∨ (Rect.block (s := S1000000x24) S4000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x24.size a ≤ S1000000x24.size a
  hwx0_1 : ∀ i : grid0.Coords, EltTy.bits .f32 = 32 ∨ (Rect.block (s := S1000000x24) S4000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x24.size a ≤ S1000000x24.size a
  hwx0_2 : ∀ i : grid0.Coords, EltTy.bits .f32 = 32 ∨ (Rect.block (s := S1000000x24) S4000x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x24.size a ≤ S1000000x24.size a
  hwx0_3 : ∀ i : grid0.Coords, EltTy.bits .f32 = 32 ∨ (Rect.block (s := S1000000x24) S4000x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x24.size a ≤ S1000000x24.size a
  hwx0_4 : ∀ i : grid0.Coords, EltTy.bits .f32 = 32 ∨ (Rect.block (s := S1000000x24) S4000x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x24.size a ≤ S1000000x24.size a
  hwx0_5 : ∀ i : grid0.Coords, EltTy.bits .f32 = 32 ∨ (Rect.block (s := S1000000x24) S4000x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S72x28.size a ≤ S72x28.size a
  hwx0_6 : ∀ i : grid0.Coords, EltTy.bits .f32 = 32 ∨ (Rect.block (s := S72x28) S72x28.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x28.size a ≤ S1000000x28.size a
  hwx0_7 : ∀ i : grid0.Coords, EltTy.bits .f32 = 32 ∨ (Rect.block (s := S1000000x28) S4000x28.size (cc0_transform_7 i) (hinb0_7 i)).WholeWords (EltTy.packing .f32)

variable [Facts₀]

def gather_S24x256x256_S1000000x2_S24x1000000_0_12_n_n_12_1_2411 : GatherDims S24x256x256 S1000000x2 S24x1000000 where
  offsetDims := [0]
  collapsedSliceDims := [1, 2]
  operandBatchingDims := []
  startIndicesBatchingDims := []
  startIndexMap := [1, 2]
  indexVectorDim := 1
  sliceSizes := ![24, 1, 1]
  wf := gather_S24x256x256_S1000000x2_S24x1000000_0_12_n_n_12_1_2411_wf
def gather_S24x256_S1000000x1_S24x1000000_0_1_n_n_1_1_241 : GatherDims S24x256 S1000000x1 S24x1000000 where
  offsetDims := [0]
  collapsedSliceDims := [1]
  operandBatchingDims := []
  startIndicesBatchingDims := []
  startIndexMap := [1]
  indexVectorDim := 1
  sliceSizes := ![24, 1]
  wf := gather_S24x256_S1000000x1_S24x1000000_0_1_n_n_1_1_241_wf
def dot_S4000x24_S24x28_S4000x28_1_0_0_1_n_n : DotDims S4000x24 S24x28 S4000x28 where
  lhsContracting := [1]
  rhsContracting := [0]
  lhsNonContracting := [0]
  rhsNonContracting := [1]
  lhsBatch := []
  rhsBatch := []
  wf := dot_S4000x24_S24x28_S4000x28_1_0_0_1_n_n_wf

abbrev win0_0 : Pipeline.Window sig grid0 :=
  Pipeline.Window.ofSpec (Memref.whole main_v182) S4000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v348) S4000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v514) S4000x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v565) S4000x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v616) S4000x24.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v667) S4000x24.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S72x28.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v668) S4000x28.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S24x256x256 : Shape := ⟨3, ![24, 256, 256]⟩
abbrev S24x256 : Shape := ⟨2, ![24, 256]⟩
abbrev S72x28 : Shape := ⟨2, ![72, 28]⟩
abbrev S3 : Shape := ⟨1, ![3]⟩
abbrev S1x3 : Shape := ⟨2, ![1, 3]⟩
abbrev S_ : Shape := ⟨0, ![]⟩
abbrev S1000000x1 : Shape := ⟨2, ![1000000, 1]⟩
abbrev S1000000 : Shape := ⟨1, ![1000000]⟩
abbrev S1000000x2 : Shape := ⟨2, ![1000000, 2]⟩
abbrev S24x1000000 : Shape := ⟨2, ![24, 1000000]⟩
abbrev S1x1000000 : Shape := ⟨2, ![1, 1000000]⟩
abbrev S1000000x24 : Shape := ⟨2, ![1000000, 24]⟩
abbrev S1000000x72 : Shape := ⟨2, ![1000000, 72]⟩
abbrev S1000000x28 : Shape := ⟨2, ![1000000, 28]⟩

abbrev nBuf : Space → Nat
  | .hbm => 1138
  | .vmem => 0
  | .smem => 0
  | _ => 0

abbrev hbmTy0_0 (i : Nat) : BufTy := match i % 128 with
  | 0 => ⟨S1000000x3, .f32⟩
  | 1 => ⟨S24x256x256, .f32⟩
  | 2 => ⟨S24x256x256, .f32⟩
  | 3 => ⟨S24x256x256, .f32⟩
  | 4 => ⟨S24x256, .f32⟩
  | 5 => ⟨S24x256, .f32⟩
  | 6 => ⟨S24x256, .f32⟩
  | 7 => ⟨S72x28, .f32⟩
  | 8 => ⟨S3, .f32⟩
  | 9 => ⟨S3, .f32⟩
  | 10 => ⟨S1x3, .f32⟩
  | 11 => ⟨S1000000x3, .f32⟩
  | 12 => ⟨S1000000x3, .f32⟩
  | 13 => ⟨S3, .f32⟩
  | 14 => ⟨S1x3, .f32⟩
  | 15 => ⟨S1000000x3, .f32⟩
  | 16 => ⟨S1000000x3, .f32⟩
  | 17 => ⟨S_, .f32⟩
  | 18 => ⟨S1000000x3, .f32⟩
  | 19 => ⟨S1000000x3, .f32⟩
  | 20 => ⟨S_, .f32⟩
  | 21 => ⟨S1000000x3, .f32⟩
  | 22 => ⟨S1000000x3, .f32⟩
  | 23 => ⟨S1000000x1, .f32⟩
  | 24 => ⟨S1000000, .f32⟩
  | 25 => ⟨S1000000x1, .f32⟩
  | 26 => ⟨S1000000, .f32⟩
  | 27 => ⟨S1000000x1, .f32⟩
  | 28 => ⟨S1000000, .f32⟩
  | 29 => ⟨S_, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000, .f32⟩
  | 48 => ⟨S1000000, .f32⟩
  | 49 => ⟨S1000000, .f32⟩
  | 50 => ⟨S1000000, .f32⟩
  | 51 => ⟨S1000000, .i32⟩
  | 52 => ⟨S1000000, .i32⟩
  | 53 => ⟨S_, .i32⟩
  | 54 => ⟨S1000000, .i32⟩
  | 55 => ⟨S1000000, .i32⟩
  | 56 => ⟨S_, .i32⟩
  | 57 => ⟨S1000000, .i32⟩
  | 58 => ⟨S1000000, .i32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S1x1000000, .f32⟩
  | 122 => ⟨S24x1000000, .f32⟩
  | 123 => ⟨S24x1000000, .f32⟩
  | 124 => ⟨S_, .i32⟩
  | 125 => ⟨S1000000, .i32⟩
  | 126 => ⟨S1000000, .i1⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S1000000, .i1⟩
  | 3 => ⟨S_, .i32⟩
  | 4 => ⟨S1000000, .i32⟩
  | 5 => ⟨S1000000, .i1⟩
  | 6 => ⟨S1000000, .i1⟩
  | 7 => ⟨S_, .i32⟩
  | 8 => ⟨S1000000, .i32⟩
  | 9 => ⟨S1000000, .i1⟩
  | 10 => ⟨S1000000, .i1⟩
  | 11 => ⟨S_, .i32⟩
  | 12 => ⟨S_, .i32⟩
  | 13 => ⟨S_, .i32⟩
  | 14 => ⟨S1000000, .i32⟩
  | 15 => ⟨S1000000, .i32⟩
  | 16 => ⟨S_, .i32⟩
  | 17 => ⟨S1000000, .i32⟩
  | 18 => ⟨S1000000, .i32⟩
  | 19 => ⟨S_, .i32⟩
  | 20 => ⟨S_, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x1, .i32⟩
  | 43 => ⟨S1000000x2, .i32⟩
  | 44 => ⟨S24x1000000, .f32⟩
  | 45 => ⟨S1x1000000, .i1⟩
  | 46 => ⟨S_, .f32⟩
  | 47 => ⟨S_, .f32⟩
  | 48 => ⟨S24x1000000, .i1⟩
  | 49 => ⟨S24x1000000, .f32⟩
  | 50 => ⟨S24x1000000, .f32⟩
  | 51 => ⟨S_, .f32⟩
  | 52 => ⟨S1000000, .f32⟩
  | 53 => ⟨S1000000, .f32⟩
  | 54 => ⟨S1000000, .f32⟩
  | 55 => ⟨S1x1000000, .f32⟩
  | 56 => ⟨S24x1000000, .f32⟩
  | 57 => ⟨S24x1000000, .f32⟩
  | 58 => ⟨S24x1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S1000000, .f32⟩
  | 118 => ⟨S1x1000000, .f32⟩
  | 119 => ⟨S24x1000000, .f32⟩
  | 120 => ⟨S24x1000000, .f32⟩
  | 121 => ⟨S24x1000000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_2 (i : Nat) : BufTy := match i % 128 with
  | 0 => ⟨S1000000, .i1⟩
  | 1 => ⟨S_, .i32⟩
  | 2 => ⟨S1000000, .i32⟩
  | 3 => ⟨S1000000, .i1⟩
  | 4 => ⟨S1000000, .i1⟩
  | 5 => ⟨S_, .i32⟩
  | 6 => ⟨S1000000, .i32⟩
  | 7 => ⟨S1000000, .i1⟩
  | 8 => ⟨S1000000, .i1⟩
  | 9 => ⟨S_, .i32⟩
  | 10 => ⟨S_, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i32⟩
  | 17 => ⟨S_, .i32⟩
  | 18 => ⟨S_, .i32⟩
  | 19 => ⟨S_, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x1, .i32⟩
  | 41 => ⟨S1000000x2, .i32⟩
  | 42 => ⟨S24x1000000, .f32⟩
  | 43 => ⟨S1x1000000, .i1⟩
  | 44 => ⟨S_, .f32⟩
  | 45 => ⟨S_, .f32⟩
  | 46 => ⟨S24x1000000, .i1⟩
  | 47 => ⟨S24x1000000, .f32⟩
  | 48 => ⟨S24x1000000, .f32⟩
  | 49 => ⟨S1000000, .f32⟩
  | 50 => ⟨S1x1000000, .f32⟩
  | 51 => ⟨S24x1000000, .f32⟩
  | 52 => ⟨S24x1000000, .f32⟩
  | 53 => ⟨S24x1000000, .f32⟩
  | 54 => ⟨S1000000x24, .f32⟩
  | 55 => ⟨S_, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_3 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S1x1000000, .f32⟩
  | 20 => ⟨S24x1000000, .f32⟩
  | 21 => ⟨S24x1000000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i1⟩
  | 28 => ⟨S1000000, .i1⟩
  | 29 => ⟨S_, .i32⟩
  | 30 => ⟨S1000000, .i32⟩
  | 31 => ⟨S1000000, .i1⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x1, .i32⟩
  | 69 => ⟨S1000000x2, .i32⟩
  | 70 => ⟨S24x1000000, .f32⟩
  | 71 => ⟨S1x1000000, .i1⟩
  | 72 => ⟨S_, .f32⟩
  | 73 => ⟨S_, .f32⟩
  | 74 => ⟨S24x1000000, .i1⟩
  | 75 => ⟨S24x1000000, .f32⟩
  | 76 => ⟨S24x1000000, .f32⟩
  | 77 => ⟨S_, .f32⟩
  | 78 => ⟨S1000000, .f32⟩
  | 79 => ⟨S1000000, .f32⟩
  | 80 => ⟨S1000000, .f32⟩
  | 81 => ⟨S1x1000000, .f32⟩
  | 82 => ⟨S24x1000000, .f32⟩
  | 83 => ⟨S24x1000000, .f32⟩
  | 84 => ⟨S24x1000000, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_4 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S1000000, .f32⟩
  | 16 => ⟨S1x1000000, .f32⟩
  | 17 => ⟨S24x1000000, .f32⟩
  | 18 => ⟨S24x1000000, .f32⟩
  | 19 => ⟨S24x1000000, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i1⟩
  | 26 => ⟨S1000000, .i1⟩
  | 27 => ⟨S_, .i32⟩
  | 28 => ⟨S1000000, .i32⟩
  | 29 => ⟨S1000000, .i1⟩
  | 30 => ⟨S1000000, .i1⟩
  | 31 => ⟨S_, .i32⟩
  | 32 => ⟨S1000000, .i32⟩
  | 33 => ⟨S1000000, .i1⟩
  | 34 => ⟨S1000000, .i1⟩
  | 35 => ⟨S_, .i32⟩
  | 36 => ⟨S_, .i32⟩
  | 37 => ⟨S_, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S_, .i32⟩
  | 45 => ⟨S_, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x1, .i32⟩
  | 67 => ⟨S1000000x2, .i32⟩
  | 68 => ⟨S24x1000000, .f32⟩
  | 69 => ⟨S1x1000000, .i1⟩
  | 70 => ⟨S_, .f32⟩
  | 71 => ⟨S_, .f32⟩
  | 72 => ⟨S24x1000000, .i1⟩
  | 73 => ⟨S24x1000000, .f32⟩
  | 74 => ⟨S24x1000000, .f32⟩
  | 75 => ⟨S1000000, .f32⟩
  | 76 => ⟨S1x1000000, .f32⟩
  | 77 => ⟨S24x1000000, .f32⟩
  | 78 => ⟨S24x1000000, .f32⟩
  | 79 => ⟨S24x1000000, .f32⟩
  | 80 => ⟨S1000000x24, .f32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S1000000, .f32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_5 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1x1000000, .f32⟩
  | 46 => ⟨S24x1000000, .f32⟩
  | 47 => ⟨S24x1000000, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i1⟩
  | 54 => ⟨S1000000, .i1⟩
  | 55 => ⟨S_, .i32⟩
  | 56 => ⟨S1000000, .i32⟩
  | 57 => ⟨S1000000, .i1⟩
  | 58 => ⟨S1000000, .i1⟩
  | 59 => ⟨S_, .i32⟩
  | 60 => ⟨S1000000, .i32⟩
  | 61 => ⟨S1000000, .i1⟩
  | 62 => ⟨S1000000, .i1⟩
  | 63 => ⟨S_, .i32⟩
  | 64 => ⟨S_, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S_, .i32⟩
  | 72 => ⟨S_, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x1, .i32⟩
  | 95 => ⟨S1000000x2, .i32⟩
  | 96 => ⟨S24x1000000, .f32⟩
  | 97 => ⟨S1x1000000, .i1⟩
  | 98 => ⟨S_, .f32⟩
  | 99 => ⟨S_, .f32⟩
  | 100 => ⟨S24x1000000, .i1⟩
  | 101 => ⟨S24x1000000, .f32⟩
  | 102 => ⟨S24x1000000, .f32⟩
  | 103 => ⟨S_, .f32⟩
  | 104 => ⟨S1000000, .f32⟩
  | 105 => ⟨S1000000, .f32⟩
  | 106 => ⟨S1000000, .f32⟩
  | 107 => ⟨S1x1000000, .f32⟩
  | 108 => ⟨S24x1000000, .f32⟩
  | 109 => ⟨S24x1000000, .f32⟩
  | 110 => ⟨S24x1000000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_6 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S1000000, .f32⟩
  | 42 => ⟨S1x1000000, .f32⟩
  | 43 => ⟨S24x1000000, .f32⟩
  | 44 => ⟨S24x1000000, .f32⟩
  | 45 => ⟨S24x1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i1⟩
  | 52 => ⟨S1000000, .i1⟩
  | 53 => ⟨S_, .i32⟩
  | 54 => ⟨S1000000, .i32⟩
  | 55 => ⟨S1000000, .i1⟩
  | 56 => ⟨S1000000, .i1⟩
  | 57 => ⟨S_, .i32⟩
  | 58 => ⟨S1000000, .i32⟩
  | 59 => ⟨S1000000, .i1⟩
  | 60 => ⟨S1000000, .i1⟩
  | 61 => ⟨S_, .i32⟩
  | 62 => ⟨S_, .i32⟩
  | 63 => ⟨S_, .i32⟩
  | 64 => ⟨S1000000, .i32⟩
  | 65 => ⟨S1000000, .i32⟩
  | 66 => ⟨S_, .i32⟩
  | 67 => ⟨S1000000, .i32⟩
  | 68 => ⟨S1000000, .i32⟩
  | 69 => ⟨S_, .i32⟩
  | 70 => ⟨S_, .i32⟩
  | 71 => ⟨S_, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x1, .i32⟩
  | 93 => ⟨S1000000x2, .i32⟩
  | 94 => ⟨S24x1000000, .f32⟩
  | 95 => ⟨S1x1000000, .i1⟩
  | 96 => ⟨S_, .f32⟩
  | 97 => ⟨S_, .f32⟩
  | 98 => ⟨S24x1000000, .i1⟩
  | 99 => ⟨S24x1000000, .f32⟩
  | 100 => ⟨S24x1000000, .f32⟩
  | 101 => ⟨S1000000, .f32⟩
  | 102 => ⟨S1x1000000, .f32⟩
  | 103 => ⟨S24x1000000, .f32⟩
  | 104 => ⟨S24x1000000, .f32⟩
  | 105 => ⟨S24x1000000, .f32⟩
  | 106 => ⟨S1000000x24, .f32⟩
  | 107 => ⟨S_, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S1000000, .f32⟩
  | 118 => ⟨S1000000, .i32⟩
  | 119 => ⟨S_, .i32⟩
  | 120 => ⟨S1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_7 (i : Nat) : BufTy := match i % 128 with
  | 0 => ⟨S1000000, .i1⟩
  | 1 => ⟨S_, .i32⟩
  | 2 => ⟨S_, .i32⟩
  | 3 => ⟨S_, .i32⟩
  | 4 => ⟨S1000000, .i32⟩
  | 5 => ⟨S1000000, .i32⟩
  | 6 => ⟨S_, .i32⟩
  | 7 => ⟨S1000000, .i32⟩
  | 8 => ⟨S1000000, .i32⟩
  | 9 => ⟨S1x1000000, .i1⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S24x1000000, .f32⟩
  | 19 => ⟨S_, .f32⟩
  | 20 => ⟨S_, .f32⟩
  | 21 => ⟨S24x1000000, .i1⟩
  | 22 => ⟨S24x1000000, .f32⟩
  | 23 => ⟨S24x1000000, .f32⟩
  | 24 => ⟨S_, .f32⟩
  | 25 => ⟨S1000000, .f32⟩
  | 26 => ⟨S1000000, .f32⟩
  | 27 => ⟨S1x1000000, .f32⟩
  | 28 => ⟨S24x1000000, .f32⟩
  | 29 => ⟨S24x1000000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1x1000000, .i1⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S24x1000000, .f32⟩
  | 55 => ⟨S_, .f32⟩
  | 56 => ⟨S_, .f32⟩
  | 57 => ⟨S24x1000000, .i1⟩
  | 58 => ⟨S24x1000000, .f32⟩
  | 59 => ⟨S24x1000000, .f32⟩
  | 60 => ⟨S1x1000000, .f32⟩
  | 61 => ⟨S24x1000000, .f32⟩
  | 62 => ⟨S24x1000000, .f32⟩
  | 63 => ⟨S24x1000000, .f32⟩
  | 64 => ⟨S1000000x24, .f32⟩
  | 65 => ⟨S_, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S1000000, .f32⟩
  | 76 => ⟨S1000000, .i32⟩
  | 77 => ⟨S_, .i32⟩
  | 78 => ⟨S1000000, .i32⟩
  | 79 => ⟨S1000000, .i32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i1⟩
  | 86 => ⟨S1000000, .i1⟩
  | 87 => ⟨S_, .i32⟩
  | 88 => ⟨S_, .i32⟩
  | 89 => ⟨S_, .i32⟩
  | 90 => ⟨S1000000, .i32⟩
  | 91 => ⟨S1000000, .i32⟩
  | 92 => ⟨S_, .i32⟩
  | 93 => ⟨S1000000, .i32⟩
  | 94 => ⟨S1000000, .i32⟩
  | 95 => ⟨S1x1000000, .i1⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S24x1000000, .f32⟩
  | 105 => ⟨S_, .f32⟩
  | 106 => ⟨S_, .f32⟩
  | 107 => ⟨S24x1000000, .i1⟩
  | 108 => ⟨S24x1000000, .f32⟩
  | 109 => ⟨S24x1000000, .f32⟩
  | 110 => ⟨S_, .f32⟩
  | 111 => ⟨S1000000, .f32⟩
  | 112 => ⟨S1000000, .f32⟩
  | 113 => ⟨S1x1000000, .f32⟩
  | 114 => ⟨S24x1000000, .f32⟩
  | 115 => ⟨S24x1000000, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i1⟩
  | 122 => ⟨S1000000, .i1⟩
  | 123 => ⟨S_, .i32⟩
  | 124 => ⟨S_, .i32⟩
  | 125 => ⟨S_, .i32⟩
  | 126 => ⟨S1000000, .i32⟩
  | 127 => ⟨S1000000, .i32⟩
  | _ => ⟨S1000000x3, .f32⟩

abbrev hbmTy0_8 (i : Nat) : BufTy := match i % 128 with
  | 0 => ⟨S_, .i32⟩
  | 1 => ⟨S1000000, .i32⟩
  | 2 => ⟨S1000000, .i32⟩
  | 3 => ⟨S1x1000000, .i1⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S24x1000000, .f32⟩
  | 13 => ⟨S_, .f32⟩
  | 14 => ⟨S_, .f32⟩
  | 15 => ⟨S24x1000000, .i1⟩
  | 16 => ⟨S24x1000000, .f32⟩
  | 17 => ⟨S24x1000000, .f32⟩
  | 18 => ⟨S1x1000000, .f32⟩
  | 19 => ⟨S24x1000000, .f32⟩
  | 20 => ⟨S24x1000000, .f32⟩
  | 21 => ⟨S24x1000000, .f32⟩
  | 22 => ⟨S1000000x24, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S1000000, .f32⟩
  | 34 => ⟨S1000000, .i32⟩
  | 35 => ⟨S_, .i32⟩
  | 36 => ⟨S1000000, .i32⟩
  | 37 => ⟨S1000000, .i32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i1⟩
  | 44 => ⟨S1000000, .i1⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S1x1000000, .i1⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S24x1000000, .f32⟩
  | 63 => ⟨S_, .f32⟩
  | 64 => ⟨S_, .f32⟩
  | 65 => ⟨S24x1000000, .i1⟩
  | 66 => ⟨S24x1000000, .f32⟩
  | 67 => ⟨S24x1000000, .f32⟩
  | 68 => ⟨S_, .f32⟩
  | 69 => ⟨S1000000, .f32⟩
  | 70 => ⟨S1000000, .f32⟩
  | 71 => ⟨S1x1000000, .f32⟩
  | 72 => ⟨S24x1000000, .f32⟩
  | 73 => ⟨S24x1000000, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i1⟩
  | 80 => ⟨S1000000, .i1⟩
  | 81 => ⟨S_, .i32⟩
  | 82 => ⟨S_, .i32⟩
  | 83 => ⟨S_, .i32⟩
  | 84 => ⟨S1000000, .i32⟩
  | 85 => ⟨S1000000, .i32⟩
  | 86 => ⟨S_, .i32⟩
  | 87 => ⟨S1000000, .i32⟩
  | 88 => ⟨S1000000, .i32⟩
  | 89 => ⟨S1x1000000, .i1⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S24x1000000, .f32⟩
  | 99 => ⟨S_, .f32⟩
  | 100 => ⟨S_, .f32⟩
  | 101 => ⟨S24x1000000, .i1⟩
  | 102 => ⟨S24x1000000, .f32⟩
  | 103 => ⟨S24x1000000, .f32⟩
  | 104 => ⟨S1x1000000, .f32⟩
  | 105 => ⟨S24x1000000, .f32⟩
  | 106 => ⟨S24x1000000, .f32⟩
  | 107 => ⟨S24x1000000, .f32⟩
  | 108 => ⟨S1000000x24, .f32⟩
  | 109 => ⟨S1000000x24, .f32⟩
  | 110 => ⟨S1000000x24, .f32⟩
  | 111 => ⟨S1000000x24, .f32⟩
  | 112 => ⟨S1000000x72, .f32⟩
  | 113 => ⟨S1000000x28, .f32⟩
  | _ => ⟨S1000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_c_13 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v50 : Ref sig .tc := ⟨.hbm, 81, rfl⟩
abbrev main_c_14 : Ref sig .tc := ⟨.hbm, 82, rfl⟩
abbrev main_c_15 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v51 : Ref sig .tc := ⟨.hbm, 89, rfl⟩
abbrev main_c_16 : Ref sig .tc := ⟨.hbm, 90, rfl⟩
abbrev main_v52 : Ref sig .tc := ⟨.hbm, 91, rfl⟩
abbrev main_v53 : Ref sig .tc := ⟨.hbm, 92, rfl⟩
abbrev main_c_17 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_18 : Ref sig .tc := ⟨.hbm, 97, rfl⟩
abbrev main_v57 : Ref sig .tc := ⟨.hbm, 98, rfl⟩
abbrev main_v58 : Ref sig .tc := ⟨.hbm, 99, rfl⟩
abbrev main_c_19 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_20 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v67 : Ref sig .tc := ⟨.hbm, 113, rfl⟩
abbrev main_cst_21 : Ref sig .tc := ⟨.hbm, 114, rfl⟩
abbrev main_v68 : Ref sig .tc := ⟨.hbm, 115, rfl⟩
abbrev main_v69 : Ref sig .tc := ⟨.hbm, 116, rfl⟩
abbrev main_cst_22 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_23 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_25 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_26 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_27 : Ref sig .tc := ⟨.hbm, 139, rfl⟩
abbrev main_c_28 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v87 : Ref sig .tc := ⟨.hbm, 146, rfl⟩
abbrev main_c_29 : Ref sig .tc := ⟨.hbm, 147, rfl⟩
abbrev main_c_30 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v88 : Ref sig .tc := ⟨.hbm, 154, rfl⟩
abbrev main_c_31 : Ref sig .tc := ⟨.hbm, 155, rfl⟩
abbrev main_v89 : Ref sig .tc := ⟨.hbm, 156, rfl⟩
abbrev main_v90 : Ref sig .tc := ⟨.hbm, 157, rfl⟩
abbrev main_c_32 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c_33 : Ref sig .tc := ⟨.hbm, 162, rfl⟩
abbrev main_v94 : Ref sig .tc := ⟨.hbm, 163, rfl⟩
abbrev main_v95 : Ref sig .tc := ⟨.hbm, 164, rfl⟩
abbrev main_c_34 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_35 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v104 : Ref sig .tc := ⟨.hbm, 178, rfl⟩
abbrev main_cst_36 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_37 : Ref sig .tc := ⟨.hbm, 187, rfl⟩
abbrev main_v112 : Ref sig .tc := ⟨.hbm, 188, rfl⟩
abbrev main_v113 : Ref sig .tc := ⟨.hbm, 189, rfl⟩
abbrev main_c_38 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_c_39 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_c_40 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_41 : Ref sig .tc := ⟨.hbm, 202, rfl⟩
abbrev main_c_42 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_c_43 : Ref sig .tc := ⟨.hbm, 210, rfl⟩
abbrev main_c_44 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_v124 : Ref sig .tc := ⟨.hbm, 217, rfl⟩
abbrev main_c_45 : Ref sig .tc := ⟨.hbm, 218, rfl⟩
abbrev main_v125 : Ref sig .tc := ⟨.hbm, 219, rfl⟩
abbrev main_v126 : Ref sig .tc := ⟨.hbm, 220, rfl⟩
abbrev main_c_46 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_c_47 : Ref sig .tc := ⟨.hbm, 225, rfl⟩
abbrev main_v130 : Ref sig .tc := ⟨.hbm, 226, rfl⟩
abbrev main_v131 : Ref sig .tc := ⟨.hbm, 227, rfl⟩
abbrev main_c_48 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_cst_49 : Ref sig .tc := ⟨.hbm, 237, rfl⟩
abbrev main_call8_v0 : Ref sig .tc := ⟨.hbm, 238, rfl⟩
abbrev main_call8_v1 : Ref sig .tc := ⟨.hbm, 239, rfl⟩
abbrev main_call8_v2 : Ref sig .tc := ⟨.hbm, 240, rfl⟩
abbrev main_v140 : Ref sig .tc := ⟨.hbm, 241, rfl⟩
abbrev main_cst_50 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_c_51 : Ref sig .tc := ⟨.hbm, 250, rfl⟩
abbrev main_v148 : Ref sig .tc := ⟨.hbm, 251, rfl⟩
abbrev main_v149 : Ref sig .tc := ⟨.hbm, 252, rfl⟩
abbrev main_c_52 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_c_53 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_c_54 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_c_55 : Ref sig .tc := ⟨.hbm, 265, rfl⟩
abbrev main_c_56 : Ref sig .tc := ⟨.hbm, 266, rfl⟩
abbrev main_call9_v0 : Ref sig .tc := ⟨.hbm, 267, rfl⟩
abbrev main_call9_v1 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_v159 : Ref sig .tc := ⟨.hbm, 272, rfl⟩
abbrev main_c_57 : Ref sig .tc := ⟨.hbm, 273, rfl⟩
abbrev main_c_58 : Ref sig .tc := ⟨.hbm, 274, rfl⟩
abbrev main_call10_v0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_v160 : Ref sig .tc := ⟨.hbm, 280, rfl⟩
abbrev main_c_59 : Ref sig .tc := ⟨.hbm, 281, rfl⟩
abbrev main_v161 : Ref sig .tc := ⟨.hbm, 282, rfl⟩
abbrev main_v162 : Ref sig .tc := ⟨.hbm, 283, rfl⟩
abbrev main_c_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_c_61 : Ref sig .tc := ⟨.hbm, 288, rfl⟩
abbrev main_v166 : Ref sig .tc := ⟨.hbm, 289, rfl⟩
abbrev main_v167 : Ref sig .tc := ⟨.hbm, 290, rfl⟩
abbrev main_c_62 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_cst_63 : Ref sig .tc := ⟨.hbm, 300, rfl⟩
abbrev main_call11_v0 : Ref sig .tc := ⟨.hbm, 301, rfl⟩
abbrev main_call11_v1 : Ref sig .tc := ⟨.hbm, 302, rfl⟩
abbrev main_call11_v2 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_cst_64 : Ref sig .tc := ⟨.hbm, 311, rfl⟩
abbrev main_v183 : Ref sig .tc := ⟨.hbm, 312, rfl⟩
abbrev main_v184 : Ref sig .tc := ⟨.hbm, 313, rfl⟩
abbrev main_cst_65 : Ref sig .tc := ⟨.hbm, 314, rfl⟩
abbrev main_v185 : Ref sig .tc := ⟨.hbm, 315, rfl⟩
abbrev main_v186 : Ref sig .tc := ⟨.hbm, 316, rfl⟩
abbrev main_cst_66 : Ref sig .tc := ⟨.hbm, 317, rfl⟩
abbrev main_v187 : Ref sig .tc := ⟨.hbm, 318, rfl⟩
abbrev main_v188 : Ref sig .tc := ⟨.hbm, 319, rfl⟩
abbrev main_cst_67 : Ref sig .tc := ⟨.hbm, 320, rfl⟩
abbrev main_v189 : Ref sig .tc := ⟨.hbm, 321, rfl⟩
abbrev main_v190 : Ref sig .tc := ⟨.hbm, 322, rfl⟩
abbrev main_cst_68 : Ref sig .tc := ⟨.hbm, 323, rfl⟩
abbrev main_v191 : Ref sig .tc := ⟨.hbm, 324, rfl⟩
abbrev main_v192 : Ref sig .tc := ⟨.hbm, 325, rfl⟩
abbrev main_cst_69 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_c_70 : Ref sig .tc := ⟨.hbm, 335, rfl⟩
abbrev main_v201 : Ref sig .tc := ⟨.hbm, 336, rfl⟩
abbrev main_v202 : Ref sig .tc := ⟨.hbm, 337, rfl⟩
abbrev main_c_71 : Ref sig .tc := ⟨.hbm, 338, rfl⟩
abbrev main_v203 : Ref sig .tc := ⟨.hbm, 339, rfl⟩
abbrev main_v204 : Ref sig .tc := ⟨.hbm, 340, rfl⟩
abbrev main_c_72 : Ref sig .tc := ⟨.hbm, 341, rfl⟩
abbrev main_v205 : Ref sig .tc := ⟨.hbm, 342, rfl⟩
abbrev main_v206 : Ref sig .tc := ⟨.hbm, 343, rfl⟩
abbrev main_c_73 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_c_74 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_c_75 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_c_76 : Ref sig .tc := ⟨.hbm, 356, rfl⟩
abbrev main_c_77 : Ref sig .tc := ⟨.hbm, 357, rfl⟩
abbrev main_call12_v0 : Ref sig .tc := ⟨.hbm, 358, rfl⟩
abbrev main_call12_v1 : Ref sig .tc := ⟨.hbm, 359, rfl⟩
abbrev main_call12_v2 : Ref sig .tc := ⟨.hbm, 360, rfl⟩
abbrev main_call12_v3 : Ref sig .tc := ⟨.hbm, 361, rfl⟩
abbrev main_call12_v4 : Ref sig .tc := ⟨.hbm, 362, rfl⟩
abbrev main_v216 : Ref sig .tc := ⟨.hbm, 363, rfl⟩
abbrev main_c_78 : Ref sig .tc := ⟨.hbm, 364, rfl⟩
abbrev main_c_79 : Ref sig .tc := ⟨.hbm, 365, rfl⟩
abbrev main_call13_v0 : Ref sig .tc := ⟨.hbm, 366, rfl⟩
abbrev main_call13_v1 : Ref sig .tc := ⟨.hbm, 367, rfl⟩
abbrev main_call13_v2 : Ref sig .tc := ⟨.hbm, 368, rfl⟩
abbrev main_call13_v3 : Ref sig .tc := ⟨.hbm, 369, rfl⟩
abbrev main_call13_v4 : Ref sig .tc := ⟨.hbm, 370, rfl⟩
abbrev main_v217 : Ref sig .tc := ⟨.hbm, 371, rfl⟩
abbrev main_c_80 : Ref sig .tc := ⟨.hbm, 372, rfl⟩
abbrev main_v218 : Ref sig .tc := ⟨.hbm, 373, rfl⟩
abbrev main_v219 : Ref sig .tc := ⟨.hbm, 374, rfl⟩
abbrev main_c_81 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_c_82 : Ref sig .tc := ⟨.hbm, 379, rfl⟩
abbrev main_v223 : Ref sig .tc := ⟨.hbm, 380, rfl⟩
abbrev main_v224 : Ref sig .tc := ⟨.hbm, 381, rfl⟩
abbrev main_c_83 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_cst_84 : Ref sig .tc := ⟨.hbm, 391, rfl⟩
abbrev main_call14_v0 : Ref sig .tc := ⟨.hbm, 392, rfl⟩
abbrev main_call14_v1 : Ref sig .tc := ⟨.hbm, 393, rfl⟩
abbrev main_call14_v2 : Ref sig .tc := ⟨.hbm, 394, rfl⟩
abbrev main_v233 : Ref sig .tc := ⟨.hbm, 395, rfl⟩
abbrev main_cst_85 : Ref sig .tc := ⟨.hbm, 396, rfl⟩
abbrev main_v234 : Ref sig .tc := ⟨.hbm, 397, rfl⟩
abbrev main_v235 : Ref sig .tc := ⟨.hbm, 398, rfl⟩
abbrev main_cst_86 : Ref sig .tc := ⟨.hbm, 399, rfl⟩
abbrev main_v236 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_c_87 : Ref sig .tc := ⟨.hbm, 406, rfl⟩
abbrev main_v242 : Ref sig .tc := ⟨.hbm, 407, rfl⟩
abbrev main_v243 : Ref sig .tc := ⟨.hbm, 408, rfl⟩
abbrev main_c_88 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_c_89 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_c_90 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_c_91 : Ref sig .tc := ⟨.hbm, 421, rfl⟩
abbrev main_c_92 : Ref sig .tc := ⟨.hbm, 422, rfl⟩
abbrev main_call15_v0 : Ref sig .tc := ⟨.hbm, 423, rfl⟩
abbrev main_call15_v1 : Ref sig .tc := ⟨.hbm, 424, rfl⟩
abbrev main_call15_v2 : Ref sig .tc := ⟨.hbm, 425, rfl⟩
abbrev main_call15_v3 : Ref sig .tc := ⟨.hbm, 426, rfl⟩
abbrev main_call15_v4 : Ref sig .tc := ⟨.hbm, 427, rfl⟩
abbrev main_v253 : Ref sig .tc := ⟨.hbm, 428, rfl⟩
abbrev main_c_93 : Ref sig .tc := ⟨.hbm, 429, rfl⟩
abbrev main_c_94 : Ref sig .tc := ⟨.hbm, 430, rfl⟩
abbrev main_call16_v0 : Ref sig .tc := ⟨.hbm, 431, rfl⟩
abbrev main_call16_v1 : Ref sig .tc := ⟨.hbm, 432, rfl⟩
abbrev main_call16_v2 : Ref sig .tc := ⟨.hbm, 433, rfl⟩
abbrev main_call16_v3 : Ref sig .tc := ⟨.hbm, 434, rfl⟩
abbrev main_call16_v4 : Ref sig .tc := ⟨.hbm, 435, rfl⟩
abbrev main_v254 : Ref sig .tc := ⟨.hbm, 436, rfl⟩
abbrev main_c_95 : Ref sig .tc := ⟨.hbm, 437, rfl⟩
abbrev main_v255 : Ref sig .tc := ⟨.hbm, 438, rfl⟩
abbrev main_v256 : Ref sig .tc := ⟨.hbm, 439, rfl⟩
abbrev main_c_96 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_c_97 : Ref sig .tc := ⟨.hbm, 444, rfl⟩
abbrev main_v260 : Ref sig .tc := ⟨.hbm, 445, rfl⟩
abbrev main_v261 : Ref sig .tc := ⟨.hbm, 446, rfl⟩
abbrev main_c_98 : Ref sig .tc := ⟨.hbm, 447, rfl⟩
abbrev main_v262 : Ref sig .tc := ⟨.hbm, 448, rfl⟩
abbrev main_v263 : Ref sig .tc := ⟨.hbm, 449, rfl⟩
abbrev main_v264 : Ref sig .tc := ⟨.hbm, 450, rfl⟩
abbrev main_v265 : Ref sig .tc := ⟨.hbm, 451, rfl⟩
abbrev main_v266 : Ref sig .tc := ⟨.hbm, 452, rfl⟩
abbrev main_v267 : Ref sig .tc := ⟨.hbm, 453, rfl⟩
abbrev main_v268 : Ref sig .tc := ⟨.hbm, 454, rfl⟩
abbrev main_v269 : Ref sig .tc := ⟨.hbm, 455, rfl⟩
abbrev main_cst_99 : Ref sig .tc := ⟨.hbm, 456, rfl⟩
abbrev main_call17_v0 : Ref sig .tc := ⟨.hbm, 457, rfl⟩
abbrev main_call17_v1 : Ref sig .tc := ⟨.hbm, 458, rfl⟩
abbrev main_call17_v2 : Ref sig .tc := ⟨.hbm, 459, rfl⟩
abbrev main_v270 : Ref sig .tc := ⟨.hbm, 460, rfl⟩
abbrev main_cst_100 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_c_101 : Ref sig .tc := ⟨.hbm, 469, rfl⟩
abbrev main_v278 : Ref sig .tc := ⟨.hbm, 470, rfl⟩
abbrev main_v279 : Ref sig .tc := ⟨.hbm, 471, rfl⟩
abbrev main_c_102 : Ref sig .tc := ⟨.hbm, 472, rfl⟩
abbrev main_v280 : Ref sig .tc := ⟨.hbm, 473, rfl⟩
abbrev main_v281 : Ref sig .tc := ⟨.hbm, 474, rfl⟩
abbrev main_v282 : Ref sig .tc := ⟨.hbm, 475, rfl⟩
abbrev main_c_103 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_c_104 : Ref sig .tc := ⟨.hbm, 480, rfl⟩
abbrev main_v286 : Ref sig .tc := ⟨.hbm, 481, rfl⟩
abbrev main_v287 : Ref sig .tc := ⟨.hbm, 482, rfl⟩
abbrev main_v288 : Ref sig .tc := ⟨.hbm, 483, rfl⟩
abbrev main_c_105 : Ref sig .tc := ⟨.hbm, 484, rfl⟩
abbrev main_c_106 : Ref sig .tc := ⟨.hbm, 485, rfl⟩
abbrev main_call18_v0 : Ref sig .tc := ⟨.hbm, 486, rfl⟩
abbrev main_call18_v1 : Ref sig .tc := ⟨.hbm, 487, rfl⟩
abbrev main_call18_v2 : Ref sig .tc := ⟨.hbm, 488, rfl⟩
abbrev main_call18_v3 : Ref sig .tc := ⟨.hbm, 489, rfl⟩
abbrev main_call18_v4 : Ref sig .tc := ⟨.hbm, 490, rfl⟩
abbrev main_v289 : Ref sig .tc := ⟨.hbm, 491, rfl⟩
abbrev main_c_107 : Ref sig .tc := ⟨.hbm, 492, rfl⟩
abbrev main_c_108 : Ref sig .tc := ⟨.hbm, 493, rfl⟩
abbrev main_call19_v0 : Ref sig .tc := ⟨.hbm, 494, rfl⟩
abbrev main_call19_v1 : Ref sig .tc := ⟨.hbm, 495, rfl⟩
abbrev main_call19_v2 : Ref sig .tc := ⟨.hbm, 496, rfl⟩
abbrev main_call19_v3 : Ref sig .tc := ⟨.hbm, 497, rfl⟩
abbrev main_call19_v4 : Ref sig .tc := ⟨.hbm, 498, rfl⟩
abbrev main_v290 : Ref sig .tc := ⟨.hbm, 499, rfl⟩
abbrev main_c_109 : Ref sig .tc := ⟨.hbm, 500, rfl⟩
abbrev main_v291 : Ref sig .tc := ⟨.hbm, 501, rfl⟩
abbrev main_v292 : Ref sig .tc := ⟨.hbm, 502, rfl⟩
abbrev main_c_110 : Ref sig .tc := ⟨.hbm, 503, rfl⟩
abbrev main_v293 : Ref sig .tc := ⟨.hbm, 504, rfl⟩
abbrev main_v294 : Ref sig .tc := ⟨.hbm, 505, rfl⟩
abbrev main_v295 : Ref sig .tc := ⟨.hbm, 506, rfl⟩
abbrev main_c_111 : Ref sig .tc := ⟨.hbm, 507, rfl⟩
abbrev main_v296 : Ref sig .tc := ⟨.hbm, 508, rfl⟩
abbrev main_v297 : Ref sig .tc := ⟨.hbm, 509, rfl⟩
abbrev main_c_112 : Ref sig .tc := ⟨.hbm, 510, rfl⟩
abbrev main_v298 : Ref sig .tc := ⟨.hbm, 511, rfl⟩
abbrev main_v299 : Ref sig .tc := ⟨.hbm, 512, rfl⟩
abbrev main_v300 : Ref sig .tc := ⟨.hbm, 513, rfl⟩
abbrev main_v301 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_cst_113 : Ref sig .tc := ⟨.hbm, 519, rfl⟩
abbrev main_call20_v0 : Ref sig .tc := ⟨.hbm, 520, rfl⟩
abbrev main_call20_v1 : Ref sig .tc := ⟨.hbm, 521, rfl⟩
abbrev main_call20_v2 : Ref sig .tc := ⟨.hbm, 522, rfl⟩
abbrev main_v306 : Ref sig .tc := ⟨.hbm, 523, rfl⟩
abbrev main_cst_114 : Ref sig .tc := ⟨.hbm, 524, rfl⟩
abbrev main_v307 : Ref sig .tc := ⟨.hbm, 525, rfl⟩
abbrev main_v308 : Ref sig .tc := ⟨.hbm, 526, rfl⟩
abbrev main_v309 : Ref sig .tc := ⟨.hbm, 527, rfl⟩
abbrev main_v310 : Ref sig .tc := ⟨.hbm, 528, rfl⟩
abbrev main_v311 : Ref sig .tc := ⟨.hbm, 529, rfl⟩
abbrev main_v312 : Ref sig .tc := ⟨.hbm, 530, rfl⟩
abbrev main_v313 : Ref sig .tc := ⟨.hbm, 531, rfl⟩
abbrev main_c_115 : Ref sig .tc := ⟨.hbm, 532, rfl⟩
abbrev main_v314 : Ref sig .tc := ⟨.hbm, 533, rfl⟩
abbrev main_v315 : Ref sig .tc := ⟨.hbm, 534, rfl⟩
abbrev main_c_116 : Ref sig .tc := ⟨.hbm, 535, rfl⟩
abbrev main_v316 : Ref sig .tc := ⟨.hbm, 536, rfl⟩
abbrev main_v317 : Ref sig .tc := ⟨.hbm, 537, rfl⟩
abbrev main_v318 : Ref sig .tc := ⟨.hbm, 538, rfl⟩
abbrev main_c_117 : Ref sig .tc := ⟨.hbm, 539, rfl⟩
abbrev main_v319 : Ref sig .tc := ⟨.hbm, 540, rfl⟩
abbrev main_v320 : Ref sig .tc := ⟨.hbm, 541, rfl⟩
abbrev main_v321 : Ref sig .tc := ⟨.hbm, 542, rfl⟩
abbrev main_c_118 : Ref sig .tc := ⟨.hbm, 543, rfl⟩
abbrev main_v322 : Ref sig .tc := ⟨.hbm, 544, rfl⟩
abbrev main_v323 : Ref sig .tc := ⟨.hbm, 545, rfl⟩
abbrev main_v324 : Ref sig .tc := ⟨.hbm, 546, rfl⟩
abbrev main_c_119 : Ref sig .tc := ⟨.hbm, 547, rfl⟩
abbrev main_c_120 : Ref sig .tc := ⟨.hbm, 548, rfl⟩
abbrev main_call21_v0 : Ref sig .tc := ⟨.hbm, 549, rfl⟩
abbrev main_call21_v1 : Ref sig .tc := ⟨.hbm, 550, rfl⟩
abbrev main_call21_v2 : Ref sig .tc := ⟨.hbm, 551, rfl⟩
abbrev main_call21_v3 : Ref sig .tc := ⟨.hbm, 552, rfl⟩
abbrev main_call21_v4 : Ref sig .tc := ⟨.hbm, 553, rfl⟩
abbrev main_v325 : Ref sig .tc := ⟨.hbm, 554, rfl⟩
abbrev main_c_121 : Ref sig .tc := ⟨.hbm, 555, rfl⟩
abbrev main_c_122 : Ref sig .tc := ⟨.hbm, 556, rfl⟩
abbrev main_call22_v0 : Ref sig .tc := ⟨.hbm, 557, rfl⟩
abbrev main_call22_v1 : Ref sig .tc := ⟨.hbm, 558, rfl⟩
abbrev main_call22_v2 : Ref sig .tc := ⟨.hbm, 559, rfl⟩
abbrev main_call22_v3 : Ref sig .tc := ⟨.hbm, 560, rfl⟩
abbrev main_call22_v4 : Ref sig .tc := ⟨.hbm, 561, rfl⟩
abbrev main_v326 : Ref sig .tc := ⟨.hbm, 562, rfl⟩
abbrev main_c_123 : Ref sig .tc := ⟨.hbm, 563, rfl⟩
abbrev main_v327 : Ref sig .tc := ⟨.hbm, 564, rfl⟩
abbrev main_v328 : Ref sig .tc := ⟨.hbm, 565, rfl⟩
abbrev main_c_124 : Ref sig .tc := ⟨.hbm, 566, rfl⟩
abbrev main_v329 : Ref sig .tc := ⟨.hbm, 567, rfl⟩
abbrev main_v330 : Ref sig .tc := ⟨.hbm, 568, rfl⟩
abbrev main_v331 : Ref sig .tc := ⟨.hbm, 569, rfl⟩
abbrev main_c_125 : Ref sig .tc := ⟨.hbm, 570, rfl⟩
abbrev main_v332 : Ref sig .tc := ⟨.hbm, 571, rfl⟩
abbrev main_v333 : Ref sig .tc := ⟨.hbm, 572, rfl⟩
abbrev main_c_126 : Ref sig .tc := ⟨.hbm, 573, rfl⟩
abbrev main_v334 : Ref sig .tc := ⟨.hbm, 574, rfl⟩
abbrev main_v335 : Ref sig .tc := ⟨.hbm, 575, rfl⟩
abbrev main_v336 : Ref sig .tc := ⟨.hbm, 576, rfl⟩
abbrev main_v337 : Ref sig .tc := ⟨.hbm, 577, rfl⟩
abbrev main_v338 : Ref sig .tc := ⟨.hbm, 578, rfl⟩
abbrev main_v339 : Ref sig .tc := ⟨.hbm, 579, rfl⟩
abbrev main_v340 : Ref sig .tc := ⟨.hbm, 580, rfl⟩
abbrev main_v341 : Ref sig .tc := ⟨.hbm, 581, rfl⟩
abbrev main_cst_127 : Ref sig .tc := ⟨.hbm, 582, rfl⟩
abbrev main_call23_v0 : Ref sig .tc := ⟨.hbm, 583, rfl⟩
abbrev main_call23_v1 : Ref sig .tc := ⟨.hbm, 584, rfl⟩
abbrev main_call23_v2 : Ref sig .tc := ⟨.hbm, 585, rfl⟩
abbrev main_v342 : Ref sig .tc := ⟨.hbm, 586, rfl⟩
abbrev main_v343 : Ref sig .tc := ⟨.hbm, 587, rfl⟩
abbrev main_v344 : Ref sig .tc := ⟨.hbm, 588, rfl⟩
abbrev main_v345 : Ref sig .tc := ⟨.hbm, 589, rfl⟩
abbrev main_v346 : Ref sig .tc := ⟨.hbm, 590, rfl⟩
abbrev main_v347 : Ref sig .tc := ⟨.hbm, 591, rfl⟩
abbrev main_v348 : Ref sig .tc := ⟨.hbm, 592, rfl⟩
abbrev main_cst_128 : Ref sig .tc := ⟨.hbm, 593, rfl⟩
abbrev main_v349 : Ref sig .tc := ⟨.hbm, 594, rfl⟩
abbrev main_v350 : Ref sig .tc := ⟨.hbm, 595, rfl⟩
abbrev main_cst_129 : Ref sig .tc := ⟨.hbm, 596, rfl⟩
abbrev main_v351 : Ref sig .tc := ⟨.hbm, 597, rfl⟩
abbrev main_v352 : Ref sig .tc := ⟨.hbm, 598, rfl⟩
abbrev main_cst_130 : Ref sig .tc := ⟨.hbm, 599, rfl⟩
abbrev main_v353 : Ref sig .tc := ⟨.hbm, 600, rfl⟩
abbrev main_v354 : Ref sig .tc := ⟨.hbm, 601, rfl⟩
abbrev main_cst_131 : Ref sig .tc := ⟨.hbm, 602, rfl⟩
abbrev main_v355 : Ref sig .tc := ⟨.hbm, 603, rfl⟩
abbrev main_v356 : Ref sig .tc := ⟨.hbm, 604, rfl⟩
abbrev main_cst_132 : Ref sig .tc := ⟨.hbm, 605, rfl⟩
abbrev main_v357 : Ref sig .tc := ⟨.hbm, 606, rfl⟩
abbrev main_v358 : Ref sig .tc := ⟨.hbm, 607, rfl⟩
abbrev main_cst_133 : Ref sig .tc := ⟨.hbm, 608, rfl⟩
abbrev main_v359 : Ref sig .tc := ⟨.hbm, 609, rfl⟩
abbrev main_v360 : Ref sig .tc := ⟨.hbm, 610, rfl⟩
abbrev main_v361 : Ref sig .tc := ⟨.hbm, 611, rfl⟩
abbrev main_v362 : Ref sig .tc := ⟨.hbm, 612, rfl⟩
abbrev main_v363 : Ref sig .tc := ⟨.hbm, 613, rfl⟩
abbrev main_v364 : Ref sig .tc := ⟨.hbm, 614, rfl⟩
abbrev main_v365 : Ref sig .tc := ⟨.hbm, 615, rfl⟩
abbrev main_v366 : Ref sig .tc := ⟨.hbm, 616, rfl⟩
abbrev main_c_134 : Ref sig .tc := ⟨.hbm, 617, rfl⟩
abbrev main_v367 : Ref sig .tc := ⟨.hbm, 618, rfl⟩
abbrev main_v368 : Ref sig .tc := ⟨.hbm, 619, rfl⟩
abbrev main_c_135 : Ref sig .tc := ⟨.hbm, 620, rfl⟩
abbrev main_v369 : Ref sig .tc := ⟨.hbm, 621, rfl⟩
abbrev main_v370 : Ref sig .tc := ⟨.hbm, 622, rfl⟩
abbrev main_c_136 : Ref sig .tc := ⟨.hbm, 623, rfl⟩
abbrev main_v371 : Ref sig .tc := ⟨.hbm, 624, rfl⟩
abbrev main_v372 : Ref sig .tc := ⟨.hbm, 625, rfl⟩
abbrev main_c_137 : Ref sig .tc := ⟨.hbm, 626, rfl⟩
abbrev main_v373 : Ref sig .tc := ⟨.hbm, 627, rfl⟩
abbrev main_v374 : Ref sig .tc := ⟨.hbm, 628, rfl⟩
abbrev main_v375 : Ref sig .tc := ⟨.hbm, 629, rfl⟩
abbrev main_c_138 : Ref sig .tc := ⟨.hbm, 630, rfl⟩
abbrev main_v376 : Ref sig .tc := ⟨.hbm, 631, rfl⟩
abbrev main_v377 : Ref sig .tc := ⟨.hbm, 632, rfl⟩
abbrev main_v378 : Ref sig .tc := ⟨.hbm, 633, rfl⟩
abbrev main_c_139 : Ref sig .tc := ⟨.hbm, 634, rfl⟩
abbrev main_v379 : Ref sig .tc := ⟨.hbm, 635, rfl⟩
abbrev main_v380 : Ref sig .tc := ⟨.hbm, 636, rfl⟩
abbrev main_v381 : Ref sig .tc := ⟨.hbm, 637, rfl⟩
abbrev main_c_140 : Ref sig .tc := ⟨.hbm, 638, rfl⟩
abbrev main_c_141 : Ref sig .tc := ⟨.hbm, 639, rfl⟩
abbrev main_call24_v0 : Ref sig .tc := ⟨.hbm, 640, rfl⟩
abbrev main_call24_v1 : Ref sig .tc := ⟨.hbm, 641, rfl⟩
abbrev main_call24_v2 : Ref sig .tc := ⟨.hbm, 642, rfl⟩
abbrev main_call24_v3 : Ref sig .tc := ⟨.hbm, 643, rfl⟩
abbrev main_call24_v4 : Ref sig .tc := ⟨.hbm, 644, rfl⟩
abbrev main_v382 : Ref sig .tc := ⟨.hbm, 645, rfl⟩
abbrev main_c_142 : Ref sig .tc := ⟨.hbm, 646, rfl⟩
abbrev main_c_143 : Ref sig .tc := ⟨.hbm, 647, rfl⟩
abbrev main_call25_v0 : Ref sig .tc := ⟨.hbm, 648, rfl⟩
abbrev main_call25_v1 : Ref sig .tc := ⟨.hbm, 649, rfl⟩
abbrev main_call25_v2 : Ref sig .tc := ⟨.hbm, 650, rfl⟩
abbrev main_call25_v3 : Ref sig .tc := ⟨.hbm, 651, rfl⟩
abbrev main_call25_v4 : Ref sig .tc := ⟨.hbm, 652, rfl⟩
abbrev main_v383 : Ref sig .tc := ⟨.hbm, 653, rfl⟩
abbrev main_c_144 : Ref sig .tc := ⟨.hbm, 654, rfl⟩
abbrev main_v384 : Ref sig .tc := ⟨.hbm, 655, rfl⟩
abbrev main_v385 : Ref sig .tc := ⟨.hbm, 656, rfl⟩
abbrev main_c_145 : Ref sig .tc := ⟨.hbm, 657, rfl⟩
abbrev main_v386 : Ref sig .tc := ⟨.hbm, 658, rfl⟩
abbrev main_v387 : Ref sig .tc := ⟨.hbm, 659, rfl⟩
abbrev main_v388 : Ref sig .tc := ⟨.hbm, 660, rfl⟩
abbrev main_c_146 : Ref sig .tc := ⟨.hbm, 661, rfl⟩
abbrev main_v389 : Ref sig .tc := ⟨.hbm, 662, rfl⟩
abbrev main_v390 : Ref sig .tc := ⟨.hbm, 663, rfl⟩
abbrev main_c_147 : Ref sig .tc := ⟨.hbm, 664, rfl⟩
abbrev main_v391 : Ref sig .tc := ⟨.hbm, 665, rfl⟩
abbrev main_v392 : Ref sig .tc := ⟨.hbm, 666, rfl⟩
abbrev main_v393 : Ref sig .tc := ⟨.hbm, 667, rfl⟩
abbrev main_v394 : Ref sig .tc := ⟨.hbm, 668, rfl⟩
abbrev main_v395 : Ref sig .tc := ⟨.hbm, 669, rfl⟩
abbrev main_v396 : Ref sig .tc := ⟨.hbm, 670, rfl⟩
abbrev main_v397 : Ref sig .tc := ⟨.hbm, 671, rfl⟩
abbrev main_v398 : Ref sig .tc := ⟨.hbm, 672, rfl⟩
abbrev main_cst_148 : Ref sig .tc := ⟨.hbm, 673, rfl⟩
abbrev main_call26_v0 : Ref sig .tc := ⟨.hbm, 674, rfl⟩
abbrev main_call26_v1 : Ref sig .tc := ⟨.hbm, 675, rfl⟩
abbrev main_call26_v2 : Ref sig .tc := ⟨.hbm, 676, rfl⟩
abbrev main_v399 : Ref sig .tc := ⟨.hbm, 677, rfl⟩
abbrev main_cst_149 : Ref sig .tc := ⟨.hbm, 678, rfl⟩
abbrev main_v400 : Ref sig .tc := ⟨.hbm, 679, rfl⟩
abbrev main_v401 : Ref sig .tc := ⟨.hbm, 680, rfl⟩
abbrev main_cst_150 : Ref sig .tc := ⟨.hbm, 681, rfl⟩
abbrev main_v402 : Ref sig .tc := ⟨.hbm, 682, rfl⟩
abbrev main_v403 : Ref sig .tc := ⟨.hbm, 683, rfl⟩
abbrev main_v404 : Ref sig .tc := ⟨.hbm, 684, rfl⟩
abbrev main_v405 : Ref sig .tc := ⟨.hbm, 685, rfl⟩
abbrev main_v406 : Ref sig .tc := ⟨.hbm, 686, rfl⟩
abbrev main_v407 : Ref sig .tc := ⟨.hbm, 687, rfl⟩
abbrev main_c_151 : Ref sig .tc := ⟨.hbm, 688, rfl⟩
abbrev main_v408 : Ref sig .tc := ⟨.hbm, 689, rfl⟩
abbrev main_v409 : Ref sig .tc := ⟨.hbm, 690, rfl⟩
abbrev main_c_152 : Ref sig .tc := ⟨.hbm, 691, rfl⟩
abbrev main_v410 : Ref sig .tc := ⟨.hbm, 692, rfl⟩
abbrev main_v411 : Ref sig .tc := ⟨.hbm, 693, rfl⟩
abbrev main_v412 : Ref sig .tc := ⟨.hbm, 694, rfl⟩
abbrev main_c_153 : Ref sig .tc := ⟨.hbm, 695, rfl⟩
abbrev main_v413 : Ref sig .tc := ⟨.hbm, 696, rfl⟩
abbrev main_v414 : Ref sig .tc := ⟨.hbm, 697, rfl⟩
abbrev main_v415 : Ref sig .tc := ⟨.hbm, 698, rfl⟩
abbrev main_c_154 : Ref sig .tc := ⟨.hbm, 699, rfl⟩
abbrev main_v416 : Ref sig .tc := ⟨.hbm, 700, rfl⟩
abbrev main_v417 : Ref sig .tc := ⟨.hbm, 701, rfl⟩
abbrev main_v418 : Ref sig .tc := ⟨.hbm, 702, rfl⟩
abbrev main_c_155 : Ref sig .tc := ⟨.hbm, 703, rfl⟩
abbrev main_c_156 : Ref sig .tc := ⟨.hbm, 704, rfl⟩
abbrev main_call27_v0 : Ref sig .tc := ⟨.hbm, 705, rfl⟩
abbrev main_call27_v1 : Ref sig .tc := ⟨.hbm, 706, rfl⟩
abbrev main_call27_v2 : Ref sig .tc := ⟨.hbm, 707, rfl⟩
abbrev main_call27_v3 : Ref sig .tc := ⟨.hbm, 708, rfl⟩
abbrev main_call27_v4 : Ref sig .tc := ⟨.hbm, 709, rfl⟩
abbrev main_v419 : Ref sig .tc := ⟨.hbm, 710, rfl⟩
abbrev main_c_157 : Ref sig .tc := ⟨.hbm, 711, rfl⟩
abbrev main_c_158 : Ref sig .tc := ⟨.hbm, 712, rfl⟩
abbrev main_call28_v0 : Ref sig .tc := ⟨.hbm, 713, rfl⟩
abbrev main_call28_v1 : Ref sig .tc := ⟨.hbm, 714, rfl⟩
abbrev main_call28_v2 : Ref sig .tc := ⟨.hbm, 715, rfl⟩
abbrev main_call28_v3 : Ref sig .tc := ⟨.hbm, 716, rfl⟩
abbrev main_call28_v4 : Ref sig .tc := ⟨.hbm, 717, rfl⟩
abbrev main_v420 : Ref sig .tc := ⟨.hbm, 718, rfl⟩
abbrev main_c_159 : Ref sig .tc := ⟨.hbm, 719, rfl⟩
abbrev main_v421 : Ref sig .tc := ⟨.hbm, 720, rfl⟩
abbrev main_v422 : Ref sig .tc := ⟨.hbm, 721, rfl⟩
abbrev main_c_160 : Ref sig .tc := ⟨.hbm, 722, rfl⟩
abbrev main_v423 : Ref sig .tc := ⟨.hbm, 723, rfl⟩
abbrev main_v424 : Ref sig .tc := ⟨.hbm, 724, rfl⟩
abbrev main_v425 : Ref sig .tc := ⟨.hbm, 725, rfl⟩
abbrev main_c_161 : Ref sig .tc := ⟨.hbm, 726, rfl⟩
abbrev main_v426 : Ref sig .tc := ⟨.hbm, 727, rfl⟩
abbrev main_v427 : Ref sig .tc := ⟨.hbm, 728, rfl⟩
abbrev main_c_162 : Ref sig .tc := ⟨.hbm, 729, rfl⟩
abbrev main_v428 : Ref sig .tc := ⟨.hbm, 730, rfl⟩
abbrev main_v429 : Ref sig .tc := ⟨.hbm, 731, rfl⟩
abbrev main_v430 : Ref sig .tc := ⟨.hbm, 732, rfl⟩
abbrev main_v431 : Ref sig .tc := ⟨.hbm, 733, rfl⟩
abbrev main_v432 : Ref sig .tc := ⟨.hbm, 734, rfl⟩
abbrev main_v433 : Ref sig .tc := ⟨.hbm, 735, rfl⟩
abbrev main_v434 : Ref sig .tc := ⟨.hbm, 736, rfl⟩
abbrev main_v435 : Ref sig .tc := ⟨.hbm, 737, rfl⟩
abbrev main_cst_163 : Ref sig .tc := ⟨.hbm, 738, rfl⟩
abbrev main_call29_v0 : Ref sig .tc := ⟨.hbm, 739, rfl⟩
abbrev main_call29_v1 : Ref sig .tc := ⟨.hbm, 740, rfl⟩
abbrev main_call29_v2 : Ref sig .tc := ⟨.hbm, 741, rfl⟩
abbrev main_v436 : Ref sig .tc := ⟨.hbm, 742, rfl⟩
abbrev main_cst_164 : Ref sig .tc := ⟨.hbm, 743, rfl⟩
abbrev main_v437 : Ref sig .tc := ⟨.hbm, 744, rfl⟩
abbrev main_v438 : Ref sig .tc := ⟨.hbm, 745, rfl⟩
abbrev main_v439 : Ref sig .tc := ⟨.hbm, 746, rfl⟩
abbrev main_v440 : Ref sig .tc := ⟨.hbm, 747, rfl⟩
abbrev main_v441 : Ref sig .tc := ⟨.hbm, 748, rfl⟩
abbrev main_v442 : Ref sig .tc := ⟨.hbm, 749, rfl⟩
abbrev main_v443 : Ref sig .tc := ⟨.hbm, 750, rfl⟩
abbrev main_c_165 : Ref sig .tc := ⟨.hbm, 751, rfl⟩
abbrev main_v444 : Ref sig .tc := ⟨.hbm, 752, rfl⟩
abbrev main_v445 : Ref sig .tc := ⟨.hbm, 753, rfl⟩
abbrev main_c_166 : Ref sig .tc := ⟨.hbm, 754, rfl⟩
abbrev main_v446 : Ref sig .tc := ⟨.hbm, 755, rfl⟩
abbrev main_v447 : Ref sig .tc := ⟨.hbm, 756, rfl⟩
abbrev main_v448 : Ref sig .tc := ⟨.hbm, 757, rfl⟩
abbrev main_c_167 : Ref sig .tc := ⟨.hbm, 758, rfl⟩
abbrev main_v449 : Ref sig .tc := ⟨.hbm, 759, rfl⟩
abbrev main_v450 : Ref sig .tc := ⟨.hbm, 760, rfl⟩
abbrev main_v451 : Ref sig .tc := ⟨.hbm, 761, rfl⟩
abbrev main_c_168 : Ref sig .tc := ⟨.hbm, 762, rfl⟩
abbrev main_v452 : Ref sig .tc := ⟨.hbm, 763, rfl⟩
abbrev main_v453 : Ref sig .tc := ⟨.hbm, 764, rfl⟩
abbrev main_v454 : Ref sig .tc := ⟨.hbm, 765, rfl⟩
abbrev main_c_169 : Ref sig .tc := ⟨.hbm, 766, rfl⟩
abbrev main_c_170 : Ref sig .tc := ⟨.hbm, 767, rfl⟩
abbrev main_call30_v0 : Ref sig .tc := ⟨.hbm, 768, rfl⟩
abbrev main_call30_v1 : Ref sig .tc := ⟨.hbm, 769, rfl⟩
abbrev main_call30_v2 : Ref sig .tc := ⟨.hbm, 770, rfl⟩
abbrev main_call30_v3 : Ref sig .tc := ⟨.hbm, 771, rfl⟩
abbrev main_call30_v4 : Ref sig .tc := ⟨.hbm, 772, rfl⟩
abbrev main_v455 : Ref sig .tc := ⟨.hbm, 773, rfl⟩
abbrev main_c_171 : Ref sig .tc := ⟨.hbm, 774, rfl⟩
abbrev main_c_172 : Ref sig .tc := ⟨.hbm, 775, rfl⟩
abbrev main_call31_v0 : Ref sig .tc := ⟨.hbm, 776, rfl⟩
abbrev main_call31_v1 : Ref sig .tc := ⟨.hbm, 777, rfl⟩
abbrev main_call31_v2 : Ref sig .tc := ⟨.hbm, 778, rfl⟩
abbrev main_call31_v3 : Ref sig .tc := ⟨.hbm, 779, rfl⟩
abbrev main_call31_v4 : Ref sig .tc := ⟨.hbm, 780, rfl⟩
abbrev main_v456 : Ref sig .tc := ⟨.hbm, 781, rfl⟩
abbrev main_c_173 : Ref sig .tc := ⟨.hbm, 782, rfl⟩
abbrev main_v457 : Ref sig .tc := ⟨.hbm, 783, rfl⟩
abbrev main_v458 : Ref sig .tc := ⟨.hbm, 784, rfl⟩
abbrev main_c_174 : Ref sig .tc := ⟨.hbm, 785, rfl⟩
abbrev main_v459 : Ref sig .tc := ⟨.hbm, 786, rfl⟩
abbrev main_v460 : Ref sig .tc := ⟨.hbm, 787, rfl⟩
abbrev main_v461 : Ref sig .tc := ⟨.hbm, 788, rfl⟩
abbrev main_c_175 : Ref sig .tc := ⟨.hbm, 789, rfl⟩
abbrev main_v462 : Ref sig .tc := ⟨.hbm, 790, rfl⟩
abbrev main_v463 : Ref sig .tc := ⟨.hbm, 791, rfl⟩
abbrev main_c_176 : Ref sig .tc := ⟨.hbm, 792, rfl⟩
abbrev main_v464 : Ref sig .tc := ⟨.hbm, 793, rfl⟩
abbrev main_v465 : Ref sig .tc := ⟨.hbm, 794, rfl⟩
abbrev main_v466 : Ref sig .tc := ⟨.hbm, 795, rfl⟩
abbrev main_v467 : Ref sig .tc := ⟨.hbm, 796, rfl⟩
abbrev main_v468 : Ref sig .tc := ⟨.hbm, 797, rfl⟩
abbrev main_v469 : Ref sig .tc := ⟨.hbm, 798, rfl⟩
abbrev main_v470 : Ref sig .tc := ⟨.hbm, 799, rfl⟩
abbrev main_v471 : Ref sig .tc := ⟨.hbm, 800, rfl⟩
abbrev main_cst_177 : Ref sig .tc := ⟨.hbm, 801, rfl⟩
abbrev main_call32_v0 : Ref sig .tc := ⟨.hbm, 802, rfl⟩
abbrev main_call32_v1 : Ref sig .tc := ⟨.hbm, 803, rfl⟩
abbrev main_call32_v2 : Ref sig .tc := ⟨.hbm, 804, rfl⟩
abbrev main_v472 : Ref sig .tc := ⟨.hbm, 805, rfl⟩
abbrev main_cst_178 : Ref sig .tc := ⟨.hbm, 806, rfl⟩
abbrev main_v473 : Ref sig .tc := ⟨.hbm, 807, rfl⟩
abbrev main_v474 : Ref sig .tc := ⟨.hbm, 808, rfl⟩
abbrev main_v475 : Ref sig .tc := ⟨.hbm, 809, rfl⟩
abbrev main_v476 : Ref sig .tc := ⟨.hbm, 810, rfl⟩
abbrev main_v477 : Ref sig .tc := ⟨.hbm, 811, rfl⟩
abbrev main_v478 : Ref sig .tc := ⟨.hbm, 812, rfl⟩
abbrev main_v479 : Ref sig .tc := ⟨.hbm, 813, rfl⟩
abbrev main_c_179 : Ref sig .tc := ⟨.hbm, 814, rfl⟩
abbrev main_v480 : Ref sig .tc := ⟨.hbm, 815, rfl⟩
abbrev main_v481 : Ref sig .tc := ⟨.hbm, 816, rfl⟩
abbrev main_c_180 : Ref sig .tc := ⟨.hbm, 817, rfl⟩
abbrev main_v482 : Ref sig .tc := ⟨.hbm, 818, rfl⟩
abbrev main_v483 : Ref sig .tc := ⟨.hbm, 819, rfl⟩
abbrev main_v484 : Ref sig .tc := ⟨.hbm, 820, rfl⟩
abbrev main_c_181 : Ref sig .tc := ⟨.hbm, 821, rfl⟩
abbrev main_v485 : Ref sig .tc := ⟨.hbm, 822, rfl⟩
abbrev main_v486 : Ref sig .tc := ⟨.hbm, 823, rfl⟩
abbrev main_v487 : Ref sig .tc := ⟨.hbm, 824, rfl⟩
abbrev main_c_182 : Ref sig .tc := ⟨.hbm, 825, rfl⟩
abbrev main_v488 : Ref sig .tc := ⟨.hbm, 826, rfl⟩
abbrev main_v489 : Ref sig .tc := ⟨.hbm, 827, rfl⟩
abbrev main_v490 : Ref sig .tc := ⟨.hbm, 828, rfl⟩
abbrev main_c_183 : Ref sig .tc := ⟨.hbm, 829, rfl⟩
abbrev main_c_184 : Ref sig .tc := ⟨.hbm, 830, rfl⟩
abbrev main_call33_v0 : Ref sig .tc := ⟨.hbm, 831, rfl⟩
abbrev main_call33_v1 : Ref sig .tc := ⟨.hbm, 832, rfl⟩
abbrev main_call33_v2 : Ref sig .tc := ⟨.hbm, 833, rfl⟩
abbrev main_call33_v3 : Ref sig .tc := ⟨.hbm, 834, rfl⟩
abbrev main_call33_v4 : Ref sig .tc := ⟨.hbm, 835, rfl⟩
abbrev main_v491 : Ref sig .tc := ⟨.hbm, 836, rfl⟩
abbrev main_c_185 : Ref sig .tc := ⟨.hbm, 837, rfl⟩
abbrev main_c_186 : Ref sig .tc := ⟨.hbm, 838, rfl⟩
abbrev main_call34_v0 : Ref sig .tc := ⟨.hbm, 839, rfl⟩
abbrev main_call34_v1 : Ref sig .tc := ⟨.hbm, 840, rfl⟩
abbrev main_call34_v2 : Ref sig .tc := ⟨.hbm, 841, rfl⟩
abbrev main_call34_v3 : Ref sig .tc := ⟨.hbm, 842, rfl⟩
abbrev main_call34_v4 : Ref sig .tc := ⟨.hbm, 843, rfl⟩
abbrev main_v492 : Ref sig .tc := ⟨.hbm, 844, rfl⟩
abbrev main_c_187 : Ref sig .tc := ⟨.hbm, 845, rfl⟩
abbrev main_v493 : Ref sig .tc := ⟨.hbm, 846, rfl⟩
abbrev main_v494 : Ref sig .tc := ⟨.hbm, 847, rfl⟩
abbrev main_c_188 : Ref sig .tc := ⟨.hbm, 848, rfl⟩
abbrev main_v495 : Ref sig .tc := ⟨.hbm, 849, rfl⟩
abbrev main_v496 : Ref sig .tc := ⟨.hbm, 850, rfl⟩
abbrev main_v497 : Ref sig .tc := ⟨.hbm, 851, rfl⟩
abbrev main_c_189 : Ref sig .tc := ⟨.hbm, 852, rfl⟩
abbrev main_v498 : Ref sig .tc := ⟨.hbm, 853, rfl⟩
abbrev main_v499 : Ref sig .tc := ⟨.hbm, 854, rfl⟩
abbrev main_c_190 : Ref sig .tc := ⟨.hbm, 855, rfl⟩
abbrev main_v500 : Ref sig .tc := ⟨.hbm, 856, rfl⟩
abbrev main_v501 : Ref sig .tc := ⟨.hbm, 857, rfl⟩
abbrev main_v502 : Ref sig .tc := ⟨.hbm, 858, rfl⟩
abbrev main_v503 : Ref sig .tc := ⟨.hbm, 859, rfl⟩
abbrev main_v504 : Ref sig .tc := ⟨.hbm, 860, rfl⟩
abbrev main_v505 : Ref sig .tc := ⟨.hbm, 861, rfl⟩
abbrev main_v506 : Ref sig .tc := ⟨.hbm, 862, rfl⟩
abbrev main_v507 : Ref sig .tc := ⟨.hbm, 863, rfl⟩
abbrev main_cst_191 : Ref sig .tc := ⟨.hbm, 864, rfl⟩
abbrev main_call35_v0 : Ref sig .tc := ⟨.hbm, 865, rfl⟩
abbrev main_call35_v1 : Ref sig .tc := ⟨.hbm, 866, rfl⟩
abbrev main_call35_v2 : Ref sig .tc := ⟨.hbm, 867, rfl⟩
abbrev main_v508 : Ref sig .tc := ⟨.hbm, 868, rfl⟩
abbrev main_v509 : Ref sig .tc := ⟨.hbm, 869, rfl⟩
abbrev main_v510 : Ref sig .tc := ⟨.hbm, 870, rfl⟩
abbrev main_v511 : Ref sig .tc := ⟨.hbm, 871, rfl⟩
abbrev main_v512 : Ref sig .tc := ⟨.hbm, 872, rfl⟩
abbrev main_v513 : Ref sig .tc := ⟨.hbm, 873, rfl⟩
abbrev main_v514 : Ref sig .tc := ⟨.hbm, 874, rfl⟩
abbrev main_cst_192 : Ref sig .tc := ⟨.hbm, 875, rfl⟩
abbrev main_v515 : Ref sig .tc := ⟨.hbm, 876, rfl⟩
abbrev main_v516 : Ref sig .tc := ⟨.hbm, 877, rfl⟩
abbrev main_cst_193 : Ref sig .tc := ⟨.hbm, 878, rfl⟩
abbrev main_v517 : Ref sig .tc := ⟨.hbm, 879, rfl⟩
abbrev main_v518 : Ref sig .tc := ⟨.hbm, 880, rfl⟩
abbrev main_cst_194 : Ref sig .tc := ⟨.hbm, 881, rfl⟩
abbrev main_v519 : Ref sig .tc := ⟨.hbm, 882, rfl⟩
abbrev main_v520 : Ref sig .tc := ⟨.hbm, 883, rfl⟩
abbrev main_v521 : Ref sig .tc := ⟨.hbm, 884, rfl⟩
abbrev main_v522 : Ref sig .tc := ⟨.hbm, 885, rfl⟩
abbrev main_v523 : Ref sig .tc := ⟨.hbm, 886, rfl⟩
abbrev main_c_195 : Ref sig .tc := ⟨.hbm, 887, rfl⟩
abbrev main_v524 : Ref sig .tc := ⟨.hbm, 888, rfl⟩
abbrev main_v525 : Ref sig .tc := ⟨.hbm, 889, rfl⟩
abbrev main_c_196 : Ref sig .tc := ⟨.hbm, 890, rfl⟩
abbrev main_v526 : Ref sig .tc := ⟨.hbm, 891, rfl⟩
abbrev main_v527 : Ref sig .tc := ⟨.hbm, 892, rfl⟩
abbrev main_c_197 : Ref sig .tc := ⟨.hbm, 893, rfl⟩
abbrev main_v528 : Ref sig .tc := ⟨.hbm, 894, rfl⟩
abbrev main_v529 : Ref sig .tc := ⟨.hbm, 895, rfl⟩
abbrev main_v530 : Ref sig .tc := ⟨.hbm, 896, rfl⟩
abbrev main_c_198 : Ref sig .tc := ⟨.hbm, 897, rfl⟩
abbrev main_c_199 : Ref sig .tc := ⟨.hbm, 898, rfl⟩
abbrev main_call36_v0 : Ref sig .tc := ⟨.hbm, 899, rfl⟩
abbrev main_call36_v1 : Ref sig .tc := ⟨.hbm, 900, rfl⟩
abbrev main_call36_v2 : Ref sig .tc := ⟨.hbm, 901, rfl⟩
abbrev main_call36_v3 : Ref sig .tc := ⟨.hbm, 902, rfl⟩
abbrev main_call36_v4 : Ref sig .tc := ⟨.hbm, 903, rfl⟩
abbrev main_v531 : Ref sig .tc := ⟨.hbm, 904, rfl⟩
abbrev main_v532 : Ref sig .tc := ⟨.hbm, 905, rfl⟩
abbrev main_c_200 : Ref sig .tc := ⟨.hbm, 906, rfl⟩
abbrev main_v533 : Ref sig .tc := ⟨.hbm, 907, rfl⟩
abbrev main_v534 : Ref sig .tc := ⟨.hbm, 908, rfl⟩
abbrev main_c_201 : Ref sig .tc := ⟨.hbm, 909, rfl⟩
abbrev main_v535 : Ref sig .tc := ⟨.hbm, 910, rfl⟩
abbrev main_v536 : Ref sig .tc := ⟨.hbm, 911, rfl⟩
abbrev main_v537 : Ref sig .tc := ⟨.hbm, 912, rfl⟩
abbrev main_v538 : Ref sig .tc := ⟨.hbm, 913, rfl⟩
abbrev main_v539 : Ref sig .tc := ⟨.hbm, 914, rfl⟩
abbrev main_cst_202 : Ref sig .tc := ⟨.hbm, 915, rfl⟩
abbrev main_call37_v0 : Ref sig .tc := ⟨.hbm, 916, rfl⟩
abbrev main_call37_v1 : Ref sig .tc := ⟨.hbm, 917, rfl⟩
abbrev main_call37_v2 : Ref sig .tc := ⟨.hbm, 918, rfl⟩
abbrev main_v540 : Ref sig .tc := ⟨.hbm, 919, rfl⟩
abbrev main_cst_203 : Ref sig .tc := ⟨.hbm, 920, rfl⟩
abbrev main_v541 : Ref sig .tc := ⟨.hbm, 921, rfl⟩
abbrev main_v542 : Ref sig .tc := ⟨.hbm, 922, rfl⟩
abbrev main_v543 : Ref sig .tc := ⟨.hbm, 923, rfl⟩
abbrev main_v544 : Ref sig .tc := ⟨.hbm, 924, rfl⟩
abbrev main_v545 : Ref sig .tc := ⟨.hbm, 925, rfl⟩
abbrev main_c_204 : Ref sig .tc := ⟨.hbm, 926, rfl⟩
abbrev main_v546 : Ref sig .tc := ⟨.hbm, 927, rfl⟩
abbrev main_v547 : Ref sig .tc := ⟨.hbm, 928, rfl⟩
abbrev main_c_205 : Ref sig .tc := ⟨.hbm, 929, rfl⟩
abbrev main_v548 : Ref sig .tc := ⟨.hbm, 930, rfl⟩
abbrev main_v549 : Ref sig .tc := ⟨.hbm, 931, rfl⟩
abbrev main_v550 : Ref sig .tc := ⟨.hbm, 932, rfl⟩
abbrev main_c_206 : Ref sig .tc := ⟨.hbm, 933, rfl⟩
abbrev main_c_207 : Ref sig .tc := ⟨.hbm, 934, rfl⟩
abbrev main_call38_v0 : Ref sig .tc := ⟨.hbm, 935, rfl⟩
abbrev main_call38_v1 : Ref sig .tc := ⟨.hbm, 936, rfl⟩
abbrev main_call38_v2 : Ref sig .tc := ⟨.hbm, 937, rfl⟩
abbrev main_call38_v3 : Ref sig .tc := ⟨.hbm, 938, rfl⟩
abbrev main_call38_v4 : Ref sig .tc := ⟨.hbm, 939, rfl⟩
abbrev main_v551 : Ref sig .tc := ⟨.hbm, 940, rfl⟩
abbrev main_v552 : Ref sig .tc := ⟨.hbm, 941, rfl⟩
abbrev main_c_208 : Ref sig .tc := ⟨.hbm, 942, rfl⟩
abbrev main_v553 : Ref sig .tc := ⟨.hbm, 943, rfl⟩
abbrev main_v554 : Ref sig .tc := ⟨.hbm, 944, rfl⟩
abbrev main_c_209 : Ref sig .tc := ⟨.hbm, 945, rfl⟩
abbrev main_v555 : Ref sig .tc := ⟨.hbm, 946, rfl⟩
abbrev main_v556 : Ref sig .tc := ⟨.hbm, 947, rfl⟩
abbrev main_v557 : Ref sig .tc := ⟨.hbm, 948, rfl⟩
abbrev main_v558 : Ref sig .tc := ⟨.hbm, 949, rfl⟩
abbrev main_v559 : Ref sig .tc := ⟨.hbm, 950, rfl⟩
abbrev main_cst_210 : Ref sig .tc := ⟨.hbm, 951, rfl⟩
abbrev main_call39_v0 : Ref sig .tc := ⟨.hbm, 952, rfl⟩
abbrev main_call39_v1 : Ref sig .tc := ⟨.hbm, 953, rfl⟩
abbrev main_call39_v2 : Ref sig .tc := ⟨.hbm, 954, rfl⟩
abbrev main_v560 : Ref sig .tc := ⟨.hbm, 955, rfl⟩
abbrev main_v561 : Ref sig .tc := ⟨.hbm, 956, rfl⟩
abbrev main_v562 : Ref sig .tc := ⟨.hbm, 957, rfl⟩
abbrev main_v563 : Ref sig .tc := ⟨.hbm, 958, rfl⟩
abbrev main_v564 : Ref sig .tc := ⟨.hbm, 959, rfl⟩
abbrev main_v565 : Ref sig .tc := ⟨.hbm, 960, rfl⟩
abbrev main_cst_211 : Ref sig .tc := ⟨.hbm, 961, rfl⟩
abbrev main_v566 : Ref sig .tc := ⟨.hbm, 962, rfl⟩
abbrev main_v567 : Ref sig .tc := ⟨.hbm, 963, rfl⟩
abbrev main_cst_212 : Ref sig .tc := ⟨.hbm, 964, rfl⟩
abbrev main_v568 : Ref sig .tc := ⟨.hbm, 965, rfl⟩
abbrev main_v569 : Ref sig .tc := ⟨.hbm, 966, rfl⟩
abbrev main_cst_213 : Ref sig .tc := ⟨.hbm, 967, rfl⟩
abbrev main_v570 : Ref sig .tc := ⟨.hbm, 968, rfl⟩
abbrev main_v571 : Ref sig .tc := ⟨.hbm, 969, rfl⟩
abbrev main_v572 : Ref sig .tc := ⟨.hbm, 970, rfl⟩
abbrev main_v573 : Ref sig .tc := ⟨.hbm, 971, rfl⟩
abbrev main_v574 : Ref sig .tc := ⟨.hbm, 972, rfl⟩
abbrev main_c_214 : Ref sig .tc := ⟨.hbm, 973, rfl⟩
abbrev main_v575 : Ref sig .tc := ⟨.hbm, 974, rfl⟩
abbrev main_v576 : Ref sig .tc := ⟨.hbm, 975, rfl⟩
abbrev main_c_215 : Ref sig .tc := ⟨.hbm, 976, rfl⟩
abbrev main_v577 : Ref sig .tc := ⟨.hbm, 977, rfl⟩
abbrev main_v578 : Ref sig .tc := ⟨.hbm, 978, rfl⟩
abbrev main_c_216 : Ref sig .tc := ⟨.hbm, 979, rfl⟩
abbrev main_v579 : Ref sig .tc := ⟨.hbm, 980, rfl⟩
abbrev main_v580 : Ref sig .tc := ⟨.hbm, 981, rfl⟩
abbrev main_v581 : Ref sig .tc := ⟨.hbm, 982, rfl⟩
abbrev main_c_217 : Ref sig .tc := ⟨.hbm, 983, rfl⟩
abbrev main_c_218 : Ref sig .tc := ⟨.hbm, 984, rfl⟩
abbrev main_call40_v0 : Ref sig .tc := ⟨.hbm, 985, rfl⟩
abbrev main_call40_v1 : Ref sig .tc := ⟨.hbm, 986, rfl⟩
abbrev main_call40_v2 : Ref sig .tc := ⟨.hbm, 987, rfl⟩
abbrev main_call40_v3 : Ref sig .tc := ⟨.hbm, 988, rfl⟩
abbrev main_call40_v4 : Ref sig .tc := ⟨.hbm, 989, rfl⟩
abbrev main_v582 : Ref sig .tc := ⟨.hbm, 990, rfl⟩
abbrev main_v583 : Ref sig .tc := ⟨.hbm, 991, rfl⟩
abbrev main_c_219 : Ref sig .tc := ⟨.hbm, 992, rfl⟩
abbrev main_v584 : Ref sig .tc := ⟨.hbm, 993, rfl⟩
abbrev main_v585 : Ref sig .tc := ⟨.hbm, 994, rfl⟩
abbrev main_c_220 : Ref sig .tc := ⟨.hbm, 995, rfl⟩
abbrev main_v586 : Ref sig .tc := ⟨.hbm, 996, rfl⟩
abbrev main_v587 : Ref sig .tc := ⟨.hbm, 997, rfl⟩
abbrev main_v588 : Ref sig .tc := ⟨.hbm, 998, rfl⟩
abbrev main_v589 : Ref sig .tc := ⟨.hbm, 999, rfl⟩
abbrev main_v590 : Ref sig .tc := ⟨.hbm, 1000, rfl⟩
abbrev main_cst_221 : Ref sig .tc := ⟨.hbm, 1001, rfl⟩
abbrev main_call41_v0 : Ref sig .tc := ⟨.hbm, 1002, rfl⟩
abbrev main_call41_v1 : Ref sig .tc := ⟨.hbm, 1003, rfl⟩
abbrev main_call41_v2 : Ref sig .tc := ⟨.hbm, 1004, rfl⟩
abbrev main_v591 : Ref sig .tc := ⟨.hbm, 1005, rfl⟩
abbrev main_cst_222 : Ref sig .tc := ⟨.hbm, 1006, rfl⟩
abbrev main_v592 : Ref sig .tc := ⟨.hbm, 1007, rfl⟩
abbrev main_v593 : Ref sig .tc := ⟨.hbm, 1008, rfl⟩
abbrev main_v594 : Ref sig .tc := ⟨.hbm, 1009, rfl⟩
abbrev main_v595 : Ref sig .tc := ⟨.hbm, 1010, rfl⟩
abbrev main_v596 : Ref sig .tc := ⟨.hbm, 1011, rfl⟩
abbrev main_c_223 : Ref sig .tc := ⟨.hbm, 1012, rfl⟩
abbrev main_v597 : Ref sig .tc := ⟨.hbm, 1013, rfl⟩
abbrev main_v598 : Ref sig .tc := ⟨.hbm, 1014, rfl⟩
abbrev main_c_224 : Ref sig .tc := ⟨.hbm, 1015, rfl⟩
abbrev main_v599 : Ref sig .tc := ⟨.hbm, 1016, rfl⟩
abbrev main_v600 : Ref sig .tc := ⟨.hbm, 1017, rfl⟩
abbrev main_v601 : Ref sig .tc := ⟨.hbm, 1018, rfl⟩
abbrev main_c_225 : Ref sig .tc := ⟨.hbm, 1019, rfl⟩
abbrev main_c_226 : Ref sig .tc := ⟨.hbm, 1020, rfl⟩
abbrev main_call42_v0 : Ref sig .tc := ⟨.hbm, 1021, rfl⟩
abbrev main_call42_v1 : Ref sig .tc := ⟨.hbm, 1022, rfl⟩
abbrev main_call42_v2 : Ref sig .tc := ⟨.hbm, 1023, rfl⟩
abbrev main_call42_v3 : Ref sig .tc := ⟨.hbm, 1024, rfl⟩
abbrev main_call42_v4 : Ref sig .tc := ⟨.hbm, 1025, rfl⟩
abbrev main_v602 : Ref sig .tc := ⟨.hbm, 1026, rfl⟩
abbrev main_v603 : Ref sig .tc := ⟨.hbm, 1027, rfl⟩
abbrev main_c_227 : Ref sig .tc := ⟨.hbm, 1028, rfl⟩
abbrev main_v604 : Ref sig .tc := ⟨.hbm, 1029, rfl⟩
abbrev main_v605 : Ref sig .tc := ⟨.hbm, 1030, rfl⟩
abbrev main_c_228 : Ref sig .tc := ⟨.hbm, 1031, rfl⟩
abbrev main_v606 : Ref sig .tc := ⟨.hbm, 1032, rfl⟩
abbrev main_v607 : Ref sig .tc := ⟨.hbm, 1033, rfl⟩
abbrev main_v608 : Ref sig .tc := ⟨.hbm, 1034, rfl⟩
abbrev main_v609 : Ref sig .tc := ⟨.hbm, 1035, rfl⟩
abbrev main_v610 : Ref sig .tc := ⟨.hbm, 1036, rfl⟩
abbrev main_cst_229 : Ref sig .tc := ⟨.hbm, 1037, rfl⟩
abbrev main_call43_v0 : Ref sig .tc := ⟨.hbm, 1038, rfl⟩
abbrev main_call43_v1 : Ref sig .tc := ⟨.hbm, 1039, rfl⟩
abbrev main_call43_v2 : Ref sig .tc := ⟨.hbm, 1040, rfl⟩
abbrev main_v611 : Ref sig .tc := ⟨.hbm, 1041, rfl⟩
abbrev main_v612 : Ref sig .tc := ⟨.hbm, 1042, rfl⟩
abbrev main_v613 : Ref sig .tc := ⟨.hbm, 1043, rfl⟩
abbrev main_v614 : Ref sig .tc := ⟨.hbm, 1044, rfl⟩
abbrev main_v615 : Ref sig .tc := ⟨.hbm, 1045, rfl⟩
abbrev main_v616 : Ref sig .tc := ⟨.hbm, 1046, rfl⟩
abbrev main_cst_230 : Ref sig .tc := ⟨.hbm, 1047, rfl⟩
abbrev main_v617 : Ref sig .tc := ⟨.hbm, 1048, rfl⟩
abbrev main_v618 : Ref sig .tc := ⟨.hbm, 1049, rfl⟩
abbrev main_cst_231 : Ref sig .tc := ⟨.hbm, 1050, rfl⟩
abbrev main_v619 : Ref sig .tc := ⟨.hbm, 1051, rfl⟩
abbrev main_v620 : Ref sig .tc := ⟨.hbm, 1052, rfl⟩
abbrev main_cst_232 : Ref sig .tc := ⟨.hbm, 1053, rfl⟩
abbrev main_v621 : Ref sig .tc := ⟨.hbm, 1054, rfl⟩
abbrev main_v622 : Ref sig .tc := ⟨.hbm, 1055, rfl⟩
abbrev main_v623 : Ref sig .tc := ⟨.hbm, 1056, rfl⟩
abbrev main_v624 : Ref sig .tc := ⟨.hbm, 1057, rfl⟩
abbrev main_v625 : Ref sig .tc := ⟨.hbm, 1058, rfl⟩
abbrev main_c_233 : Ref sig .tc := ⟨.hbm, 1059, rfl⟩
abbrev main_v626 : Ref sig .tc := ⟨.hbm, 1060, rfl⟩
abbrev main_v627 : Ref sig .tc := ⟨.hbm, 1061, rfl⟩
abbrev main_c_234 : Ref sig .tc := ⟨.hbm, 1062, rfl⟩
abbrev main_v628 : Ref sig .tc := ⟨.hbm, 1063, rfl⟩
abbrev main_v629 : Ref sig .tc := ⟨.hbm, 1064, rfl⟩
abbrev main_c_235 : Ref sig .tc := ⟨.hbm, 1065, rfl⟩
abbrev main_v630 : Ref sig .tc := ⟨.hbm, 1066, rfl⟩
abbrev main_v631 : Ref sig .tc := ⟨.hbm, 1067, rfl⟩
abbrev main_v632 : Ref sig .tc := ⟨.hbm, 1068, rfl⟩
abbrev main_c_236 : Ref sig .tc := ⟨.hbm, 1069, rfl⟩
abbrev main_c_237 : Ref sig .tc := ⟨.hbm, 1070, rfl⟩
abbrev main_call44_v0 : Ref sig .tc := ⟨.hbm, 1071, rfl⟩
abbrev main_call44_v1 : Ref sig .tc := ⟨.hbm, 1072, rfl⟩
abbrev main_call44_v2 : Ref sig .tc := ⟨.hbm, 1073, rfl⟩
abbrev main_call44_v3 : Ref sig .tc := ⟨.hbm, 1074, rfl⟩
abbrev main_call44_v4 : Ref sig .tc := ⟨.hbm, 1075, rfl⟩
abbrev main_v633 : Ref sig .tc := ⟨.hbm, 1076, rfl⟩
abbrev main_v634 : Ref sig .tc := ⟨.hbm, 1077, rfl⟩
abbrev main_c_238 : Ref sig .tc := ⟨.hbm, 1078, rfl⟩
abbrev main_v635 : Ref sig .tc := ⟨.hbm, 1079, rfl⟩
abbrev main_v636 : Ref sig .tc := ⟨.hbm, 1080, rfl⟩
abbrev main_c_239 : Ref sig .tc := ⟨.hbm, 1081, rfl⟩
abbrev main_v637 : Ref sig .tc := ⟨.hbm, 1082, rfl⟩
abbrev main_v638 : Ref sig .tc := ⟨.hbm, 1083, rfl⟩
abbrev main_v639 : Ref sig .tc := ⟨.hbm, 1084, rfl⟩
abbrev main_v640 : Ref sig .tc := ⟨.hbm, 1085, rfl⟩
abbrev main_v641 : Ref sig .tc := ⟨.hbm, 1086, rfl⟩
abbrev main_cst_240 : Ref sig .tc := ⟨.hbm, 1087, rfl⟩
abbrev main_call45_v0 : Ref sig .tc := ⟨.hbm, 1088, rfl⟩
abbrev main_call45_v1 : Ref sig .tc := ⟨.hbm, 1089, rfl⟩
abbrev main_call45_v2 : Ref sig .tc := ⟨.hbm, 1090, rfl⟩
abbrev main_v642 : Ref sig .tc := ⟨.hbm, 1091, rfl⟩
abbrev main_cst_241 : Ref sig .tc := ⟨.hbm, 1092, rfl⟩
abbrev main_v643 : Ref sig .tc := ⟨.hbm, 1093, rfl⟩
abbrev main_v644 : Ref sig .tc := ⟨.hbm, 1094, rfl⟩
abbrev main_v645 : Ref sig .tc := ⟨.hbm, 1095, rfl⟩
abbrev main_v646 : Ref sig .tc := ⟨.hbm, 1096, rfl⟩
abbrev main_v647 : Ref sig .tc := ⟨.hbm, 1097, rfl⟩
abbrev main_c_242 : Ref sig .tc := ⟨.hbm, 1098, rfl⟩
abbrev main_v648 : Ref sig .tc := ⟨.hbm, 1099, rfl⟩
abbrev main_v649 : Ref sig .tc := ⟨.hbm, 1100, rfl⟩
abbrev main_c_243 : Ref sig .tc := ⟨.hbm, 1101, rfl⟩
abbrev main_v650 : Ref sig .tc := ⟨.hbm, 1102, rfl⟩
abbrev main_v651 : Ref sig .tc := ⟨.hbm, 1103, rfl⟩
abbrev main_v652 : Ref sig .tc := ⟨.hbm, 1104, rfl⟩
abbrev main_c_244 : Ref sig .tc := ⟨.hbm, 1105, rfl⟩
abbrev main_c_245 : Ref sig .tc := ⟨.hbm, 1106, rfl⟩
abbrev main_call46_v0 : Ref sig .tc := ⟨.hbm, 1107, rfl⟩
abbrev main_call46_v1 : Ref sig .tc := ⟨.hbm, 1108, rfl⟩
abbrev main_call46_v2 : Ref sig .tc := ⟨.hbm, 1109, rfl⟩
abbrev main_call46_v3 : Ref sig .tc := ⟨.hbm, 1110, rfl⟩
abbrev main_call46_v4 : Ref sig .tc := ⟨.hbm, 1111, rfl⟩
abbrev main_v653 : Ref sig .tc := ⟨.hbm, 1112, rfl⟩
abbrev main_v654 : Ref sig .tc := ⟨.hbm, 1113, rfl⟩
abbrev main_c_246 : Ref sig .tc := ⟨.hbm, 1114, rfl⟩
abbrev main_v655 : Ref sig .tc := ⟨.hbm, 1115, rfl⟩
abbrev main_v656 : Ref sig .tc := ⟨.hbm, 1116, rfl⟩
abbrev main_c_247 : Ref sig .tc := ⟨.hbm, 1117, rfl⟩
abbrev main_v657 : Ref sig .tc := ⟨.hbm, 1118, rfl⟩
abbrev main_v658 : Ref sig .tc := ⟨.hbm, 1119, rfl⟩
abbrev main_v659 : Ref sig .tc := ⟨.hbm, 1120, rfl⟩
abbrev main_v660 : Ref sig .tc := ⟨.hbm, 1121, rfl⟩
abbrev main_v661 : Ref sig .tc := ⟨.hbm, 1122, rfl⟩
abbrev main_cst_248 : Ref sig .tc := ⟨.hbm, 1123, rfl⟩
abbrev main_call47_v0 : Ref sig .tc := ⟨.hbm, 1124, rfl⟩
abbrev main_call47_v1 : Ref sig .tc := ⟨.hbm, 1125, rfl⟩
abbrev main_call47_v2 : Ref sig .tc := ⟨.hbm, 1126, rfl⟩
abbrev main_v662 : Ref sig .tc := ⟨.hbm, 1127, rfl⟩
abbrev main_v663 : Ref sig .tc := ⟨.hbm, 1128, rfl⟩
abbrev main_v664 : Ref sig .tc := ⟨.hbm, 1129, rfl⟩
abbrev main_v665 : Ref sig .tc := ⟨.hbm, 1130, rfl⟩
abbrev main_v666 : Ref sig .tc := ⟨.hbm, 1131, rfl⟩
abbrev main_v667 : Ref sig .tc := ⟨.hbm, 1132, rfl⟩
abbrev main_v668 : Ref sig .tc := ⟨.hbm, 1133, rfl⟩
abbrev main_v669 : Ref sig .tc := ⟨.hbm, 1134, rfl⟩
abbrev main_v670 : Ref sig .tc := ⟨.hbm, 1135, rfl⟩
abbrev main_v671 : Ref sig .tc := ⟨.hbm, 1136, rfl⟩
abbrev main_v672 : Ref sig .tc := ⟨.hbm, 1137, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000_S1x1000000_1 : S1000000.BroadcastsInDim S1x1000000 (![1] : Fin 1 → Fin S1x1000000.rank)
  bcast_S1x1000000_S24x1000000_0_1 : S1x1000000.BroadcastsInDim S24x1000000 (![0, 1] : Fin 2 → Fin S24x1000000.rank)
  bcast_S_S24x1000000 : S_.BroadcastsInDim S24x1000000 (![] : Fin 0 → Fin S24x1000000.rank)
  transposes_S24x1000000_S1000000x24_1_0 : S24x1000000.Transposes [1, 0] S1000000x24
  concatenates_S1000000x24_S1000000x24_S1000000x24_S1000000x72_d1 : Shape.Concatenates [S1000000x24, S1000000x24, S1000000x24] S1000000x72 1
  gather_S24x256x256_S1000000x2_S24x1000000_0_12_n_n_12_1_2411_wf : GatherDims.WF S24x256x256 S1000000x2 S24x1000000 [0] [1, 2] [] [1, 2] [] 1 ![24, 1, 1]
  gather_S24x256_S1000000x1_S24x1000000_0_1_n_n_1_1_241_wf : GatherDims.WF S24x256 S1000000x1 S24x1000000 [0] [1] [] [1] [] 1 ![24, 1]
  dot_S1000000x72_S72x28_S1000000x28_1_0_0_1_n_n_wf : DotDims.WF S1000000x72 S72x28 S1000000x28 [1] [0] [0] [1] [] []

variable [Facts₀]

def gather_S24x256x256_S1000000x2_S24x1000000_0_12_n_n_12_1_2411 : GatherDims S24x256x256 S1000000x2 S24x1000000 where
  offsetDims := [0]
  collapsedSliceDims := [1, 2]
  operandBatchingDims := []
  startIndicesBatchingDims := []
  startIndexMap := [1, 2]
  indexVectorDim := 1
  sliceSizes := ![24, 1, 1]
  wf := gather_S24x256x256_S1000000x2_S24x1000000_0_12_n_n_12_1_2411_wf
def gather_S24x256_S1000000x1_S24x1000000_0_1_n_n_1_1_241 : GatherDims S24x256 S1000000x1 S24x1000000 where
  offsetDims := [0]
  collapsedSliceDims := [1]
  operandBatchingDims := []
  startIndicesBatchingDims := []
  startIndexMap := [1]
  indexVectorDim := 1
  sliceSizes := ![24, 1]
  wf := gather_S24x256_S1000000x1_S24x1000000_0_1_n_n_1_1_241_wf
def dot_S1000000x72_S72x28_S1000000x28_1_0_0_1_n_n : DotDims S1000000x72 S72x28 S1000000x28 where
  lhsContracting := [1]
  rhsContracting := [0]
  lhsNonContracting := [0]
  rhsNonContracting := [1]
  lhsBatch := []
  rhsBatch := []
  wf := dot_S1000000x72_S72x28_S1000000x28_1_0_0_1_n_n_wf

class Facts : Prop extends Facts₀ where

variable [Facts]
-- ==== Proof.RefRun.lean ====
/-
  The reference's run, with its result stated as the fold of its host operations.

  The reference is a straight line of 1128 host operations on tensor values. Every weakly fair execution runs them
  in order and terminates, and every buffer ends at the fold of the operations' results over the launch contents. No
  operation writes an argument buffer, so the fold leaves each argument as launched.
-/
import proofs.«148834_j1726576856425_2_alg».proof.Proof.ReferenceRunP

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxRecDepth 65536 in
set_option maxHeartbeats 1000000000 in
/-- Every operation determines the contents of every buffer it writes (none allocates an uninitialised buffer): one
    check per operation of the list. -/
theorem ops_fresh : (ops (F := F)).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

set_option maxRecDepth 65536 in
set_option maxHeartbeats 1000000000 in
/-- Every weakly fair execution of the reference terminates, with every buffer at the fold of the operations' results
    over the launch contents. -/
theorem run_fold : θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.mp ops_fresh)

/-- No operation of the reference writes argument 0. -/
theorem arg0_kept (c : Dev nD) :
    after (ops (F := F)) (launchContents m c) (Proc.devRef .tc main_arg0) = m ((c.tc : Thread nD τ).loc main_arg0) := rfl

/-- No operation of the reference writes argument 1. -/
theorem arg1_kept (c : Dev nD) :
    after (ops (F := F)) (launchContents m c) (Proc.devRef .tc main_arg1) = m ((c.tc : Thread nD τ).loc main_arg1) := rfl

/-- No operation of the reference writes argument 2. -/
theorem arg2_kept (c : Dev nD) :
    after (ops (F := F)) (launchContents m c) (Proc.devRef .tc main_arg2) = m ((c.tc : Thread nD τ).loc main_arg2) := rfl

/-- No operation of the reference writes argument 3. -/
theorem arg3_kept (c : Dev nD) :
    after (ops (F := F)) (launchContents m c) (Proc.devRef .tc main_arg3) = m ((c.tc : Thread nD τ).loc main_arg3) := rfl

/-- No operation of the reference writes argument 4. -/
theorem arg4_kept (c : Dev nD) :
    after (ops (F := F)) (launchContents m c) (Proc.devRef .tc main_arg4) = m ((c.tc : Thread nD τ).loc main_arg4) := rfl

/-- No operation of the reference writes argument 5. -/
theorem arg5_kept (c : Dev nD) :
    after (ops (F := F)) (launchContents m c) (Proc.devRef .tc main_arg5) = m ((c.tc : Thread nD τ).loc main_arg5) := rfl

/-- No operation of the reference writes argument 6. -/
theorem arg6_kept (c : Dev nD) :
    after (ops (F := F)) (launchContents m c) (Proc.devRef .tc main_arg6) = m ((c.tc : Thread nD τ).loc main_arg6) := rfl

/-- No operation of the reference writes argument 7. -/
theorem arg7_kept (c : Dev nD) :
    after (ops (F := F)) (launchContents m c) (Proc.devRef .tc main_arg7) = m ((c.tc : Thread nD τ).loc main_arg7) := rfl

/-- No operation of the reference writes argument 8. -/
theorem arg8_kept (c : Dev nD) :
    after (ops (F := F)) (launchContents m c) (Proc.devRef .tc main_arg8) = m ((c.tc : Thread nD τ).loc main_arg8) := rfl

/-- No operation of the reference writes argument 9. -/
theorem arg9_kept (c : Dev nD) :
    after (ops (F := F)) (launchContents m c) (Proc.devRef .tc main_arg9) = m ((c.tc : Thread nD τ).loc main_arg9) := rfl

end Cert.ReferenceIdeal.RefRun

end
-- ==== Proof.BodyAt.lean ====
/-
  The value the kernel body stores, read at an index of its [4000, 28] block.

  The body multiplies its six [4000, 24] feature blocks pairwise (xy·z, xz·y, yz·x), contracts each product against one
  24-row band of the [72, 28] array `f` with a zero accumulator, and adds the three results as (first + second) + third.
  Changes of float format are the identity on the extended reals, and a same-shape cast is the identity, so at row `p`
  and channel `q` the stored value is the sum of three 24-term sums.
-/
import proofs.«148834_j1726576856425_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The dimension record of the body's three [4000, 24] × [24, 28] products. -/
abbrev D : DotDims S4000x24 S24x28 S4000x28 := dot_S4000x24_S24x28_S4000x28_1_0_0_1_n_n

theorem lhs_row (i : S4000x28.Idx) (k : D.contr.Idx) : (D.lhsIdx i k 0).val = (i 0).val := by
  unfold DotDims.lhsIdx
  rw [dif_neg (show ¬(0 : Fin S4000x24.rank) ∈ D.lhsBatch by decide), dif_pos (show (0 : Fin S4000x24.rank) ∈ D.lhsNonContracting by decide)]
  rfl

theorem lhs_col (i : S4000x28.Idx) (k : D.contr.Idx) : (D.lhsIdx i k 1).val = (k ⟨0, by decide⟩).val :=
  D.lhsIdx_val_of_single rfl i k

theorem rhs_row (i : S4000x28.Idx) (k : D.contr.Idx) : (D.rhsIdx i k 0).val = (k ⟨0, by decide⟩).val :=
  D.rhsIdx_val_of_single rfl i k

theorem rhs_col (i : S4000x28.Idx) (k : D.contr.Idx) : (D.rhsIdx i k 1).val = (i 1).val := by
  unfold DotDims.rhsIdx
  rw [dif_neg (show ¬(1 : Fin S24x28.rank) ∈ D.rhsBatch by decide), dif_pos (show (1 : Fin S24x28.rank) ∈ D.rhsNonContracting by decide)]
  rfl

/-- A [4000, 24] × [24, 28] product into a zero accumulator, at (p, q): the sum over the 24 contracted positions of
    row `p` of the left factor against column `q` of the right. -/
theorem product_at {φ₁ φ₂ : FTy} (a : FVec Ideal S4000x24 φ₁) (b : FVec Ideal S24x28 φ₂) (p : Fin 4000) (q : Fin 28) :
    matmul D none a b (constant (F := Ideal) S4000x28 .f32 0x00000000#32) (ix2 p q) = ∑ r : Fin 24, a (ix2 p r) * b (ix2 r q) := by
  refine (Ideal.matmul_constant_zero_apply D none a b (ix2 p q)).trans ?_
  rw [← Equiv.sum_comp (contrEquiv1 D 24 rfl rfl).symm]
  refine Finset.sum_congr rfl fun r _ => ?_
  have hr := contrEquiv1_symm_val D 24 rfl rfl r
  have el : D.lhsIdx (ix2 p q) ((contrEquiv1 D 24 rfl rfl).symm r) = ix2 p r := funext fun a => Fin.ext (by
    match a with
    | ⟨0, _⟩ => exact lhs_row _ _
    | ⟨1, _⟩ => exact (lhs_col _ _).trans hr)
  have er : D.rhsIdx (ix2 p q) ((contrEquiv1 D 24 rfl rfl).symm r) = ix2 r q := funext fun a => Fin.ext (by
    match a with
    | ⟨0, _⟩ => exact (rhs_row _ _).trans hr
    | ⟨1, _⟩ => exact rhs_col _ _)
  rw [el, er]

/-- The stored value at (p, q), from the nine loaded blocks. -/
theorem stored_at (v0 v2 v6 v8 v12 v14 : Vec Ideal S4000x24 .f32) (v18 v20 v22 : Vec Ideal S24x28 .f32) (p : Fin 4000) (q : Fin 28) :
    k0_pay1 (F := Ideal) v0 v2 v6 v8 v12 v14 v18 v20 v22 (ix2 p q)
      = (∑ r : Fin 24, v0 (ix2 p r) * v2 (ix2 p r) * v18 (ix2 r q) + ∑ r : Fin 24, v6 (ix2 p r) * v8 (ix2 p r) * v20 (ix2 r q))
        + ∑ r : Fin 24, v12 (ix2 p r) * v14 (ix2 p r) * v22 (ix2 r q) := by
  unfold k0_pay1
  simp only [shapeCast_self]
  refine congrArg₂ (· + ·) (congrArg₂ (· + ·) ?_ ?_) ?_
  · exact (product_at _ _ p q).trans rfl
  · exact (product_at _ _ p q).trans rfl
  · exact (product_at _ _ p q).trans rfl

end Cert.KernelIdeal.Body

end
-- ==== Proof.Spec.lean ====
/-
  The specification of the fused feature product, and the two facts about finite sums and concatenation that
  relate its two spellings.

  For a point `n` and an output channel `c` the result is
      out[n, c] = Σ_{k < 72} feat[n, k] · f[k, c],
  where `feat` is the three 24-wide feature products laid side by side:
      feat[n, r]      = xy[n, r] · z[n, r],
      feat[n, 24 + r] = xz[n, r] · y[n, r],
      feat[n, 48 + r] = yz[n, r] · x[n, r]          (r < 24).
  Splitting the sum over `k` into its three runs of 24 gives the sum of three 24-term products, each against
  the matching 24 rows of `f`. Only commutativity and associativity of `+` are used, so the identity holds on
  the extended reals with no finiteness assumption.
-/
import Idealize.ShloMosaic.PureOps.Ideal
import Idealize.ShloMosaic.Lib.ValueIdx
import Idealize.ShloMosaic.Lib.Pipeline.Value
import Mathlib.Algebra.BigOperators.Fin

noncomputable section

namespace Cert.Fuse

open Idealize.ShloMosaic Idealize.ShloMosaic.ValueIdx

/-- A sum of 72 terms is the sum of its three consecutive runs of 24 terms. -/
theorem sum_three_runs {M : Type*} [AddCommMonoid M] (g : Fin 72 → M) :
    ∑ k : Fin 72, g k
      = (∑ r : Fin 24, g ⟨r.val, by have := r.isLt; omega⟩ + ∑ r : Fin 24, g ⟨24 + r.val, by have := r.isLt; omega⟩)
        + ∑ r : Fin 24, g ⟨48 + r.val, by have := r.isLt; omega⟩ := by
  have h1 : ∑ k : Fin (48 + 24), g k
      = ∑ k : Fin 48, g (Fin.castAdd 24 k) + ∑ r : Fin 24, g (Fin.natAdd 48 r) := @Fin.sum_univ_add M _ 48 24 g
  have h2 : ∑ k : Fin (24 + 24), g (Fin.castAdd 24 k)
      = ∑ r : Fin 24, g (Fin.castAdd 24 (Fin.castAdd 24 r)) + ∑ r : Fin 24, g (Fin.castAdd 24 (Fin.natAdd 24 r)) :=
    @Fin.sum_univ_add M _ 24 24 (fun k : Fin (24 + 24) => g (Fin.castAdd 24 k))
  exact h1.trans (congrArg (· + _) h2)

/-- The specification: the three 24-term feature products against the three 24-row bands of `f`, added in the order
    first + second, then + third. -/
def fuse (xy xz yz x y z : (⟨2, ![1000000, 24]⟩ : Shape).Idx → EReal) (f : (⟨2, ![72, 28]⟩ : Shape).Idx → EReal) :
    (⟨2, ![1000000, 28]⟩ : Shape).Idx → EReal := fun i =>
  (∑ r : Fin 24, xy (ix2 (i 0) r) * z (ix2 (i 0) r) * f (ix2 (⟨r.val, by have := r.isLt; omega⟩ : Fin 72) (i 1))
    + ∑ r : Fin 24, xz (ix2 (i 0) r) * y (ix2 (i 0) r) * f (ix2 (⟨24 + r.val, by have := r.isLt; omega⟩ : Fin 72) (i 1)))
    + ∑ r : Fin 24, yz (ix2 (i 0) r) * x (ix2 (i 0) r) * f (ix2 (⟨48 + r.val, by have := r.isLt; omega⟩ : Fin 72) (i 1))

/-! ## Three 24-wide pieces laid side by side, read at an index

Column `k` of the joined array lies in piece `k / 24` at column `k % 24`; the row is unchanged. -/

section Concat

variable {α : Type} (A B C : (⟨2, ![1000000, 24]⟩ : Shape).Idx → α)
  (h : Shape.Concatenates
    (([⟨⟨2, ![1000000, 24]⟩, A⟩, ⟨⟨2, ![1000000, 24]⟩, B⟩, ⟨⟨2, ![1000000, 24]⟩, C⟩] : List ((s : Shape) × (s.Idx → α))).map (·.1))
    ⟨2, ![1000000, 72]⟩ 1)

/-- Columns 0–23 are the first piece. -/
theorem concat3_first (p : Fin 1000000) (r : Fin 24) :
    concatenate (⟨2, ![1000000, 72]⟩ : Shape) 1 [⟨⟨2, ![1000000, 24]⟩, A⟩, ⟨⟨2, ![1000000, 24]⟩, B⟩, ⟨⟨2, ![1000000, 24]⟩, C⟩] h
      (ix2 p (⟨r.val, by have := r.isLt; omega⟩ : Fin 72)) = A (ix2 p r) :=
  concatenate_apply_piece (t := (⟨2, ![1000000, 72]⟩ : Shape)) (1 : Fin 2) [⟨⟨2, ![1000000, 24]⟩, A⟩, ⟨⟨2, ![1000000, 24]⟩, B⟩, ⟨⟨2, ![1000000, 24]⟩, C⟩] h _ 0 (by simp) ⟨2, ![1000000, 24]⟩ A rfl rfl 0 rfl (ix2 p r)
    (fun b hb => by match b with | ⟨0, _⟩ => rfl | ⟨1, _⟩ => exact absurd rfl hb)
    (Nat.zero_add _)

/-- Columns 24–47 are the second piece. -/
theorem concat3_second (p : Fin 1000000) (r : Fin 24) :
    concatenate (⟨2, ![1000000, 72]⟩ : Shape) 1 [⟨⟨2, ![1000000, 24]⟩, A⟩, ⟨⟨2, ![1000000, 24]⟩, B⟩, ⟨⟨2, ![1000000, 24]⟩, C⟩] h
      (ix2 p (⟨24 + r.val, by have := r.isLt; omega⟩ : Fin 72)) = B (ix2 p r) :=
  concatenate_apply_piece (t := (⟨2, ![1000000, 72]⟩ : Shape)) (1 : Fin 2) [⟨⟨2, ![1000000, 24]⟩, A⟩, ⟨⟨2, ![1000000, 24]⟩, B⟩, ⟨⟨2, ![1000000, 24]⟩, C⟩] h _ 1 (by simp) ⟨2, ![1000000, 24]⟩ B rfl rfl 24 rfl (ix2 p r)
    (fun b hb => by match b with | ⟨0, _⟩ => rfl | ⟨1, _⟩ => exact absurd rfl hb)
    rfl

/-- Columns 48–71 are the third piece. -/
theorem concat3_third (p : Fin 1000000) (r : Fin 24) :
    concatenate (⟨2, ![1000000, 72]⟩ : Shape) 1 [⟨⟨2, ![1000000, 24]⟩, A⟩, ⟨⟨2, ![1000000, 24]⟩, B⟩, ⟨⟨2, ![1000000, 24]⟩, C⟩] h
      (ix2 p (⟨48 + r.val, by have := r.isLt; omega⟩ : Fin 72)) = C (ix2 p r) :=
  concatenate_apply_piece (t := (⟨2, ![1000000, 72]⟩ : Shape)) (1 : Fin 2) [⟨⟨2, ![1000000, 24]⟩, A⟩, ⟨⟨2, ![1000000, 24]⟩, B⟩, ⟨⟨2, ![1000000, 24]⟩, C⟩] h _ 2 (by simp) ⟨2, ![1000000, 24]⟩ C rfl rfl 48 rfl (ix2 p r)
    (fun b hb => by match b with | ⟨0, _⟩ => rfl | ⟨1, _⟩ => exact absurd rfl hb)
    rfl

end Concat

end Cert.Fuse

end
-- ==== Proof.Blocks.lean ====
/-
  The kernel's output array after the run, as one function of the arrays the region finds.

  The region runs over 250 grid points. Point `t` stages rows 4000·t … 4000·t + 3999 of each of the six [N, 24]
  feature arrays and the whole [72, 28] array `f`, and writes back rows 4000·t … 4000·t + 3999 of the [N, 28] output.
  The body's stored value at (p, q) of its block is the three 24-term sums over row `p` of the staged feature blocks
  and column `q` of the three 24-row bands of `f` — that is, `fuse` of the whole arrays at row 4000·t + p, column q:
  what a point writes back is its block of `fuse`. Every row `n` lies in the block of point `n / 4000`, so the blocks
  cover the output and the array ends as `fuse` everywhere.
-/
import proofs.«148834_j1726576856425_2_alg».proof.Proof.KernelIdealFrameP
import proofs.«148834_j1726576856425_2_alg».proof.Proof.BodyAt
import proofs.«148834_j1726576856425_2_alg».proof.Proof.Spec
import Idealize.ShloMosaic.Lib.Pipeline.Value

noncomputable section

namespace Cert.KernelIdeal.Blocks

open Cert.KernelIdeal Cert.KernelIdeal.Gen Cert.KernelIdeal.GenP Cert.KernelIdeal.Body Cert.Fuse
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps, decided over the 250 grid points: the six feature windows and the output window are at
    block (t, 0) at point `t`, the window of `f` always at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row `p`, column `r` of the block of window 0 (the `xy` features) at point `t`, read off ANY contents `A` of its array,
    is row 4000·t + p, column r of `A`. -/
theorem feat0_read (A : S1000000x24.Idx → Ideal .f32) (t : Fin cfg0.N) (p : Fin 4000) (r : Fin 24) (n : Fin 1000000)
    (hn : n.val = t.val * 4000 + p.val) :
    ((cfg0.win 0).blk t).view.read (Elt Ideal) A (ix2 p r) = A (ix2 n r) := by
  show A (((cfg0.win 0).blk t).view.emb (ix2 p r)) = A (ix2 n r)
  refine congrArg A (funext fun a => Fin.ext ?_)
  obtain ⟨⟨e0, e1⟩, -, -, -, -, -, -, -⟩ := block_index t
  match a with
  | ⟨0, _⟩ => show win0_0.index t (0 : Fin 2) * 4000 + 1 * p.val = n.val; omega
  | ⟨1, _⟩ => show win0_0.index t (1 : Fin 2) * 24 + 1 * r.val = r.val; omega

/-- Row `p`, column `r` of the block of window 1 (the `xz` features) at point `t`, read off ANY contents `A` of its array,
    is row 4000·t + p, column r of `A`. -/
theorem feat1_read (A : S1000000x24.Idx → Ideal .f32) (t : Fin cfg0.N) (p : Fin 4000) (r : Fin 24) (n : Fin 1000000)
    (hn : n.val = t.val * 4000 + p.val) :
    ((cfg0.win 1).blk t).view.read (Elt Ideal) A (ix2 p r) = A (ix2 n r) := by
  show A (((cfg0.win 1).blk t).view.emb (ix2 p r)) = A (ix2 n r)
  refine congrArg A (funext fun a => Fin.ext ?_)
  obtain ⟨-, ⟨e0, e1⟩, -, -, -, -, -, -⟩ := block_index t
  match a with
  | ⟨0, _⟩ => show win0_1.index t (0 : Fin 2) * 4000 + 1 * p.val = n.val; omega
  | ⟨1, _⟩ => show win0_1.index t (1 : Fin 2) * 24 + 1 * r.val = r.val; omega

/-- Row `p`, column `r` of the block of window 2 (the `yz` features) at point `t`, read off ANY contents `A` of its array,
    is row 4000·t + p, column r of `A`. -/
theorem feat2_read (A : S1000000x24.Idx → Ideal .f32) (t : Fin cfg0.N) (p : Fin 4000) (r : Fin 24) (n : Fin 1000000)
    (hn : n.val = t.val * 4000 + p.val) :
    ((cfg0.win 2).blk t).view.read (Elt Ideal) A (ix2 p r) = A (ix2 n r) := by
  show A (((cfg0.win 2).blk t).view.emb (ix2 p r)) = A (ix2 n r)
  refine congrArg A (funext fun a => Fin.ext ?_)
  obtain ⟨-, -, ⟨e0, e1⟩, -, -, -, -, -⟩ := block_index t
  match a with
  | ⟨0, _⟩ => show win0_2.index t (0 : Fin 2) * 4000 + 1 * p.val = n.val; omega
  | ⟨1, _⟩ => show win0_2.index t (1 : Fin 2) * 24 + 1 * r.val = r.val; omega

/-- Row `p`, column `r` of the block of window 3 (the `x` features) at point `t`, read off ANY contents `A` of its array,
    is row 4000·t + p, column r of `A`. -/
theorem feat3_read (A : S1000000x24.Idx → Ideal .f32) (t : Fin cfg0.N) (p : Fin 4000) (r : Fin 24) (n : Fin 1000000)
    (hn : n.val = t.val * 4000 + p.val) :
    ((cfg0.win 3).blk t).view.read (Elt Ideal) A (ix2 p r) = A (ix2 n r) := by
  show A (((cfg0.win 3).blk t).view.emb (ix2 p r)) = A (ix2 n r)
  refine congrArg A (funext fun a => Fin.ext ?_)
  obtain ⟨-, -, -, ⟨e0, e1⟩, -, -, -, -⟩ := block_index t
  match a with
  | ⟨0, _⟩ => show win0_3.index t (0 : Fin 2) * 4000 + 1 * p.val = n.val; omega
  | ⟨1, _⟩ => show win0_3.index t (1 : Fin 2) * 24 + 1 * r.val = r.val; omega

/-- Row `p`, column `r` of the block of window 4 (the `y` features) at point `t`, read off ANY contents `A` of its array,
    is row 4000·t + p, column r of `A`. -/
theorem feat4_read (A : S1000000x24.Idx → Ideal .f32) (t : Fin cfg0.N) (p : Fin 4000) (r : Fin 24) (n : Fin 1000000)
    (hn : n.val = t.val * 4000 + p.val) :
    ((cfg0.win 4).blk t).view.read (Elt Ideal) A (ix2 p r) = A (ix2 n r) := by
  show A (((cfg0.win 4).blk t).view.emb (ix2 p r)) = A (ix2 n r)
  refine congrArg A (funext fun a => Fin.ext ?_)
  obtain ⟨-, -, -, -, ⟨e0, e1⟩, -, -, -⟩ := block_index t
  match a with
  | ⟨0, _⟩ => show win0_4.index t (0 : Fin 2) * 4000 + 1 * p.val = n.val; omega
  | ⟨1, _⟩ => show win0_4.index t (1 : Fin 2) * 24 + 1 * r.val = r.val; omega

/-- Row `p`, column `r` of the block of window 5 (the `z` features) at point `t`, read off ANY contents `A` of its array,
    is row 4000·t + p, column r of `A`. -/
theorem feat5_read (A : S1000000x24.Idx → Ideal .f32) (t : Fin cfg0.N) (p : Fin 4000) (r : Fin 24) (n : Fin 1000000)
    (hn : n.val = t.val * 4000 + p.val) :
    ((cfg0.win 5).blk t).view.read (Elt Ideal) A (ix2 p r) = A (ix2 n r) := by
  show A (((cfg0.win 5).blk t).view.emb (ix2 p r)) = A (ix2 n r)
  refine congrArg A (funext fun a => Fin.ext ?_)
  obtain ⟨-, -, -, -, -, ⟨e0, e1⟩, -, -⟩ := block_index t
  match a with
  | ⟨0, _⟩ => show win0_5.index t (0 : Fin 2) * 4000 + 1 * p.val = n.val; omega
  | ⟨1, _⟩ => show win0_5.index t (1 : Fin 2) * 24 + 1 * r.val = r.val; omega

/-- Row `r`, column `q` of the body's load of rows 0–23 of the staged block of window 6 (`f`), read off ANY contents
    `A` of its array, is row r, column q of `A`. -/
theorem band0_read (A : S72x28.Idx → Ideal .f32) (t : Fin cfg0.N) (r : Fin 24) (q : Fin 28) :
    View.ld (((cfg0.win 6).blk t).view.read (Elt Ideal) A) r0_1 (ix2 r q)
      = A (ix2 (⟨r.val, by have := r.isLt; omega⟩ : Fin 72) q) := by
  show A (((cfg0.win 6).blk t).view.emb (r0_1.idx (ix2 r q))) = _
  refine congrArg A (funext fun a => Fin.ext ?_)
  obtain ⟨-, -, -, -, -, -, ⟨e0, e1⟩, -⟩ := block_index t
  match a with
  | ⟨0, _⟩ => show win0_6.index t (0 : Fin 2) * 72 + 1 * (0 + 1 * r.val) = r.val; omega
  | ⟨1, _⟩ => show win0_6.index t (1 : Fin 2) * 28 + 1 * (0 + 1 * q.val) = q.val; omega

/-- Row `r`, column `q` of the body's load of rows 24–47 of the staged block of window 6 (`f`), read off ANY contents
    `A` of its array, is row 24 + r, column q of `A`. -/
theorem band1_read (A : S72x28.Idx → Ideal .f32) (t : Fin cfg0.N) (r : Fin 24) (q : Fin 28) :
    View.ld (((cfg0.win 6).blk t).view.read (Elt Ideal) A) r0_2 (ix2 r q)
      = A (ix2 (⟨24 + r.val, by have := r.isLt; omega⟩ : Fin 72) q) := by
  show A (((cfg0.win 6).blk t).view.emb (r0_2.idx (ix2 r q))) = _
  refine congrArg A (funext fun a => Fin.ext ?_)
  obtain ⟨-, -, -, -, -, -, ⟨e0, e1⟩, -⟩ := block_index t
  match a with
  | ⟨0, _⟩ => show win0_6.index t (0 : Fin 2) * 72 + 1 * (24 + 1 * r.val) = 24 + r.val; omega
  | ⟨1, _⟩ => show win0_6.index t (1 : Fin 2) * 28 + 1 * (0 + 1 * q.val) = q.val; omega

/-- Row `r`, column `q` of the body's load of rows 48–71 of the staged block of window 6 (`f`), read off ANY contents
    `A` of its array, is row 48 + r, column q of `A`. -/
theorem band2_read (A : S72x28.Idx → Ideal .f32) (t : Fin cfg0.N) (r : Fin 24) (q : Fin 28) :
    View.ld (((cfg0.win 6).blk t).view.read (Elt Ideal) A) r0_3 (ix2 r q)
      = A (ix2 (⟨48 + r.val, by have := r.isLt; omega⟩ : Fin 72) q) := by
  show A (((cfg0.win 6).blk t).view.emb (r0_3.idx (ix2 r q))) = _
  refine congrArg A (funext fun a => Fin.ext ?_)
  obtain ⟨-, -, -, -, -, -, ⟨e0, e1⟩, -⟩ := block_index t
  match a with
  | ⟨0, _⟩ => show win0_6.index t (0 : Fin 2) * 72 + 1 * (48 + 1 * r.val) = 48 + r.val; omega
  | ⟨1, _⟩ => show win0_6.index t (1 : Fin 2) * 28 + 1 * (0 + 1 * q.val) = q.val; omega

/-- Row `p`, column `q` of the output block at point `t` is row 4000·t + p, column q of the output array. -/
theorem out_emb (t : Fin cfg0.N) (p : Fin 4000) (q : Fin 28) (n : Fin 1000000) (hn : n.val = t.val * 4000 + p.val) :
    ((cfg0.win 7).blk t).view.emb (ix2 p q) = ix2 n q := by
  funext a; apply Fin.ext
  obtain ⟨-, -, -, -, -, -, -, ⟨e0, e1⟩⟩ := block_index t
  match a with
  | ⟨0, _⟩ => show win0_7.index t (0 : Fin 2) * 4000 + 1 * p.val = n.val; omega
  | ⟨1, _⟩ => show win0_7.index t (1 : Fin 2) * 28 + 1 * q.val = q.val; omega

/-- The body's result at a grid point: from the blocks at point `t` of ANY contents `A0 … A5`, `Af` of the seven input arrays, the
    body leaves in the output's staging buffer the block at `t` of `fuse` of those contents. -/
theorem block_of_fuse (A0 A1 A2 A3 A4 A5 : S1000000x24.Idx → Ideal .f32) (Af : S72x28.Idx → Ideal .f32) (t : Fin cfg0.N) :
    (cfg0.win 7).cut (grid0.coords t)
        (out0_7 (F := Ideal) (((cfg0.win 0).blk t).view.read (Elt Ideal) A0) (((cfg0.win 1).blk t).view.read (Elt Ideal) A1) (((cfg0.win 2).blk t).view.read (Elt Ideal) A2)
          (((cfg0.win 3).blk t).view.read (Elt Ideal) A3) (((cfg0.win 4).blk t).view.read (Elt Ideal) A4) (((cfg0.win 5).blk t).view.read (Elt Ideal) A5)
          (((cfg0.win 6).blk t).view.read (Elt Ideal) Af))
      = ((cfg0.win 7).blk t).view.read (Elt Ideal) (fuse A0 A1 A2 A3 A4 A5 Af) := by
  unfold out0_7
  rw [View.canon_unit_zero zeros]
  simp only [View.ld_unit_zero (S := S4000x24) zeros]
  funext j
  obtain ⟨p, q, rfl⟩ : ∃ (p : Fin 4000) (q : Fin 28), j = ix2 p q := ⟨j 0, j 1, eq_ix2 j⟩
  have ht : t.val < 250 := Nat.lt_of_lt_of_eq t.isLt N_0
  have hp : p.val < 4000 := p.isLt
  obtain ⟨n, hn⟩ : ∃ n : Fin 1000000, n.val = t.val * 4000 + p.val := ⟨⟨t.val * 4000 + p.val, by omega⟩, rfl⟩
  show k0_pay1 (F := Ideal) (((cfg0.win 0).blk t).view.read (Elt Ideal) A0) (((cfg0.win 5).blk t).view.read (Elt Ideal) A5) (((cfg0.win 1).blk t).view.read (Elt Ideal) A1)
      (((cfg0.win 4).blk t).view.read (Elt Ideal) A4) (((cfg0.win 2).blk t).view.read (Elt Ideal) A2) (((cfg0.win 3).blk t).view.read (Elt Ideal) A3)
      (View.ld (((cfg0.win 6).blk t).view.read (Elt Ideal) Af) r0_1) (View.ld (((cfg0.win 6).blk t).view.read (Elt Ideal) Af) r0_2) (View.ld (((cfg0.win 6).blk t).view.read (Elt Ideal) Af) r0_3) (ix2 p q)
    = fuse A0 A1 A2 A3 A4 A5 Af (((cfg0.win 7).blk t).view.emb (ix2 p q))
  rw [out_emb t p q n hn]
  refine (stored_at _ _ _ _ _ _ _ _ _ p q).trans ?_
  unfold fuse
  refine congrArg₂ (· + ·) (congrArg₂ (· + ·) ?_ ?_) ?_
  · exact Finset.sum_congr rfl fun r _ =>
      congrArg₂ (· * ·) (congrArg₂ (· * ·) (feat0_read A0 t p r n hn) (feat5_read A5 t p r n hn)) (band0_read Af t r q)
  · exact Finset.sum_congr rfl fun r _ =>
      congrArg₂ (· * ·) (congrArg₂ (· * ·) (feat1_read A1 t p r n hn) (feat4_read A4 t p r n hn)) (band1_read Af t r q)
  · exact Finset.sum_congr rfl fun r _ =>
      congrArg₂ (· * ·) (congrArg₂ (· * ·) (feat2_read A2 t p r n hn) (feat3_read A3 t p r n hn)) (band2_read Af t r q)

/-- What grid point `t` writes back is its block of `fuse` of the seven input arrays as the region finds them. -/
theorem flushed_eq (c : Dev nD) (t : Fin cfg0.N) :
    (dats m 0 c).flushed 7 t = ((cfg0.win 7).blk t).view.read (Elt Ideal) (fuse (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))) := by
  show (cfg0.win 7).cut (grid0.coords t) ((dats m 0 c).after 7 t) = _
  rw [after0_7]
  unfold iblk
  exact block_of_fuse _ _ _ _ _ _ _ t

/-- An index of the output array is in point `t`'s block iff each coordinate is in the block's range on its axis. -/
theorem mem_blk (t : Fin cfg0.N) (i : S1000000x28.Idx) :
    i ∈ ((cfg0.win 7).blk t).view.set ↔ ∀ a : Fin 2, win0_7.index t a * S4000x28.size a ≤ (i a).val ∧ (i a).val < win0_7.index t a * S4000x28.size a + S4000x28.size a := by
  show i ∈ ((View.whole main_v668).slice (win0_7.rect t)).set ↔ _
  rw [View.set_slice_whole, Rect.mem_set_unit]
  exact Iff.rfl

/-- Every index of the output array is in some point's block: row `n` is in the block of point `n / 4000`. -/
theorem covered (i : S1000000x28.Idx) :
    ∃ t : Fin cfg0.N, (cfg0.win 7).flush t = true ∧ i ∈ ((cfg0.win 7).blk t).view.set := by
  have h0 : (i 0).val < 1000000 := (i 0).isLt
  have h1 : (i 1).val < 28 := (i 1).isLt
  obtain ⟨t, ht⟩ : ∃ t : Fin cfg0.N, t.val = (i 0).val / 4000 :=
    ⟨⟨(i 0).val / 4000, Nat.lt_of_lt_of_eq (by omega : (i 0).val / 4000 < 250) N_0.symm⟩, rfl⟩
  refine ⟨t, flush0_7 t, ?_⟩
  rw [mem_blk]
  obtain ⟨-, -, -, -, -, -, -, ⟨e0, e1⟩⟩ := block_index t
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 28 ≤ (i 1).val ∧ (i 1).val < win0_7.index t (1 : Fin 2) * 28 + 28; omega

/-- The output array after the run is `fuse` of the seven input arrays as the region finds them. -/
theorem final (c : Dev nD) : (dats m 0 c).arrAt 7 cfg0.N = (fuse (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))) :=
  (dats m 0 c).arrAt_eq_of_cover 7 _ (fun t _ => flushed_eq m c t) covered

/-- The frame run re-posted: the output array at `fuse` of the six feature arrays the region finds and the argument `f`
    as launched, the arguments unchanged. -/
theorem run : θ_run defs (onTc (τ := τ) (main (F := Ideal))) ⟨m, fun _ => 0, ρ⟩ fun r => ∀ c : Dev nD,
      r.2.mem ((c : Thread nD τ).loc main_v668)
        = fuse (V m c main_v182) (V m c main_v348) (V m c main_v514) (V m c main_v565) (V m c main_v616) (V m c main_v667)
            (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(((h c).1 7).trans (final m c)).trans
        (congrArg (fuse (V m c main_v182) (V m c main_v348) (V m c main_v514) (V m c main_v565) (V m c main_v616) (V m c main_v667))
          (V_main_arg7 m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Blocks

end
-- ==== Proof.RefAlg.lean ====
/-
  The reference's last five operations, as one function of the six feature arrays and `f`, are the specification `fuse`.

  The reference multiplies the feature arrays pairwise (xy·z, xz·y, yz·x), lays the three [N, 24] products side by side
  into an [N, 72] array and contracts its 72 columns against the 72 rows of `f`. Read at an output index (n, c) this is a
  72-term sum; column `k` of the joined array is column `k % 24` of product `k / 24`, so the sum splits into its three
  runs of 24, which is `fuse`.
-/
import proofs.«148834_j1726576856425_2_alg».proof.Proof.Gen.ReferenceIdeal
import proofs.«148834_j1726576856425_2_alg».proof.Proof.Spec
import Idealize.ShloMosaic.PureOps.Ideal.Laws
import Idealize.ShloMosaic.Lib.ValueIdx

noncomputable section

namespace Cert.ReferenceIdeal.RefValue

open Cert.ReferenceIdeal Idealize.ShloMosaic Idealize.ShloMosaic.ValueIdx Cert.Fuse

/-- The dimension record of the reference's [N, 72] × [72, 28] product. -/
abbrev DR : DotDims S1000000x72 S72x28 S1000000x28 := dot_S1000000x72_S72x28_S1000000x28_1_0_0_1_n_n

theorem lhs_row (i : S1000000x28.Idx) (k : DR.contr.Idx) : (DR.lhsIdx i k 0).val = (i 0).val := by
  unfold DotDims.lhsIdx
  rw [dif_neg (show ¬(0 : Fin S1000000x72.rank) ∈ DR.lhsBatch by decide), dif_pos (show (0 : Fin S1000000x72.rank) ∈ DR.lhsNonContracting by decide)]
  rfl

theorem lhs_col (i : S1000000x28.Idx) (k : DR.contr.Idx) : (DR.lhsIdx i k 1).val = (k ⟨0, by decide⟩).val :=
  DR.lhsIdx_val_of_single rfl i k

theorem rhs_row (i : S1000000x28.Idx) (k : DR.contr.Idx) : (DR.rhsIdx i k 0).val = (k ⟨0, by decide⟩).val :=
  DR.rhsIdx_val_of_single rfl i k

theorem rhs_col (i : S1000000x28.Idx) (k : DR.contr.Idx) : (DR.rhsIdx i k 1).val = (i 1).val := by
  unfold DotDims.rhsIdx
  rw [dif_neg (show ¬(1 : Fin S72x28.rank) ∈ DR.rhsBatch by decide), dif_pos (show (1 : Fin S72x28.rank) ∈ DR.rhsNonContracting by decide)]
  rfl

/-- The host's [N, 72] × [72, 28] product at (n, c): the sum over the 72 contracted positions of row `n` of the left
    factor against column `c` of the right. -/
theorem contraction_at (a : FVec Ideal S1000000x72 .f32) (b : FVec Ideal S72x28 .f32) (i : S1000000x28.Idx) :
    Host.dotGeneral DR none a b i = ∑ k : Fin 72, a (ix2 (i 0) k) * b (ix2 k (i 1)) := by
  simp only [Host.dotGeneral]
  refine (Ideal.dotGeneral_apply DR none _ a b i).trans ?_
  rw [← Equiv.sum_comp (contrEquiv1 DR 72 rfl rfl).symm]
  refine Finset.sum_congr rfl fun k _ => ?_
  have hk := contrEquiv1_symm_val DR 72 rfl rfl k
  have el : DR.lhsIdx i ((contrEquiv1 DR 72 rfl rfl).symm k) = ix2 (i 0) k := funext fun a => Fin.ext (by
    match a with
    | ⟨0, _⟩ => exact lhs_row _ _
    | ⟨1, _⟩ => exact (lhs_col _ _).trans hk)
  have er : DR.rhsIdx i ((contrEquiv1 DR 72 rfl rfl).symm k) = ix2 k (i 1) := funext fun a => Fin.ext (by
    match a with
    | ⟨0, _⟩ => exact (rhs_row _ _).trans hk
    | ⟨1, _⟩ => exact rhs_col _ _)
  exact congrArg₂ (fun u v => a u * b v) el er

/-- The reference's last five operations as one function of the six feature arrays and `f`: the three pairwise
    products, laid side by side, contracted against `f`. -/
def joined (xy xz yz x y z : FVec Ideal S1000000x24 .f32) (f : FVec Ideal S72x28 .f32) : FVec Ideal S1000000x28 .f32 :=
  Host.dotGeneral DR none
    (concatenate S1000000x72 1 [⟨S1000000x24, mulf xy z⟩, ⟨S1000000x24, mulf xz y⟩, ⟨S1000000x24, mulf yz x⟩]
      Facts₀.concatenates_S1000000x24_S1000000x24_S1000000x24_S1000000x72_d1) f

/-- The pairwise products, joined and contracted against `f`, are `fuse` of the six arrays and `f`. -/
theorem joined_product_eq_fuse (xy xz yz x y z : FVec Ideal S1000000x24 .f32) (f : FVec Ideal S72x28 .f32)
    (h : Shape.Concatenates
      (([⟨S1000000x24, mulf xy z⟩, ⟨S1000000x24, mulf xz y⟩, ⟨S1000000x24, mulf yz x⟩] : List ((s : Shape) × (s.Idx → Ideal .f32))).map (·.1))
      S1000000x72 1) :
    Host.dotGeneral DR none (concatenate S1000000x72 1 [⟨S1000000x24, mulf xy z⟩, ⟨S1000000x24, mulf xz y⟩, ⟨S1000000x24, mulf yz x⟩] h) f
      = fuse xy xz yz x y z f := by
  funext i
  refine (contraction_at _ f i).trans ((sum_three_runs _).trans ?_)
  unfold fuse
  refine congrArg₂ (· + ·) (congrArg₂ (· + ·) ?_ ?_) ?_
  · exact Finset.sum_congr rfl fun r _ => congrArg (· * _) (concat3_first _ _ _ h (i 0) r)
  · exact Finset.sum_congr rfl fun r _ => congrArg (· * _) (concat3_second _ _ _ h (i 0) r)
  · exact Finset.sum_congr rfl fun r _ => congrArg (· * _) (concat3_third _ _ _ h (i 0) r)

/-- So `joined` is `fuse`. -/
theorem joined_eq_fuse (xy xz yz x y z : FVec Ideal S1000000x24 .f32) (f : FVec Ideal S72x28 .f32) :
    joined xy xz yz x y z f = fuse xy xz yz x y z f :=
  joined_product_eq_fuse xy xz yz x y z f _

end Cert.ReferenceIdeal.RefValue

end
-- ==== Proof.Bridge.lean ====
/-
  The two programs compute the six sampled feature arrays by the same host operations.

  Before its region the kernel's program runs, and before its last five operations the reference runs, the same
  sequence of host operations on the same arguments: the normalisation of the points, the index and weight
  arithmetic, the twelve plane gathers and six vector gathers, and the bilinear blends. Each program's buffer contents
  at the end of that sequence are a fold of the operations' results over the launch contents. The two folds are compared
  directly: unfolding both, operation by operation, the reference's last operation is the contraction of the joined
  products, whose operands are the results of the reference's earlier operations, and each of those unfolds to the same
  operation of the same operands as the kernel's — down to the argument buffers. For the argument buffers to be the
  same terms on both sides, the reference's launch contents (equal to the kernel's on the arguments, by hypothesis) are
  first rewritten as a valuation that holds the kernel memory's arguments at the argument buffers.
-/
import proofs.«148834_j1726576856425_2_alg».proof.Proof.KernelIdealFrameP
import proofs.«148834_j1726576856425_2_alg».proof.Proof.RefRun
import proofs.«148834_j1726576856425_2_alg».proof.Proof.RefAlg

noncomputable section

namespace Cert.Bridge

open Idealize.ShloMosaic Idealize.ShloMosaic.TcCoe Idealize.SL.Sem Idealize.ShloMosaic.StableHlo Idealize.ShloMosaic.Tactic
open Cert.KernelIdeal.Gen Cert.KernelIdeal.GenP

/-- The reference valuation `U` with its ten argument buffers holding the kernel memory's arguments. -/
def withArgs (m : (ℓ : Loc Cert.KernelIdeal.nD Cert.KernelIdeal.τ Cert.KernelIdeal.sig) → Buf (Elt Ideal) ℓ) (c : Dev Cert.KernelIdeal.nD)
    (U : Valuation Cert.ReferenceIdeal.τ Cert.ReferenceIdeal.sig (Elt Ideal)) : Valuation Cert.ReferenceIdeal.τ Cert.ReferenceIdeal.sig (Elt Ideal) := fun b =>
  if h0 : b = Proc.devRef .tc Cert.ReferenceIdeal.main_arg0 then
    h0 ▸ (m ((c.tc : Thread Cert.KernelIdeal.nD Cert.KernelIdeal.τ).loc Cert.KernelIdeal.main_arg0) : (Proc.devRef .tc Cert.ReferenceIdeal.main_arg0 : DevRef Cert.ReferenceIdeal.τ Cert.ReferenceIdeal.sig).ty.Contents (Elt Ideal))
  else if h1 : b = Proc.devRef .tc Cert.ReferenceIdeal.main_arg1 then
    h1 ▸ (m ((c.tc : Thread Cert.KernelIdeal.nD Cert.KernelIdeal.τ).loc Cert.KernelIdeal.main_arg1) : (Proc.devRef .tc Cert.ReferenceIdeal.main_arg1 : DevRef Cert.ReferenceIdeal.τ Cert.ReferenceIdeal.sig).ty.Contents (Elt Ideal))
  else if h2 : b = Proc.devRef .tc Cert.ReferenceIdeal.main_arg2 then
    h2 ▸ (m ((c.tc : Thread Cert.KernelIdeal.nD Cert.KernelIdeal.τ).loc Cert.KernelIdeal.main_arg2) : (Proc.devRef .tc Cert.ReferenceIdeal.main_arg2 : DevRef Cert.ReferenceIdeal.τ Cert.ReferenceIdeal.sig).ty.Contents (Elt Ideal))
  else if h3 : b = Proc.devRef .tc Cert.ReferenceIdeal.main_arg3 then
    h3 ▸ (m ((c.tc : Thread Cert.KernelIdeal.nD Cert.KernelIdeal.τ).loc Cert.KernelIdeal.main_arg3) : (Proc.devRef .tc Cert.ReferenceIdeal.main_arg3 : DevRef Cert.ReferenceIdeal.τ Cert.ReferenceIdeal.sig).ty.Contents (Elt Ideal))
  else if h4 : b = Proc.devRef .tc Cert.ReferenceIdeal.main_arg4 then
    h4 ▸ (m ((c.tc : Thread Cert.KernelIdeal.nD Cert.KernelIdeal.τ).loc Cert.KernelIdeal.main_arg4) : (Proc.devRef .tc Cert.ReferenceIdeal.main_arg4 : DevRef Cert.ReferenceIdeal.τ Cert.ReferenceIdeal.sig).ty.Contents (Elt Ideal))
  else if h5 : b = Proc.devRef .tc Cert.ReferenceIdeal.main_arg5 then
    h5 ▸ (m ((c.tc : Thread Cert.KernelIdeal.nD Cert.KernelIdeal.τ).loc Cert.KernelIdeal.main_arg5) : (Proc.devRef .tc Cert.ReferenceIdeal.main_arg5 : DevRef Cert.ReferenceIdeal.τ Cert.ReferenceIdeal.sig).ty.Contents (Elt Ideal))
  else if h6 : b = Proc.devRef .tc Cert.ReferenceIdeal.main_arg6 then
    h6 ▸ (m ((c.tc : Thread Cert.KernelIdeal.nD Cert.KernelIdeal.τ).loc Cert.KernelIdeal.main_arg6) : (Proc.devRef .tc Cert.ReferenceIdeal.main_arg6 : DevRef Cert.ReferenceIdeal.τ Cert.ReferenceIdeal.sig).ty.Contents (Elt Ideal))
  else if h7 : b = Proc.devRef .tc Cert.ReferenceIdeal.main_arg7 then
    h7 ▸ (m ((c.tc : Thread Cert.KernelIdeal.nD Cert.KernelIdeal.τ).loc Cert.KernelIdeal.main_arg7) : (Proc.devRef .tc Cert.ReferenceIdeal.main_arg7 : DevRef Cert.ReferenceIdeal.τ Cert.ReferenceIdeal.sig).ty.Contents (Elt Ideal))
  else if h8 : b = Proc.devRef .tc Cert.ReferenceIdeal.main_arg8 then
    h8 ▸ (m ((c.tc : Thread Cert.KernelIdeal.nD Cert.KernelIdeal.τ).loc Cert.KernelIdeal.main_arg8) : (Proc.devRef .tc Cert.ReferenceIdeal.main_arg8 : DevRef Cert.ReferenceIdeal.τ Cert.ReferenceIdeal.sig).ty.Contents (Elt Ideal))
  else if h9 : b = Proc.devRef .tc Cert.ReferenceIdeal.main_arg9 then
    h9 ▸ (m ((c.tc : Thread Cert.KernelIdeal.nD Cert.KernelIdeal.τ).loc Cert.KernelIdeal.main_arg9) : (Proc.devRef .tc Cert.ReferenceIdeal.main_arg9 : DevRef Cert.ReferenceIdeal.τ Cert.ReferenceIdeal.sig).ty.Contents (Elt Ideal))
  else U b

/-- A reference memory that agrees with the kernel's on the arguments launches with such a valuation. -/
theorem launch_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    launchContents m' c = withArgs m c (launchContents m' c) := by
  funext b
  unfold withArgs
  by_cases h0 : b = Proc.devRef .tc Cert.ReferenceIdeal.main_arg0
  · subst h0; rw [dif_pos rfl]; exact (hagree c).1
  by_cases h1 : b = Proc.devRef .tc Cert.ReferenceIdeal.main_arg1
  · subst h1; rw [dif_neg h0, dif_pos rfl]; exact (hagree c).2.1
  by_cases h2 : b = Proc.devRef .tc Cert.ReferenceIdeal.main_arg2
  · subst h2; rw [dif_neg h0, dif_neg h1, dif_pos rfl]; exact (hagree c).2.2.1
  by_cases h3 : b = Proc.devRef .tc Cert.ReferenceIdeal.main_arg3
  · subst h3; rw [dif_neg h0, dif_neg h1, dif_neg h2, dif_pos rfl]; exact (hagree c).2.2.2.1
  by_cases h4 : b = Proc.devRef .tc Cert.ReferenceIdeal.main_arg4
  · subst h4; rw [dif_neg h0, dif_neg h1, dif_neg h2, dif_neg h3, dif_pos rfl]; exact (hagree c).2.2.2.2.1
  by_cases h5 : b = Proc.devRef .tc Cert.ReferenceIdeal.main_arg5
  · subst h5; rw [dif_neg h0, dif_neg h1, dif_neg h2, dif_neg h3, dif_neg h4, dif_pos rfl]; exact (hagree c).2.2.2.2.2.1
  by_cases h6 : b = Proc.devRef .tc Cert.ReferenceIdeal.main_arg6
  · subst h6; rw [dif_neg h0, dif_neg h1, dif_neg h2, dif_neg h3, dif_neg h4, dif_neg h5, dif_pos rfl]; exact (hagree c).2.2.2.2.2.2.1
  by_cases h7 : b = Proc.devRef .tc Cert.ReferenceIdeal.main_arg7
  · subst h7; rw [dif_neg h0, dif_neg h1, dif_neg h2, dif_neg h3, dif_neg h4, dif_neg h5, dif_neg h6, dif_pos rfl]; exact (hagree c).2.2.2.2.2.2.2.1
  by_cases h8 : b = Proc.devRef .tc Cert.ReferenceIdeal.main_arg8
  · subst h8; rw [dif_neg h0, dif_neg h1, dif_neg h2, dif_neg h3, dif_neg h4, dif_neg h5, dif_neg h6, dif_neg h7, dif_pos rfl]; exact (hagree c).2.2.2.2.2.2.2.2.1
  by_cases h9 : b = Proc.devRef .tc Cert.ReferenceIdeal.main_arg9
  · subst h9; rw [dif_neg h0, dif_neg h1, dif_neg h2, dif_neg h3, dif_neg h4, dif_neg h5, dif_neg h6, dif_neg h7, dif_neg h8, dif_pos rfl]; exact (hagree c).2.2.2.2.2.2.2.2.2
  rw [dif_neg h0, dif_neg h1, dif_neg h2, dif_neg h3, dif_neg h4, dif_neg h5, dif_neg h6, dif_neg h7, dif_neg h8, dif_neg h9]

set_option maxRecDepth 65536 in
set_option maxHeartbeats 1000000000 in
/-- The `xy` feature array: the reference's fold and the kernel's fold at it unfold to the same operations of the same
    arguments. -/
theorem feat_xy (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v182)) = V m c Cert.KernelIdeal.main_v182 := rfl

set_option maxRecDepth 65536 in
set_option maxHeartbeats 1000000000 in
/-- The `xz` feature array: the reference's fold and the kernel's fold at it unfold to the same operations of the same
    arguments. -/
theorem feat_xz (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v348)) = V m c Cert.KernelIdeal.main_v348 := rfl

set_option maxRecDepth 65536 in
set_option maxHeartbeats 1000000000 in
/-- The `yz` feature array: the reference's fold and the kernel's fold at it unfold to the same operations of the same
    arguments. -/
theorem feat_yz (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v514)) = V m c Cert.KernelIdeal.main_v514 := rfl

set_option maxRecDepth 65536 in
set_option maxHeartbeats 1000000000 in
/-- The `x` feature array: the reference's fold and the kernel's fold at it unfold to the same operations of the same
    arguments. -/
theorem feat_x (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v565)) = V m c Cert.KernelIdeal.main_v565 := rfl

set_option maxRecDepth 65536 in
set_option maxHeartbeats 1000000000 in
/-- The `y` feature array: the reference's fold and the kernel's fold at it unfold to the same operations of the same
    arguments. -/
theorem feat_y (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v616)) = V m c Cert.KernelIdeal.main_v616 := rfl

set_option maxRecDepth 65536 in
set_option maxHeartbeats 1000000000 in
/-- The `z` feature array: the reference's fold and the kernel's fold at it unfold to the same operations of the same
    arguments. -/
theorem feat_z (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v667)) = V m c Cert.KernelIdeal.main_v667 := rfl

set_option maxRecDepth 65536 in
set_option maxHeartbeats 1000000000 in
/-- The argument `f` is as launched: no operation writes it. -/
theorem arg_f (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_arg7)) = m ((c.tc : Thread Cert.KernelIdeal.nD Cert.KernelIdeal.τ).loc Cert.KernelIdeal.main_arg7) := rfl

set_option maxRecDepth 65536 in
set_option maxHeartbeats 1000000000 in
/-- The reference's result is its last five operations (`joined`) of its own six feature arrays and `f`: the fold at the
    result unfolds to the contraction of the joined products of the folds at the six arrays. -/
theorem tail (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    (after (Cert.ReferenceIdeal.ValueP.ops (F := Ideal)) (withArgs m c U) (Proc.devRef .tc Cert.ReferenceIdeal.main_v672))
      = Cert.ReferenceIdeal.RefValue.joined (after (Cert.ReferenceIdeal.ValueP.ops (F := Ideal)) (withArgs m c U) (Proc.devRef .tc Cert.ReferenceIdeal.main_v182)) (after (Cert.ReferenceIdeal.ValueP.ops (F := Ideal)) (withArgs m c U) (Proc.devRef .tc Cert.ReferenceIdeal.main_v348))
          (after (Cert.ReferenceIdeal.ValueP.ops (F := Ideal)) (withArgs m c U) (Proc.devRef .tc Cert.ReferenceIdeal.main_v514)) (after (Cert.ReferenceIdeal.ValueP.ops (F := Ideal)) (withArgs m c U) (Proc.devRef .tc Cert.ReferenceIdeal.main_v565))
          (after (Cert.ReferenceIdeal.ValueP.ops (F := Ideal)) (withArgs m c U) (Proc.devRef .tc Cert.ReferenceIdeal.main_v616)) (after (Cert.ReferenceIdeal.ValueP.ops (F := Ideal)) (withArgs m c U) (Proc.devRef .tc Cert.ReferenceIdeal.main_v667))
          (after (Cert.ReferenceIdeal.ValueP.ops (F := Ideal)) (withArgs m c U) (Proc.devRef .tc Cert.ReferenceIdeal.main_arg7)) := rfl

/-- From such a valuation the reference's fold ends with its result at `joined` of the six arrays the kernel's region
    finds and the argument `f`. -/
theorem fold_eq (m : (ℓ : Loc Cert.KernelIdeal.nD Cert.KernelIdeal.τ Cert.KernelIdeal.sig) → Buf (Elt Ideal) ℓ) (c : Dev Cert.KernelIdeal.nD) (U : Valuation Cert.ReferenceIdeal.τ Cert.ReferenceIdeal.sig (Elt Ideal)) :
    after (Cert.ReferenceIdeal.ValueP.ops (F := Ideal)) (withArgs m c U) (Proc.devRef .tc Cert.ReferenceIdeal.main_v672)
      = Cert.ReferenceIdeal.RefValue.joined (V m c Cert.KernelIdeal.main_v182) (V m c Cert.KernelIdeal.main_v348) (V m c Cert.KernelIdeal.main_v514)
          (V m c Cert.KernelIdeal.main_v565) (V m c Cert.KernelIdeal.main_v616) (V m c Cert.KernelIdeal.main_v667)
          (m ((c.tc : Thread Cert.KernelIdeal.nD Cert.KernelIdeal.τ).loc Cert.KernelIdeal.main_arg7)) := by
  rw [tail m c U, feat_xy m c U, feat_xz m c U, feat_yz m c U, feat_x m c U, feat_y m c U, feat_z m c U, arg_f m c U]
/-- The reference's result, from a memory that agrees with the kernel's on the arguments. -/
theorem reference_result (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    after (Cert.ReferenceIdeal.ValueP.ops (F := Ideal)) (launchContents m' c) (Proc.devRef .tc Cert.ReferenceIdeal.main_v672)
      = Cert.ReferenceIdeal.RefValue.joined (V m c Cert.KernelIdeal.main_v182) (V m c Cert.KernelIdeal.main_v348) (V m c Cert.KernelIdeal.main_v514)
          (V m c Cert.KernelIdeal.main_v565) (V m c Cert.KernelIdeal.main_v616) (V m c Cert.KernelIdeal.main_v667)
          (m ((c.tc : Thread Cert.KernelIdeal.nD Cert.KernelIdeal.τ).loc Cert.KernelIdeal.main_arg7)) := by
  rw [launch_eq m m' hagree c]
  exact fold_eq m c _

end Cert.Bridge

end
-- ==== Proof.lean ====
/-
  A fused feature product on a tensor-factorised grid: for N = 1,000,000 points, six [N, 24] feature arrays
  (three sampled from planes, three from vectors, by the same index arithmetic, gathers and bilinear blends in both
  programs) are multiplied pairwise and contracted against a [72, 28] array `f`.

  The kernel takes the six feature arrays 4000 rows at a time and computes, per block,
      (xy·z) · f[0:24] + (xz·y) · f[24:48] + (yz·x) · f[48:72]
  as three [4000, 24] × [24, 28] products into zero accumulators, added in that order. The reference lays the three
  products side by side into an [N, 72] array and contracts it once against all 72 rows of `f`. On the extended reals a
  change of float format is the identity and every operation is exact, so both are, index by index,
      out[n, c] = Σ_{r < 24} xy[n,r]·z[n,r]·f[r,c] + Σ_{r < 24} xz[n,r]·y[n,r]·f[24+r,c] + Σ_{r < 24} yz[n,r]·x[n,r]·f[48+r,c]
  (`Cert.Fuse.fuse`): the reference's 72-term sum splits into its three runs of 24 (commutativity and associativity of
  + only, so no finiteness is used). The modules:
    * Spec      — `fuse`, the three-run split of a 72-term sum, a three-piece concatenation read at an index;
    * BodyAt    — the kernel body's stored value at an index of its block;
    * Blocks    — what each grid point writes back is its block of `fuse`; the 250 blocks cover the output; the run;
    * RefAlg    — the reference's last five operations are `fuse`;
    * RefRun    — the reference's run, its result as the fold of its host operations; no operation writes an argument;
    * Bridge    — the reference's fold and the kernel's fold of the shared host operations are the same operations of the
                  same arguments, so the reference's result is its last five operations of the six arrays the region finds;
    * KernelFrameP, KernelIdealFrameP, ReferenceRunP — the frame certificates and the reference's operations as a list.
  The ideal pass rewrote nothing, so `preserves` is `True`.
-/
import proofs.«148834_j1726576856425_2_alg».proof.Defs
import proofs.«148834_j1726576856425_2_alg».proof.Proof.Gen.Kernel
import proofs.«148834_j1726576856425_2_alg».proof.Proof.Gen.KernelIdeal
import proofs.«148834_j1726576856425_2_alg».proof.Proof.Gen.ReferenceIdeal
import proofs.«148834_j1726576856425_2_alg».proof.Proof.Gen.Pre_finite_inputs
import proofs.«148834_j1726576856425_2_alg».proof.Proof.KernelFrameP
import proofs.«148834_j1726576856425_2_alg».proof.Proof.KernelIdealFrameP
import proofs.«148834_j1726576856425_2_alg».proof.Proof.ReferenceRunP
import proofs.«148834_j1726576856425_2_alg».proof.Proof.RefRun
import proofs.«148834_j1726576856425_2_alg».proof.Proof.Blocks
import proofs.«148834_j1726576856425_2_alg».proof.Proof.RefAlg
import proofs.«148834_j1726576856425_2_alg».proof.Proof.Bridge
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.GenP.frame m ρ

/-- So does the idealized kernel. -/
theorem frame_kernel_ideal : Cert.frame_KernelIdeal := fun m ρ _ => Cert.KernelIdeal.GenP.frame m ρ

/-- The reference runs, and no operation of it writes an argument. -/
theorem frame_reference_ideal : Cert.frame_ReferenceIdeal := fun m ρ _ =>
  (θ_run Cert.ReferenceIdeal.defs _ _).mono (fun _ h c =>
    ⟨(h c Cert.ReferenceIdeal.main_arg0).trans (Cert.ReferenceIdeal.RefRun.arg0_kept m c),
      (h c Cert.ReferenceIdeal.main_arg1).trans (Cert.ReferenceIdeal.RefRun.arg1_kept m c),
      (h c Cert.ReferenceIdeal.main_arg2).trans (Cert.ReferenceIdeal.RefRun.arg2_kept m c),
      (h c Cert.ReferenceIdeal.main_arg3).trans (Cert.ReferenceIdeal.RefRun.arg3_kept m c),
      (h c Cert.ReferenceIdeal.main_arg4).trans (Cert.ReferenceIdeal.RefRun.arg4_kept m c),
      (h c Cert.ReferenceIdeal.main_arg5).trans (Cert.ReferenceIdeal.RefRun.arg5_kept m c),
      (h c Cert.ReferenceIdeal.main_arg6).trans (Cert.ReferenceIdeal.RefRun.arg6_kept m c),
      (h c Cert.ReferenceIdeal.main_arg7).trans (Cert.ReferenceIdeal.RefRun.arg7_kept m c),
      (h c Cert.ReferenceIdeal.main_arg8).trans (Cert.ReferenceIdeal.RefRun.arg8_kept m c),
      (h c Cert.ReferenceIdeal.main_arg9).trans (Cert.ReferenceIdeal.RefRun.arg9_kept m c)⟩)
    (Cert.ReferenceIdeal.RefRun.run_fold (F := Ideal) m ρ)

/-- The ideal pass rewrote no operation. -/
theorem preserves : Cert.preserves_Kernel_KernelIdeal := trivial

/-- Both runs end with the output at `fuse` of the six feature arrays the kernel's region finds and `f`: the kernel's by
    its blocks, the reference's because its result is its last five operations of those same six arrays. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c =>
    ⟨(h c Cert.ReferenceIdeal.main_v672).trans ((Cert.Bridge.reference_result m m' hagree c).trans
        (Cert.ReferenceIdeal.RefValue.joined_eq_fuse _ _ _ _ _ _ _)),
      (h c Cert.ReferenceIdeal.main_arg0).trans (Cert.ReferenceIdeal.RefRun.arg0_kept m' c),
      (h c Cert.ReferenceIdeal.main_arg1).trans (Cert.ReferenceIdeal.RefRun.arg1_kept m' c),
      (h c Cert.ReferenceIdeal.main_arg2).trans (Cert.ReferenceIdeal.RefRun.arg2_kept m' c),
      (h c Cert.ReferenceIdeal.main_arg3).trans (Cert.ReferenceIdeal.RefRun.arg3_kept m' c),
      (h c Cert.ReferenceIdeal.main_arg4).trans (Cert.ReferenceIdeal.RefRun.arg4_kept m' c),
      (h c Cert.ReferenceIdeal.main_arg5).trans (Cert.ReferenceIdeal.RefRun.arg5_kept m' c),
      (h c Cert.ReferenceIdeal.main_arg6).trans (Cert.ReferenceIdeal.RefRun.arg6_kept m' c),
      (h c Cert.ReferenceIdeal.main_arg7).trans (Cert.ReferenceIdeal.RefRun.arg7_kept m' c),
      (h c Cert.ReferenceIdeal.main_arg8).trans (Cert.ReferenceIdeal.RefRun.arg8_kept m' c),
      (h c Cert.ReferenceIdeal.main_arg9).trans (Cert.ReferenceIdeal.RefRun.arg9_kept m' c)⟩)
    (Cert.ReferenceIdeal.RefRun.run_fold (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
